-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x1024 : Shape := ⟨3, ![4, 1024, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x1024x1024 .f32) (main_arg1 : FVec F S1024x3072 .f32) (main_arg2 : FVec F S3072 .f32) (main_arg3 : FVec F S1024x1024 .f32) (main_arg4 : FVec F S1024 .f32) : IVec S_ 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x1024x1024 : Shape := ⟨3, ![4, 1024, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4096x1024 : Shape := ⟨2, ![4096, 1024]⟩
abbrev S1x3072 : Shape := ⟨2, ![1, 3072]⟩
abbrev S4096x3072 : Shape := ⟨2, ![4096, 3072]⟩
abbrev S512x1024 : Shape := ⟨2, ![512, 1024]⟩
abbrev S512x3072 : Shape := ⟨2, ![512, 3072]⟩
abbrev S4x1024x3072 : Shape := ⟨3, ![4, 1024, 3072]⟩
abbrev S4x1024x16x64 : Shape := ⟨4, ![4, 1024, 16, 64]⟩
abbrev S4x16x1024x64 : Shape := ⟨4, ![4, 16, 1024, 64]⟩
abbrev S1x4x16x1024x64 : Shape := ⟨5, ![1, 4, 16, 1024, 64]⟩
abbrev S2x4x16x1024x64 : Shape := ⟨5, ![2, 4, 16, 1024, 64]⟩
abbrev S1x1024x128 : Shape := ⟨3, ![1, 1024, 128]⟩
abbrev S1x1024x64 : Shape := ⟨3, ![1, 1024, 64]⟩
abbrev S1024x64 : Shape := ⟨2, ![1024, 64]⟩
abbrev S1024x1 : Shape := ⟨2, ![1024, 1]⟩
abbrev S1x1024 : Shape := ⟨2, ![1, 1024]⟩

abbrev nBuf : Space → Nat
  | .hbm => 28
  | .vmem => 20
  | .smem => 0
  | _ => 0

abbrev bufTy : (tb : Table) → Fin (tcTables nBuf tb) → BufTy
  | .hbm, ⟨0, _⟩ => ⟨S4x1024x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S4096x1024, .bf16⟩
  | .hbm, ⟨7, _⟩ => ⟨S1024x3072, .bf16⟩
  | .hbm, ⟨8, _⟩ => ⟨S1x3072, .f32⟩
  | .hbm, ⟨9, _⟩ => ⟨S4096x3072, .f32⟩
  | .hbm, ⟨10, _⟩ => ⟨S4x1024x3072, .f32⟩
  | .hbm, ⟨11, _⟩ => ⟨S4x1024x1024, .f32⟩
  | .hbm, ⟨12, _⟩ => ⟨S4x1024x1024, .f32⟩
  | .hbm, ⟨13, _⟩ => ⟨S4x1024x1024, .f32⟩
  | .hbm, ⟨14, _⟩ => ⟨S4x1024x16x64, .f32⟩
  | .hbm, ⟨15, _⟩ => ⟨S4x16x1024x64, .f32⟩
  | .hbm, ⟨16, _⟩ => ⟨S4x1024x16x64, .f32⟩
  | .hbm, ⟨17, _⟩ => ⟨S4x16x1024x64, .f32⟩
  | .hbm, ⟨18, _⟩ => ⟨S1x4x16x1024x64, .f32⟩
  | .hbm, ⟨19, _⟩ => ⟨S1x4x16x1024x64, .f32⟩
  | .hbm, ⟨20, _⟩ => ⟨S2x4x16x1024x64, .f32⟩
  | .hbm, ⟨21, _⟩ => ⟨S4x1024x1024, .f32⟩
  | .hbm, ⟨22, _⟩ => ⟨S4096x1024, .f32⟩
  | .hbm, ⟨23, _⟩ => ⟨S4096x1024, .bf16⟩
  | .hbm, ⟨24, _⟩ => ⟨S1024x1024, .bf16⟩
  | .hbm, ⟨25, _⟩ => ⟨S1x1024, .f32⟩
  | .hbm, ⟨26, _⟩ => ⟨S4096x1024, .f32⟩
  | .hbm, ⟨27, _⟩ => ⟨S4x1024x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S1x3072, .f32⟩
  | .local _ .vmem, ⟨4, _⟩ => ⟨S512x3072, .f32⟩
  | .local _ .vmem, ⟨5, _⟩ => ⟨S512x3072, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x1024x1024_S4096x1024 : S4x1024x1024.ShapeCasts S4096x1024
  bitsLt_bf16_f32 : FTy.bits .bf16 < FTy.bits .f32
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  shapeCasts_S4096x3072_S4x1024x3072 : S4096x3072.ShapeCasts S4x1024x3072
  slices_S4x1024x3072_S4x1024x1024_0_0_0 : S4x1024x3072.Slices ![0, 0, 0] S4x1024x1024
  slices_S4x1024x3072_S4x1024x1024_0_0_1024 : S4x1024x3072.Slices ![0, 0, 1024] S4x1024x1024
  slices_S4x1024x3072_S4x1024x1024_0_0_2048 : S4x1024x3072.Slices ![0, 0, 2048] S4x1024x1024
  shapeCasts_S4x1024x1024_S4x1024x16x64 : S4x1024x1024.ShapeCasts S4x1024x16x64
  transposes_S4x1024x16x64_S4x16x1024x64_0_2_1_3 : S4x1024x16x64.Transposes [0, 2, 1, 3] S4x16x1024x64
  bcast_S4x16x1024x64_S1x4x16x1024x64_1_2_3_4 : S4x16x1024x64.BroadcastsInDim S1x4x16x1024x64 (![1, 2, 3, 4] : Fin 4 → Fin S1x4x16x1024x64.rank)
  concatenates_S1x4x16x1024x64_S1x4x16x1024x64_S2x4x16x1024x64_d0 : Shape.Concatenates [S1x4x16x1024x64, S1x4x16x1024x64] S2x4x16x1024x64 0
  iota_S1024x1024_d0_w32 : S1024x1024.Iotas .tc 32 [0]
  iota_S1024x1024_d1_w32 : S1024x1024.Iotas .tc 32 [1]
  inb_S1x1024x128_S1x1024x64_0_0_0 : ∀ a, (![0, 0, 0] : Fin 3 → Nat) a + S1x1024x64.size a ≤ S1x1024x128.size a
  h_S1x1024x64 : 0 < S1x1024x64.numel
  shapeCasts_S1x1024x64_S1024x64 : S1x1024x64.ShapeCasts S1024x64
  reduces_S1024x1024_S1024 : S1024x1024.Reduces [1] S1024
  shapeCasts_S1024_S1024x1 : S1024.ShapeCasts S1024x1
  broadcasts_S1024x1_S1024x1024 : S1024x1.Broadcasts S1024x1024
  shapeCasts_S1024x64_S1x1024x64 : S1024x64.ShapeCasts S1x1024x64
  inb_S1x1024x128_S1x1024x64_0_0_64 : ∀ a, (![0, 0, 64] : Fin 3 → Nat) a + S1x1024x64.size a ≤ S1x1024x128.size a
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S4x1024x1024 : S4096x1024.ShapeCasts S4x1024x1024
  dot_S512x1024_S1024x3072_S512x3072_1_0_0_1_n_n_wf : DotDims.WF S512x1024 S1024x3072 S512x3072 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S4096x3072.size a
  hwx0_3 : ∀ i : grid0.Coords, EltTy.bits .f32 = 32 ∨ (Rect.block (s := S4096x3072) S512x3072.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S4x1024x3072.size a
  hwx1_0 : ∀ i : grid1.Coords, EltTy.bits .f32 = 32 ∨ (Rect.block (s := S4x1024x3072) S1x1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S4x1024x3072.size a
  hwx1_1 : ∀ i : grid1.Coords, EltTy.bits .f32 = 32 ∨ (Rect.block (s := S4x1024x3072) S1x1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S4x1024x3072.size a
  hwx1_2 : ∀ i : grid1.Coords, EltTy.bits .f32 = 32 ∨ (Rect.block (s := S4x1024x3072) S1x1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S4x1024x1024.size a
  hwx1_3 : ∀ i : grid1.Coords, EltTy.bits .f32 = 32 ∨ (Rect.block (s := S4x1024x1024) S1x1024x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v18) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x1024x1024 : Shape := ⟨3, ![4, 1024, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4x1024x3072 : Shape := ⟨3, ![4, 1024, 3072]⟩
abbrev S1x1x3072 : Shape := ⟨3, ![1, 1, 3072]⟩
abbrev S4x1024x16x64 : Shape := ⟨4, ![4, 1024, 16, 64]⟩
abbrev S4x16x1024x64 : Shape := ⟨4, ![4, 16, 1024, 64]⟩
abbrev S1x4x16x1024x64 : Shape := ⟨5, ![1, 4, 16, 1024, 64]⟩
abbrev S2x4x16x1024x64 : Shape := ⟨5, ![2, 4, 16, 1024, 64]⟩
abbrev S4x16x1024x1024 : Shape := ⟨4, ![4, 16, 1024, 1024]⟩
abbrev S_ : Shape := ⟨0, ![]⟩
abbrev S1x1x1024x1024 : Shape := ⟨4, ![1, 1, 1024, 1024]⟩
abbrev S4x16x1024 : Shape := ⟨3, ![4, 16, 1024]⟩
abbrev S4x16x1024x1 : Shape := ⟨4, ![4, 16, 1024, 1]⟩
abbrev S1x1x1024 : Shape := ⟨3, ![1, 1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x1024x3072, .f32⟩
  | .hbm, ⟨6, _⟩ => ⟨S1x1x3072, .f32⟩
  | .hbm, ⟨7, _⟩ => ⟨S4x1024x3072, .f32⟩
  | .hbm, ⟨8, _⟩ => ⟨S4x1024x3072, .f32⟩
  | .hbm, ⟨9, _⟩ => ⟨S4x1024x1024, .f32⟩
  | .hbm, ⟨10, _⟩ => ⟨S4x1024x1024, .f32⟩
  | .hbm, ⟨11, _⟩ => ⟨S4x1024x1024, .f32⟩
  | .hbm, ⟨12, _⟩ => ⟨S4x1024x16x64, .f32⟩
  | .hbm, ⟨13, _⟩ => ⟨S4x16x1024x64, .f32⟩
  | .hbm, ⟨14, _⟩ => ⟨S4x1024x16x64, .f32⟩
  | .hbm, ⟨15, _⟩ => ⟨S4x16x1024x64, .f32⟩
  | .hbm, ⟨16, _⟩ => ⟨S4x1024x16x64, .f32⟩
  | .hbm, ⟨17, _⟩ => ⟨S4x16x1024x64, .f32⟩
  | .hbm, ⟨18, _⟩ => ⟨S1x4x16x1024x64, .f32⟩
  | .hbm, ⟨19, _⟩ => ⟨S1x4x16x1024x64, .f32⟩
  | .hbm, ⟨20, _⟩ => ⟨S2x4x16x1024x64, .f32⟩
  | .hbm, ⟨21, _⟩ => ⟨S4x16x1024x1024, .f32⟩
  | .hbm, ⟨22, _⟩ => ⟨S_, .f32⟩
  | .hbm, ⟨23, _⟩ => ⟨S4x16x1024x1024, .f32⟩
  | .hbm, ⟨24, _⟩ => ⟨S4x16x1024x1024, .f32⟩
  | .hbm, ⟨25, _⟩ => ⟨S_, .f32⟩
  | .hbm, ⟨26, _⟩ => ⟨S1024x1024, .f32⟩
  | .hbm, ⟨27, _⟩ => ⟨S1024x1024, .i32⟩
  | .hbm, ⟨28, _⟩ => ⟨S_, .i32⟩
  | .hbm, ⟨29, _⟩ => ⟨S1024x1024, .i32⟩
  | .hbm, ⟨30, _⟩ => ⟨S1024x1024, .i32⟩
  | .hbm, ⟨31, _⟩ => ⟨S1024x1024, .i32⟩
  | .hbm, ⟨32, _⟩ => ⟨S1024x1024, .i1⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1x1x1024x1024, .f32⟩
  | .hbm, ⟨37, _⟩ => ⟨S4x16x1024x1024, .f32⟩
  | .hbm, ⟨38, _⟩ => ⟨S4x16x1024x1024, .f32⟩
  | .hbm, ⟨39, _⟩ => ⟨S_, .f32⟩
  | .hbm, ⟨40, _⟩ => ⟨S1024x1024, .f32⟩
  | .hbm, ⟨41, _⟩ => ⟨S1024x1024, .f32⟩
  | .hbm, ⟨42, _⟩ => ⟨S_, .f32⟩
  | .hbm, ⟨43, _⟩ => ⟨S1024x1024, .f32⟩
  | .hbm, ⟨44, _⟩ => ⟨S1024x1024, .f32⟩
  | .hbm, ⟨45, _⟩ => ⟨S1x1x1024x1024, .f32⟩
  | .hbm, ⟨46, _⟩ => ⟨S4x16x1024x1024, .f32⟩
  | .hbm, ⟨47, _⟩ => ⟨S4x16x1024x1024, .f32⟩
  | .hbm, ⟨48, _⟩ => ⟨S_, .f32⟩
  | .hbm, ⟨49, _⟩ => ⟨S4x16x1024, .f32⟩
  | .hbm, ⟨50, _⟩ => ⟨S_, .f32⟩
  | .hbm, ⟨51, _⟩ => ⟨S4x16x1024, .f32⟩
  | .hbm, ⟨52, _⟩ => ⟨S4x16x1024, .f32⟩
  | .hbm, ⟨53, _⟩ => ⟨S4x16x1024x1, .f32⟩
  | .hbm, ⟨54, _⟩ => ⟨S4x16x1024x1024, .f32⟩
  | .hbm, ⟨55, _⟩ => ⟨S4x16x1024x1024, .f32⟩
  | .hbm, ⟨56, _⟩ => ⟨S4x16x1024x1024, .f32⟩
  | .hbm, ⟨57, _⟩ => ⟨S_, .f32⟩
  | .hbm, ⟨58, _⟩ => ⟨S4x16x1024, .f32⟩
  | .hbm, ⟨59, _⟩ => ⟨S4x16x1024x1, .f32⟩
  | .hbm, ⟨60, _⟩ => ⟨S4x16x1024x1024, .f32⟩
  | .hbm, ⟨61, _⟩ => ⟨S4x16x1024x1024, .f32⟩
  | .hbm, ⟨62, _⟩ => ⟨S4x16x1024x64, .f32⟩
  | .hbm, ⟨63, _⟩ => ⟨S4x1024x16x64, .f32⟩
  | .hbm, ⟨64, _⟩ => ⟨S4x1024x1024, .f32⟩
  | .hbm, ⟨65, _⟩ => ⟨S4x1024x1024, .f32⟩
  | .hbm, ⟨66, _⟩ => ⟨S1x1x1024, .f32⟩
  | .hbm, ⟨67, _⟩ => ⟨S4x1024x1024, .f32⟩
  | .hbm, ⟨68, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_cst : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x1024x3072_0_1_2 : S1x1x3072.BroadcastsInDim S4x1024x3072 (![0, 1, 2] : Fin 3 → Fin S4x1024x3072.rank)
  slices_S4x1024x3072_S4x1024x1024_0_0_0 : S4x1024x3072.Slices ![0, 0, 0] S4x1024x1024
  slices_S4x1024x3072_S4x1024x1024_0_0_1024 : S4x1024x3072.Slices ![0, 0, 1024] S4x1024x1024
  slices_S4x1024x3072_S4x1024x1024_0_0_2048 : S4x1024x3072.Slices ![0, 0, 2048] S4x1024x1024
  shapeCasts_S4x1024x1024_S4x1024x16x64 : S4x1024x1024.ShapeCasts S4x1024x16x64
  transposes_S4x1024x16x64_S4x16x1024x64_0_2_1_3 : S4x1024x16x64.Transposes [0, 2, 1, 3] S4x16x1024x64
  bcast_S4x16x1024x64_S1x4x16x1024x64_1_2_3_4 : S4x16x1024x64.BroadcastsInDim S1x4x16x1024x64 (![1, 2, 3, 4] : Fin 4 → Fin S1x4x16x1024x64.rank)
  concatenates_S1x4x16x1024x64_S1x4x16x1024x64_S2x4x16x1024x64_d0 : Shape.Concatenates [S1x4x16x1024x64, S1x4x16x1024x64] S2x4x16x1024x64 0
  bcast_S_S4x16x1024x1024 : S_.BroadcastsInDim S4x16x1024x1024 (![] : Fin 0 → Fin S4x16x1024x1024.rank)
  bcast_S_S1024x1024 : S_.BroadcastsInDim S1024x1024 (![] : Fin 0 → Fin S1024x1024.rank)
  bcast_S1024x1024_S1x1x1024x1024_2_3 : S1024x1024.BroadcastsInDim S1x1x1024x1024 (![2, 3] : Fin 2 → Fin S1x1x1024x1024.rank)
  bcast_S1x1x1024x1024_S4x16x1024x1024_0_1_2_3 : S1x1x1024x1024.BroadcastsInDim S4x16x1024x1024 (![0, 1, 2, 3] : Fin 4 → Fin S4x16x1024x1024.rank)
  reducesTo_S4x16x1024x1024_S4x16x1024_d3 : S4x16x1024x1024.ReducesTo [3] S4x16x1024
  h_S_ : 0 < S_.numel
  bcast_S_S4x16x1024 : S_.BroadcastsInDim S4x16x1024 (![] : Fin 0 → Fin S4x16x1024.rank)
  bcast_S4x16x1024_S4x16x1024x1_0_1_2 : S4x16x1024.BroadcastsInDim S4x16x1024x1 (![0, 1, 2] : Fin 3 → Fin S4x16x1024x1.rank)
  bcast_S4x16x1024x1_S4x16x1024x1024_0_1_2_3 : S4x16x1024x1.BroadcastsInDim S4x16x1024x1024 (![0, 1, 2, 3] : Fin 4 → Fin S4x16x1024x1024.rank)
  transposes_S4x16x1024x64_S4x1024x16x64_0_2_1_3 : S4x16x1024x64.Transposes [0, 2, 1, 3] S4x1024x16x64
  shapeCasts_S4x1024x16x64_S4x1024x1024 : S4x1024x16x64.ShapeCasts S4x1024x1024
  bcast_S1024_S1x1x1024_2 : S1024.BroadcastsInDim S1x1x1024 (![2] : Fin 1 → Fin S1x1x1024.rank)
  bcast_S1x1x1024_S4x1024x1024_0_1_2 : S1x1x1024.BroadcastsInDim S4x1024x1024 (![0, 1, 2] : Fin 3 → Fin S4x1024x1024.rank)
  dot_S4x1024x1024_S1024x3072_S4x1024x3072_2_0_01_1_n_n_wf : DotDims.WF S4x1024x1024 S1024x3072 S4x1024x3072 [2] [0] [0, 1] [1] [] []
  dot_S4x16x1024x64_S4x16x1024x64_S4x16x1024x1024_3_3_2_2_01_01_wf : DotDims.WF S4x16x1024x64 S4x16x1024x64 S4x16x1024x1024 [3] [3] [2] [2] [0, 1] [0, 1]
  dot_S4x16x1024x1024_S4x16x1024x64_S4x16x1024x64_3_2_2_3_01_01_wf : DotDims.WF S4x16x1024x1024 S4x16x1024x64 S4x16x1024x64 [3] [2] [2] [3] [0, 1] [0, 1]
  dot_S4x1024x1024_S1024x1024_S4x1024x1024_2_0_01_1_n_n_wf : DotDims.WF S4x1024x1024 S1024x1024 S4x1024x1024 [2] [0] [0, 1] [1] [] []

variable [Facts₀]

def dot_S4x1024x1024_S1024x3072_S4x1024x3072_2_0_01_1_n_n : DotDims S4x1024x1024 S1024x3072 S4x1024x3072 where
  lhsContracting := [2]
  rhsContracting := [0]
  lhsNonContracting := [0, 1]
  rhsNonContracting := [1]
  lhsBatch := []
  rhsBatch := []
  wf := dot_S4x1024x1024_S1024x3072_S4x1024x3072_2_0_01_1_n_n_wf
def dot_S4x16x1024x64_S4x16x1024x64_S4x16x1024x1024_3_3_2_2_01_01 : DotDims S4x16x1024x64 S4x16x1024x64 S4x16x1024x1024 where
  lhsContracting := [3]
  rhsContracting := [3]
  lhsNonContracting := [2]
  rhsNonContracting := [2]
  lhsBatch := [0, 1]
  rhsBatch := [0, 1]
  wf := dot_S4x16x1024x64_S4x16x1024x64_S4x16x1024x1024_3_3_2_2_01_01_wf
def dot_S4x16x1024x1024_S4x16x1024x64_S4x16x1024x64_3_2_2_3_01_01 : DotDims S4x16x1024x1024 S4x16x1024x64 S4x16x1024x64 where
  lhsContracting := [3]
  rhsContracting := [2]
  lhsNonContracting := [2]
  rhsNonContracting := [3]
  lhsBatch := [0, 1]
  rhsBatch := [0, 1]
  wf := dot_S4x16x1024x1024_S4x16x1024x64_S4x16x1024x64_3_2_2_3_01_01_wf
def dot_S4x1024x1024_S1024x1024_S4x1024x1024_2_0_01_1_n_n : DotDims S4x1024x1024 S1024x1024 S4x1024x1024 where
  lhsContracting := [2]
  rhsContracting := [0]
  lhsNonContracting := [0, 1]
  rhsNonContracting := [1]
  lhsBatch := []
  rhsBatch := []
  wf := dot_S4x1024x1024_S1024x1024_S4x1024x1024_2_0_01_1_n_n_wf

class Facts : Prop extends Facts₀ where

variable [Facts]
-- ==== Proof.K.Body0.lean ====
/- The first projection's region, on its own: what each grid point's body leaves in the output block, and the body's
   run on the staging buffers, at any contents the region is entered with. -/
import proofs.«103352_j54271206752754_2_alg».proof.Proof.Gen.Kernel.Launch
import proofs.«103352_j54271206752754_2_alg».proof.Proof.Gen.Kernel.Skeleton
import proofs.«103352_j54271206752754_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: a row block of `x · W + b`

The body reads a block of rows of the left operand, the whole right operand and the bias row, and stores the block of
rows of the product plus the bias. -/

/-- Window `w`'s block at point `t`, read off its array at the contents `V` the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched the window's index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-- The output window's staging buffer after the body: its one store, of the whole block, of the product of the
    loaded blocks plus the bias row. -/
def out0_3 (x0 : Vec F S512x1024 .bf16) (x1 : Vec F S1024x3072 .bf16) (x2 : Vec F S1x3072 .f32) : Vec F S512x3072 .f32 :=
  View.canon [⟨r0_3, k0_pay1 (View.ld x0 r0_0) (View.ld x1 r0_1) (View.ld x2 r0_2)⟩]

/-- The one store covers the buffer. -/
theorem cover0_3 (p0 : Vec F S512x3072 .f32) (y : S512x3072.Idx) :
    ∃ pc ∈ ([⟨r0_3, p0⟩] : List (View.Piece (Elt F) S512x3072 .f32)), y ∈ pc.1.set :=
  View.cover_of_tiled [⟨r0_3, p0⟩] S512x3072.size (by rfl) y

set_option maxHeartbeats 1000000 in
/-- The body on whole staging memrefs, the inputs' at contents `xW` and the output's at anything, runs to the
    continuation with the inputs' as they were and the output's at `out0_3` of the inputs'. -/
theorem sound_kernel0 (c : Dev nD) (E : Set ℕ) (i : grid0.Coords) (arg0 : Memref sig .tc .vmem S512x1024 .bf16) (harg0 : arg0.IsWhole) (arg1 : Memref sig .tc .vmem S1024x3072 .bf16) (harg1 : arg1.IsWhole)
    (arg2 : Memref sig .tc .vmem S1x3072 .f32) (harg2 : arg2.IsWhole) (arg3 : Memref sig .tc .vmem S512x3072 .f32) (harg3 : arg3.IsWhole)
    (x0 : Vec F S512x1024 .bf16) (x1 : Vec F S1024x3072 .bf16) (x2 : Vec F S1x3072 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at `out0_3` of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/- The attention region, on its own: what each grid point's body leaves in the output block (two 64-lane halves, one per
   head of the column block), and the body's run on the staging buffers, at any contents the region is entered with. -/
import proofs.«103352_j54271206752754_2_alg».proof.Proof.Gen.Kernel.Launch
import proofs.«103352_j54271206752754_2_alg».proof.Proof.Gen.Kernel.Skeleton
import proofs.«103352_j54271206752754_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: one batch and one 128-lane column block (two heads) of the attention -/

/-- Window `w`'s block at point `t`, read off its array at the contents `V` the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The two 64-lane halves of a [1,1024,128] block. -/
abbrev r1_lo : Rect S1x1024x128 := Rect.unit (s := S1x1024x128) ![0, 0, 0] S1x1024x64.size inb_S1x1024x128_S1x1024x64_0_0_0
abbrev r1_hi : Rect S1x1024x128 := Rect.unit (s := S1x1024x128) ![0, 0, 64] S1x1024x64.size inb_S1x1024x128_S1x1024x64_0_0_64

/-- The output window's staging buffer after the body: the low half holds head 0's attention of the low halves of the
    query, key and value blocks, the high half head 1's of the high halves (the stores last first). -/
def out1_3 (x0 x1 x2 : Vec F S1x1024x128 .f32) : Vec F S1x1024x128 .f32 :=
  View.canon [⟨r1_hi, k1_pay1 k1_pay2 (k1_pay4 (View.ld x0 r1_hi)) (View.ld x1 r1_hi) (View.ld x2 r1_hi)⟩,
    ⟨r1_lo, k1_pay3 (View.ld x0 r1_lo) (View.ld x1 r1_lo) (View.ld x2 r1_lo)⟩]

/-- The two stores tile the buffer. -/
theorem cover1_3 (p0 p1 : Vec F S1x1024x64 .f32) (y : S1x1024x128.Idx) :
    ∃ pc ∈ ([⟨r1_hi, p1⟩, ⟨r1_lo, p0⟩] : List (View.Piece (Elt F) S1x1024x128 .f32)), y ∈ pc.1.set :=
  View.cover_of_tiled [⟨r1_hi, p1⟩, ⟨r1_lo, p0⟩] S1x1024x64.size (by rfl) y

set_option maxHeartbeats 1000000 in
/-- The body on whole staging memrefs, the inputs' at contents `xW` and the output's at anything, runs to the
    continuation with the inputs' as they were and the output's at `out1_3` of the inputs'. -/
theorem sound_kernel1 (c : Dev nD) (E : Set ℕ) (i : grid1.Coords) (arg0 : Memref sig .tc .vmem S1x1024x128 .f32) (harg0 : arg0.IsWhole) (arg1 : Memref sig .tc .vmem S1x1024x128 .f32) (harg1 : arg1.IsWhole)
    (arg2 : Memref sig .tc .vmem S1x1024x128 .f32) (harg2 : arg2.IsWhole) (arg3 : Memref sig .tc .vmem S1x1024x128 .f32) (harg3 : arg3.IsWhole)
    (x0 x1 x2 : Vec F S1x1024x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__fused_attn_kernel i arg0 harg0 arg1 harg1 arg2 harg2 arg3 harg3) K := by
  simp only [cc1__fused_attn_kernel_eq_skeleton]; unfold cc1__fused_attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _ _)

/-- The input windows' shares of the array the three of them read: its two halves, the second halved again. -/
def qIn : Fin cfg1.W → PosShare TreeShare
  | ⟨0, _⟩ => fullShare.left
  | ⟨1, _⟩ => fullShare.right.left
  | ⟨2, _⟩ => fullShare.right.right
  | ⟨3, _⟩ => fullShare

/-- The proof data of pipeline 1 on core `c`: the arrays as the region finds them; after the body at point `t` each
    input's buffer at its block and the output's at `out1_3` of the input blocks; the invariant is the scoped rest and
    the generator register, untouched; nothing owed; the three input windows hold the one array they read at the shares `qIn`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := qIn
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/- The second projection's region, on its own: what each grid point's body leaves in the output block, and the body's
   run on the staging buffers, at any contents the region is entered with. -/
import proofs.«103352_j54271206752754_2_alg».proof.Proof.Gen.Kernel.Launch
import proofs.«103352_j54271206752754_2_alg».proof.Proof.Gen.Kernel.Skeleton
import proofs.«103352_j54271206752754_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: a row block of `x · W + b`

The body reads a block of rows of the left operand, the whole right operand and the bias row, and stores the block of
rows of the product plus the bias. -/

/-- Window `w`'s block at point `t`, read off its array at the contents `V` the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is not
    fetched the window's index has not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S512x1024 := Rect.unit (s := S512x1024) ![0, 0] S512x1024.size inb_S512x1024_S512x1024_0_0

/-- The output window's staging buffer after the body: its one store, of the whole block, of the product of the
    loaded blocks plus the bias row. -/
def out2_3 (x0 : Vec F S512x1024 .bf16) (x1 : Vec F S1024x1024 .bf16) (x2 : Vec F S1x1024 .f32) : Vec F S512x1024 .f32 :=
  View.canon [⟨r2_3, k2_pay1 (View.ld x0 r2_0) (View.ld x1 r2_1) (View.ld x2 r2_2)⟩]

/-- The one store covers the buffer. -/
theorem cover2_3 (p0 : Vec F S512x1024 .f32) (y : S512x1024.Idx) :
    ∃ pc ∈ ([⟨r2_3, p0⟩] : List (View.Piece (Elt F) S512x1024 .f32)), y ∈ pc.1.set :=
  View.cover_of_tiled [⟨r2_3, p0⟩] S512x1024.size (by rfl) y

set_option maxHeartbeats 1000000 in
/-- The body on whole staging memrefs, the inputs' at contents `xW` and the output's at anything, runs to the
    continuation with the inputs' as they were and the output's at `out2_3` of the inputs'. -/
theorem sound_kernel2 (c : Dev nD) (E : Set ℕ) (i : grid2.Coords) (arg0 : Memref sig .tc .vmem S512x1024 .bf16) (harg0 : arg0.IsWhole) (arg1 : Memref sig .tc .vmem S1024x1024 .bf16) (harg1 : arg1.IsWhole)
    (arg2 : Memref sig .tc .vmem S1x1024 .f32) (harg2 : arg2.IsWhole) (arg3 : Memref sig .tc .vmem S512x1024 .f32) (harg3 : arg3.IsWhole)
    (x0 : Vec F S512x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__linear_kernel i arg0 harg0 arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t` each
    input's buffer at its block and the output's at `out2_3` of the input blocks; the invariant is the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Shared.lean ====
/- Region 1 reads ONE array through three input windows. At the region's entry the array, held whole, is split into three
   read shares, one per window; at its exit the three shares, all at the contents the region was entered with, are put
   together again, and the output array is taken at what the region's write-backs left. -/
import proofs.«103352_j54271206752754_2_alg».proof.Proof.K.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The distinct buffers behind region 1's four windows. -/
theorem arrs1 : (Finset.univ.image (Pipeline.arrRef spec1) : Finset (Ref sig .tc)) = {main_v5, main_v16} := by decide

/-- A buffer held whole is held in three parts: its left half, and the two halves of its right half. -/
theorem split3 {c : Dev nD} (b : Ref sig .tc) (f : Buf (Elt F) ((c : Thread nD τ).loc b)) :
    ((((c : Thread nD τ).loc b) ↦{fullShare} f : sProp 𝕄))
      ⊣⊢ iprop((((c : Thread nD τ).loc b) ↦{fullShare.left} f) ∗ (((c : Thread nD τ).loc b) ↦{fullShare.right.left} f) ∗ (((c : Thread nD τ).loc b) ↦{fullShare.right.right} f)) :=
  (pointsTo_share (PosShare.mem_left_op_right fullShare)).trans
    ⟨sep_mono .rfl (pointsTo_share (PosShare.mem_left_op_right fullShare.right)).1,
     sep_mono .rfl (pointsTo_share (PosShare.mem_left_op_right fullShare.right)).2⟩

/-- The windows' arrays at contents `G`, window by window: the three input windows' shares of the one array they read,
    and the output's array whole. -/
theorem arrays1_eq {c : Dev nD} (dat : Dat τ (Elt F) Unit ℕ (UR sig nD τ) ℕ cfg1 c) (hq : dat.q = qIn)
    (G : (w : Fin cfg1.W) → Buf (Elt F) ((cfg1.win w).arr.view.loc (c : Thread nD τ))) :
    (dat.arrays G : sProp 𝕄) = iprop((((c : Thread nD τ).loc main_v5) ↦{fullShare.left} G 0) ∗ (((c : Thread nD τ).loc main_v5) ↦{fullShare.right.left} G 1)
      ∗ (((c : Thread nD τ).loc main_v5) ↦{fullShare.right.right} G 2) ∗ (((c : Thread nD τ).loc main_v16) ↦{fullShare} G 3)) := by
  unfold Dat.arrays
  rw [bigSep_W1]
  unfold Dat.share
  rw [hq, (arr_whole1 0).set_eq_univ, (arr_whole1 3).set_eq_univ]
  rfl

/-- ENTRY: a core's unscoped buffers at contents `Vc` are region 1's arrays at the proof data's entry contents and the unscoped rest. -/
theorem entry1 {c : Dev nD} (dat : Dat τ (Elt F) Unit ℕ (UR sig nD τ) ℕ cfg1 c) (Vc : (b : Ref sig .tc) → Buf (Elt F) ((c : Thread nD τ).loc b))
    (hA : ∀ w, dat.A w = Vc (Pipeline.arrRef spec1 w)) (hq : dat.q = qIn) :
    (unscopedBufs c Vc : sProp 𝕄) ⊢ iprop(dat.arrays (dat.arrAt · 0) ∗ Pipeline.unscopedRest spec1 c Vc) := by
  rw [Pipeline.unscopedBufs_split₀ cfgs 1 winFacts₀1.arr_unscoped c Vc, arrays1_eq dat hq]
  refine sep_mono ?_ .rfl
  unfold Pipeline.arrBufs
  rw [show (Finset.univ.image (Pipeline.arrRef (cfgs 1).spec) : Finset (Ref sig .tc)) = {main_v5, main_v16} from arrs1,
    bigSep_insert (by decide), bigSep_singleton,
    show dat.arrAt 0 0 = Vc main_v5 from hA 0, show dat.arrAt 1 0 = Vc main_v5 from hA 1, show dat.arrAt 2 0 = Vc main_v5 from hA 2,
    show dat.arrAt 3 0 = Vc main_v16 from hA 3]
  show iprop((((c : Thread nD τ).loc main_v5) ↦{fullShare} Vc main_v5) ∗ (((c : Thread nD τ).loc main_v16) ↦{fullShare} Vc main_v16)) ⊢ _
  iintro ⟨H5, H16⟩
  have hs := (split3 (F := F) (c := c) main_v5 (Vc main_v5)).1
  ihave H := hs $$ H5
  icases H with ⟨Ha, Hb, Hc⟩
  isplitl [Ha]; · iexact Ha
  isplitl [Hb]; · iexact Hb
  isplitl [Hc]; · iexact Hc
  iexact H16

/-- EXIT: region 1's arrays at their final contents and the unscoped rest are the core's unscoped buffers at any contents
    `V'` that has the output array at what the region left and agrees with `Vc` elsewhere. -/
theorem exit1 {c : Dev nD} (dat : Dat τ (Elt F) Unit ℕ (UR sig nD τ) ℕ cfg1 c) (Vc V' : (b : Ref sig .tc) → Buf (Elt F) ((c : Thread nD τ).loc b))
    (hA : ∀ w, dat.A w = Vc (Pipeline.arrRef spec1 w)) (hq : dat.q = qIn)
    (hout : V' main_v16 = dat.arrAt 3 cfg1.N) (hrest : ∀ b, b ≠ main_v16 → V' b = Vc b) :
    iprop(dat.arrays (dat.arrAt · cfg1.N) ∗ Pipeline.unscopedRest spec1 c Vc) ⊢ (unscopedBufs c V' : sProp 𝕄) := by
  rw [Pipeline.unscopedBufs_split₀ cfgs 1 winFacts₀1.arr_unscoped c V', arrays1_eq dat hq]
  refine sep_mono ?_ (Entails.of_eq ?_)
  · unfold Pipeline.arrBufs
    rw [show (Finset.univ.image (Pipeline.arrRef (cfgs 1).spec) : Finset (Ref sig .tc)) = {main_v5, main_v16} from arrs1,
      bigSep_insert (by decide), bigSep_singleton,
      show dat.arrAt 0 cfg1.N = Vc main_v5 from (dat.arrAt_in 0 rfl _).trans (hA 0),
      show dat.arrAt 1 cfg1.N = Vc main_v5 from (dat.arrAt_in 1 rfl _).trans (hA 1),
      show dat.arrAt 2 cfg1.N = Vc main_v5 from (dat.arrAt_in 2 rfl _).trans (hA 2),
      hout, hrest main_v5 (by decide)]
    show _ ⊢ iprop((((c : Thread nD τ).loc main_v5) ↦{fullShare} Vc main_v5) ∗ (((c : Thread nD τ).loc main_v16) ↦{fullShare} dat.arrAt 3 cfg1.N))
    iintro ⟨Ha, Hb, Hc, H16⟩
    isplitl [Ha Hb Hc]
    · iapply (split3 main_v5 (Vc main_v5)).2
      isplitl [Ha]; · iexact Ha
      isplitl [Hb]; · iexact Hb
      iexact Hc
    iexact H16
  · unfold Pipeline.unscopedRest
    refine bigSep_congr fun b hb => ?_
    rw [hrest b fun e => (Finset.mem_sdiff.mp hb).2 (e ▸ Finset.mem_image.mpr ⟨3, Finset.mem_univ _, rfl⟩)]

end Cert.Kernel.Hand

end
-- ==== Proof.K.Run.lean ====
/- The whole run of @main: four stretches of host operations around three kernel regions. The contents of every unscoped
   buffer at each boundary are a fold from the launch memory: a host stretch applies its operations, a region replaces
   its output array by what its grid points' write-backs leave. Every weakly fair execution terminates, without a fault,
   in a memory that holds every unscoped buffer at the last boundary's contents. -/
import proofs.«103352_j54271206752754_2_alg».proof.Proof.K.Body0
import proofs.«103352_j54271206752754_2_alg».proof.Proof.K.Body1
import proofs.«103352_j54271206752754_2_alg».proof.Proof.K.Body2
import proofs.«103352_j54271206752754_2_alg».proof.Proof.K.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After the first host stretch (region 0's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At region 0's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch (region 1's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At region 1's exit: the attention output's array at what the pipeline leaves, every other buffer as entered (the
    array its three input windows read among them). -/
def B4 (c : Dev nD) : Valuation τ sig (Elt F) :=
  Function.update (B3 m ρ c) (Proc.devRef .tc main_v16) ((dat1 (E3 m ρ) c).arrAt 3 cfg1.N)
abbrev E4 : (c : Dev nD) → (b : Ref sig .tc) → Buf (Elt F) ((c : Thread nD τ).loc b) := fun c b => B4 m ρ c b
theorem B4_out (c : Dev nD) : B4 m ρ c (Proc.devRef .tc main_v16) = (dat1 (E3 m ρ) c).arrAt 3 cfg1.N := by
  unfold B4; exact Function.update_self ..
theorem B4_of_ne (c : Dev nD) (b : Ref sig .tc) (hb : b ≠ main_v16) :
    B4 m ρ c (Proc.devRef .tc b) = B3 m ρ c (Proc.devRef .tc b) := by
  unfold B4; exact Function.update_of_ne (StableHlo.devRef_ne_of_ne hb) ..

/-- After the third host stretch (region 2's entry). -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b
/-- At region 2's exit. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)

/-- After the last host stretch: the contents @main returns with. -/
abbrev B7 : Dev nD → Valuation τ sig (Elt F) := fun c => StableHlo.after hostOps3 (B6 m ρ c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
theorem fresh3 : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `B1`, left at `B2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B3`, left at `B4`. The array its three input
    windows read is split among them at entry and put together again at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := entry1 (pdats m ρ 1 c) (E3 m ρ c) (fun _ => rfl) rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (pdats m ρ 1 c) (E3 m ρ c) (E4 m ρ c) (fun _ => rfl) rfl (B4_out m ρ c) (fun b hb => B4_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last thread state without the dues: every unscoped buffer at the last boundary's contents, the generator register at some state. -/
abbrev Tₙ (c : Dev nD) : sProp 𝕄 := iprop(StableHlo.held (c : Thread nD τ) (Pipeline.ucRefs τ sig) (B7 m ρ c) ∗ ∃ r, prngReg c r)

set_option backward.isDefEq.respectTransparency.types false in
/-- Region 2 over the thread state: entered from every unscoped buffer at `B5`, left at `B6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last host stretch, left at the last thread state beside the dues. -/
abbrev segs : List (Pipeline.Seg (pcfgs (F := F)) adm (pdats m ρ) () defs₀ 𝒱₀ L lv) :=
  [ .host (hseg hostOps0 hostOps0_sub fresh0 (B0 m ρ)),
    .region (reg0 m ρ),
    .host (hseg hostOps1 hostOps1_sub fresh1 (B2 m ρ)),
    .region (reg1 m ρ),
    .host (hseg hostOps2 hostOps2_sub fresh2 (B4 m ρ)),
    .region (reg2 m ρ),
    .host (hseg hostOps3 hostOps3_sub fresh3 (B6 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates, nothing
    faulting, and every final memory holds every unscoped buffer at the last boundary's contents `B7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (B7 m ρ c) ∗ R c) ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m ρ c b)
    (hfin := fun c s' => by
      iintro ⟨⟨Hh, -⟩, HSI⟩
      unfold StableHlo.held
      imodintro
      iapply (pointsTo_read_all (Pipeline.ucRefs τ sig) (fun b => (((c : Thread nD τ)).1, b)) (B7 m ρ c) s')
      isplitl [Hh] <;> iassumption)
    (hQ := fun s h c => h c)

end Cert.Kernel.Hand

end
-- ==== Proof.K.Keep.lean ====
/- What each boundary's contents keep: a buffer that no host stretch writes and that is no region's output array holds at
   the end what it held at launch; the arguments are such buffers. -/
import proofs.«103352_j54271206752754_2_alg».proof.Proof.K.Run
import proofs.«103352_j54271206752754_2_alg».proof.Proof.Gen.Kernel.Regions

noncomputable section

namespace Cert.Kernel.Hand

open Idealize.ShloMosaic Idealize.ShloMosaic.TcCoe Idealize.SL.Sem
open Cert.Kernel Cert.Kernel.Gen

variable {F : FTy → Type} [FloatOps F]
variable (m : (ℓ : Loc nD τ sig) → Buf (Elt F) ℓ) (ρ : Dev nD → PrngReg)

/-- A buffer no host stretch writes and no region's window stages ends at its launch contents. -/
theorem B7_keep (c : Dev nD) (r : Ref sig .tc) (h0 : r ∉ hostOps0_W) (h1 : r ∉ hostOps1_W) (h2 : r ∉ hostOps2_W) (h3 : r ∉ hostOps3_W)
    (a0 : ∀ w, Pipeline.arrRef spec0 w ≠ r) (a1 : r ≠ main_v16) (a2 : ∀ w, Pipeline.arrRef spec2 w ≠ r) :
    B7 m ρ c (Proc.devRef .tc r) = m ((c : Thread nD τ).loc r) :=
  (StableHlo.after_of_writes_sub hostOps3 _ hostOps3_writes h3).trans <| (B6_of_ne m ρ c r a2).trans <|
    (StableHlo.after_of_writes_sub hostOps2 _ hostOps2_writes h2).trans <| (B4_of_ne m ρ c r a1).trans <|
    (StableHlo.after_of_writes_sub hostOps1 _ hostOps1_writes h1).trans <| (B2_of_ne m ρ c r a0).trans <|
    (StableHlo.after_of_writes_sub hostOps0 _ hostOps0_writes h0).trans rfl

theorem B7_main_arg0 (c : Dev nD) : B7 m ρ c (Proc.devRef .tc main_arg0) = m ((c : Thread nD τ).loc main_arg0) :=
  B7_keep m ρ c main_arg0 (by decide) (by decide) (by decide) (by decide) (by decide) (by decide) (by decide)
theorem B7_main_arg1 (c : Dev nD) : B7 m ρ c (Proc.devRef .tc main_arg1) = m ((c : Thread nD τ).loc main_arg1) :=
  B7_keep m ρ c main_arg1 (by decide) (by decide) (by decide) (by decide) (by decide) (by decide) (by decide)
theorem B7_main_arg2 (c : Dev nD) : B7 m ρ c (Proc.devRef .tc main_arg2) = m ((c : Thread nD τ).loc main_arg2) :=
  B7_keep m ρ c main_arg2 (by decide) (by decide) (by decide) (by decide) (by decide) (by decide) (by decide)
theorem B7_main_arg3 (c : Dev nD) : B7 m ρ c (Proc.devRef .tc main_arg3) = m ((c : Thread nD τ).loc main_arg3) :=
  B7_keep m ρ c main_arg3 (by decide) (by decide) (by decide) (by decide) (by decide) (by decide) (by decide)
theorem B7_main_arg4 (c : Dev nD) : B7 m ρ c (Proc.devRef .tc main_arg4) = m ((c : Thread nD τ).loc main_arg4) :=
  B7_keep m ρ c main_arg4 (by decide) (by decide) (by decide) (by decide) (by decide) (by decide) (by decide)

/-- THE FRAME: every weakly fair execution of @main terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (B7_main_arg0 m ρ c),
     (h c _ (mem_uc main_arg1 (by decide))).trans (B7_main_arg1 m ρ c),
     (h c _ (mem_uc main_arg2 (by decide))).trans (B7_main_arg2 m ρ c),
     (h c _ (mem_uc main_arg3 (by decide))).trans (B7_main_arg3 m ρ c),
     (h c _ (mem_uc main_arg4 (by decide))).trans (B7_main_arg4 m ρ c)⟩) (run_all m ρ)

end Cert.Kernel.Hand

end
-- ==== Proof.KI.Body0.lean ====
/- The first projection's region, on its own: what each grid point's body leaves in the output block, and the body's
   run on the staging buffers, at any contents the region is entered with. -/
import proofs.«103352_j54271206752754_2_alg».proof.Proof.Gen.KernelIdeal.Launch
import proofs.«103352_j54271206752754_2_alg».proof.Proof.Gen.KernelIdeal.Skeleton
import proofs.«103352_j54271206752754_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: a row block of `x · W + b`

The body reads a block of rows of the left operand, the whole right operand and the bias row, and stores the block of
rows of the product plus the bias. -/

/-- Window `w`'s block at point `t`, read off its array at the contents `V` the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched the window's index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-- The output window's staging buffer after the body: its one store, of the whole block, of the product of the
    loaded blocks plus the bias row. -/
def out0_3 (x0 : Vec F S512x1024 .bf16) (x1 : Vec F S1024x3072 .bf16) (x2 : Vec F S1x3072 .f32) : Vec F S512x3072 .f32 :=
  View.canon [⟨r0_3, k0_pay1 (View.ld x0 r0_0) (View.ld x1 r0_1) (View.ld x2 r0_2)⟩]

/-- The one store covers the buffer. -/
theorem cover0_3 (p0 : Vec F S512x3072 .f32) (y : S512x3072.Idx) :
    ∃ pc ∈ ([⟨r0_3, p0⟩] : List (View.Piece (Elt F) S512x3072 .f32)), y ∈ pc.1.set :=
  View.cover_of_tiled [⟨r0_3, p0⟩] S512x3072.size (by rfl) y

set_option maxHeartbeats 1000000 in
/-- The body on whole staging memrefs, the inputs' at contents `xW` and the output's at anything, runs to the
    continuation with the inputs' as they were and the output's at `out0_3` of the inputs'. -/
theorem sound_kernel0 (c : Dev nD) (E : Set ℕ) (i : grid0.Coords) (arg0 : Memref sig .tc .vmem S512x1024 .bf16) (harg0 : arg0.IsWhole) (arg1 : Memref sig .tc .vmem S1024x3072 .bf16) (harg1 : arg1.IsWhole)
    (arg2 : Memref sig .tc .vmem S1x3072 .f32) (harg2 : arg2.IsWhole) (arg3 : Memref sig .tc .vmem S512x3072 .f32) (harg3 : arg3.IsWhole)
    (x0 : Vec F S512x1024 .bf16) (x1 : Vec F S1024x3072 .bf16) (x2 : Vec F S1x3072 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at `out0_3` of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/- The attention region, on its own: what each grid point's body leaves in the output block (two 64-lane halves, one per
   head of the column block), and the body's run on the staging buffers, at any contents the region is entered with. -/
import proofs.«103352_j54271206752754_2_alg».proof.Proof.Gen.KernelIdeal.Launch
import proofs.«103352_j54271206752754_2_alg».proof.Proof.Gen.KernelIdeal.Skeleton
import proofs.«103352_j54271206752754_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: one batch and one 128-lane column block (two heads) of the attention -/

/-- Window `w`'s block at point `t`, read off its array at the contents `V` the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The two 64-lane halves of a [1,1024,128] block. -/
abbrev r1_lo : Rect S1x1024x128 := Rect.unit (s := S1x1024x128) ![0, 0, 0] S1x1024x64.size inb_S1x1024x128_S1x1024x64_0_0_0
abbrev r1_hi : Rect S1x1024x128 := Rect.unit (s := S1x1024x128) ![0, 0, 64] S1x1024x64.size inb_S1x1024x128_S1x1024x64_0_0_64

/-- The output window's staging buffer after the body: the low half holds head 0's attention of the low halves of the
    query, key and value blocks, the high half head 1's of the high halves (the stores last first). -/
def out1_3 (x0 x1 x2 : Vec F S1x1024x128 .f32) : Vec F S1x1024x128 .f32 :=
  View.canon [⟨r1_hi, k1_pay1 k1_pay2 (k1_pay4 (View.ld x0 r1_hi)) (View.ld x1 r1_hi) (View.ld x2 r1_hi)⟩,
    ⟨r1_lo, k1_pay3 (View.ld x0 r1_lo) (View.ld x1 r1_lo) (View.ld x2 r1_lo)⟩]

/-- The two stores tile the buffer. -/
theorem cover1_3 (p0 p1 : Vec F S1x1024x64 .f32) (y : S1x1024x128.Idx) :
    ∃ pc ∈ ([⟨r1_hi, p1⟩, ⟨r1_lo, p0⟩] : List (View.Piece (Elt F) S1x1024x128 .f32)), y ∈ pc.1.set :=
  View.cover_of_tiled [⟨r1_hi, p1⟩, ⟨r1_lo, p0⟩] S1x1024x64.size (by rfl) y

set_option maxHeartbeats 1000000 in
/-- The body on whole staging memrefs, the inputs' at contents `xW` and the output's at anything, runs to the
    continuation with the inputs' as they were and the output's at `out1_3` of the inputs'. -/
theorem sound_kernel1 (c : Dev nD) (E : Set ℕ) (i : grid1.Coords) (arg0 : Memref sig .tc .vmem S1x1024x128 .f32) (harg0 : arg0.IsWhole) (arg1 : Memref sig .tc .vmem S1x1024x128 .f32) (harg1 : arg1.IsWhole)
    (arg2 : Memref sig .tc .vmem S1x1024x128 .f32) (harg2 : arg2.IsWhole) (arg3 : Memref sig .tc .vmem S1x1024x128 .f32) (harg3 : arg3.IsWhole)
    (x0 x1 x2 : Vec F S1x1024x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__fused_attn_kernel i arg0 harg0 arg1 harg1 arg2 harg2 arg3 harg3) K := by
  simp only [cc1__fused_attn_kernel_eq_skeleton]; unfold cc1__fused_attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _ _)

/-- The input windows' shares of the array the three of them read: its two halves, the second halved again. -/
def qIn : Fin cfg1.W → PosShare TreeShare
  | ⟨0, _⟩ => fullShare.left
  | ⟨1, _⟩ => fullShare.right.left
  | ⟨2, _⟩ => fullShare.right.right
  | ⟨3, _⟩ => fullShare

/-- The proof data of pipeline 1 on core `c`: the arrays as the region finds them; after the body at point `t` each
    input's buffer at its block and the output's at `out1_3` of the input blocks; the invariant is the scoped rest and
    the generator register, untouched; nothing owed; the three input windows hold the one array they read at the shares `qIn`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := qIn
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/- The second projection's region, on its own: what each grid point's body leaves in the output block, and the body's
   run on the staging buffers, at any contents the region is entered with. -/
import proofs.«103352_j54271206752754_2_alg».proof.Proof.Gen.KernelIdeal.Launch
import proofs.«103352_j54271206752754_2_alg».proof.Proof.Gen.KernelIdeal.Skeleton
import proofs.«103352_j54271206752754_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: a row block of `x · W + b`

The body reads a block of rows of the left operand, the whole right operand and the bias row, and stores the block of
rows of the product plus the bias. -/

/-- Window `w`'s block at point `t`, read off its array at the contents `V` the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is not
    fetched the window's index has not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S512x1024 := Rect.unit (s := S512x1024) ![0, 0] S512x1024.size inb_S512x1024_S512x1024_0_0

/-- The output window's staging buffer after the body: its one store, of the whole block, of the product of the
    loaded blocks plus the bias row. -/
def out2_3 (x0 : Vec F S512x1024 .bf16) (x1 : Vec F S1024x1024 .bf16) (x2 : Vec F S1x1024 .f32) : Vec F S512x1024 .f32 :=
  View.canon [⟨r2_3, k2_pay1 (View.ld x0 r2_0) (View.ld x1 r2_1) (View.ld x2 r2_2)⟩]

/-- The one store covers the buffer. -/
theorem cover2_3 (p0 : Vec F S512x1024 .f32) (y : S512x1024.Idx) :
    ∃ pc ∈ ([⟨r2_3, p0⟩] : List (View.Piece (Elt F) S512x1024 .f32)), y ∈ pc.1.set :=
  View.cover_of_tiled [⟨r2_3, p0⟩] S512x1024.size (by rfl) y

set_option maxHeartbeats 1000000 in
/-- The body on whole staging memrefs, the inputs' at contents `xW` and the output's at anything, runs to the
    continuation with the inputs' as they were and the output's at `out2_3` of the inputs'. -/
theorem sound_kernel2 (c : Dev nD) (E : Set ℕ) (i : grid2.Coords) (arg0 : Memref sig .tc .vmem S512x1024 .bf16) (harg0 : arg0.IsWhole) (arg1 : Memref sig .tc .vmem S1024x1024 .bf16) (harg1 : arg1.IsWhole)
    (arg2 : Memref sig .tc .vmem S1x1024 .f32) (harg2 : arg2.IsWhole) (arg3 : Memref sig .tc .vmem S512x1024 .f32) (harg3 : arg3.IsWhole)
    (x0 : Vec F S512x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__linear_kernel i arg0 harg0 arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t` each
    input's buffer at its block and the output's at `out2_3` of the input blocks; the invariant is the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Shared.lean ====
/- Region 1 reads ONE array through three input windows. At the region's entry the array, held whole, is split into three
   read shares, one per window; at its exit the three shares, all at the contents the region was entered with, are put
   together again, and the output array is taken at what the region's write-backs left. -/
import proofs.«103352_j54271206752754_2_alg».proof.Proof.KI.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The distinct buffers behind region 1's four windows. -/
theorem arrs1 : (Finset.univ.image (Pipeline.arrRef spec1) : Finset (Ref sig .tc)) = {main_v5, main_v16} := by decide

/-- A buffer held whole is held in three parts: its left half, and the two halves of its right half. -/
theorem split3 {c : Dev nD} (b : Ref sig .tc) (f : Buf (Elt F) ((c : Thread nD τ).loc b)) :
    ((((c : Thread nD τ).loc b) ↦{fullShare} f : sProp 𝕄))
      ⊣⊢ iprop((((c : Thread nD τ).loc b) ↦{fullShare.left} f) ∗ (((c : Thread nD τ).loc b) ↦{fullShare.right.left} f) ∗ (((c : Thread nD τ).loc b) ↦{fullShare.right.right} f)) :=
  (pointsTo_share (PosShare.mem_left_op_right fullShare)).trans
    ⟨sep_mono .rfl (pointsTo_share (PosShare.mem_left_op_right fullShare.right)).1,
     sep_mono .rfl (pointsTo_share (PosShare.mem_left_op_right fullShare.right)).2⟩

/-- The windows' arrays at contents `G`, window by window: the three input windows' shares of the one array they read,
    and the output's array whole. -/
theorem arrays1_eq {c : Dev nD} (dat : Dat τ (Elt F) Unit ℕ (UR sig nD τ) ℕ cfg1 c) (hq : dat.q = qIn)
    (G : (w : Fin cfg1.W) → Buf (Elt F) ((cfg1.win w).arr.view.loc (c : Thread nD τ))) :
    (dat.arrays G : sProp 𝕄) = iprop((((c : Thread nD τ).loc main_v5) ↦{fullShare.left} G 0) ∗ (((c : Thread nD τ).loc main_v5) ↦{fullShare.right.left} G 1)
      ∗ (((c : Thread nD τ).loc main_v5) ↦{fullShare.right.right} G 2) ∗ (((c : Thread nD τ).loc main_v16) ↦{fullShare} G 3)) := by
  unfold Dat.arrays
  rw [bigSep_W1]
  unfold Dat.share
  rw [hq, (arr_whole1 0).set_eq_univ, (arr_whole1 3).set_eq_univ]
  rfl

/-- ENTRY: a core's unscoped buffers at contents `Vc` are region 1's arrays at the proof data's entry contents and the unscoped rest. -/
theorem entry1 {c : Dev nD} (dat : Dat τ (Elt F) Unit ℕ (UR sig nD τ) ℕ cfg1 c) (Vc : (b : Ref sig .tc) → Buf (Elt F) ((c : Thread nD τ).loc b))
    (hA : ∀ w, dat.A w = Vc (Pipeline.arrRef spec1 w)) (hq : dat.q = qIn) :
    (unscopedBufs c Vc : sProp 𝕄) ⊢ iprop(dat.arrays (dat.arrAt · 0) ∗ Pipeline.unscopedRest spec1 c Vc) := by
  rw [Pipeline.unscopedBufs_split₀ cfgs 1 winFacts₀1.arr_unscoped c Vc, arrays1_eq dat hq]
  refine sep_mono ?_ .rfl
  unfold Pipeline.arrBufs
  rw [show (Finset.univ.image (Pipeline.arrRef (cfgs 1).spec) : Finset (Ref sig .tc)) = {main_v5, main_v16} from arrs1,
    bigSep_insert (by decide), bigSep_singleton,
    show dat.arrAt 0 0 = Vc main_v5 from hA 0, show dat.arrAt 1 0 = Vc main_v5 from hA 1, show dat.arrAt 2 0 = Vc main_v5 from hA 2,
    show dat.arrAt 3 0 = Vc main_v16 from hA 3]
  show iprop((((c : Thread nD τ).loc main_v5) ↦{fullShare} Vc main_v5) ∗ (((c : Thread nD τ).loc main_v16) ↦{fullShare} Vc main_v16)) ⊢ _
  iintro ⟨H5, H16⟩
  have hs := (split3 (F := F) (c := c) main_v5 (Vc main_v5)).1
  ihave H := hs $$ H5
  icases H with ⟨Ha, Hb, Hc⟩
  isplitl [Ha]; · iexact Ha
  isplitl [Hb]; · iexact Hb
  isplitl [Hc]; · iexact Hc
  iexact H16

/-- EXIT: region 1's arrays at their final contents and the unscoped rest are the core's unscoped buffers at any contents
    `V'` that has the output array at what the region left and agrees with `Vc` elsewhere. -/
theorem exit1 {c : Dev nD} (dat : Dat τ (Elt F) Unit ℕ (UR sig nD τ) ℕ cfg1 c) (Vc V' : (b : Ref sig .tc) → Buf (Elt F) ((c : Thread nD τ).loc b))
    (hA : ∀ w, dat.A w = Vc (Pipeline.arrRef spec1 w)) (hq : dat.q = qIn)
    (hout : V' main_v16 = dat.arrAt 3 cfg1.N) (hrest : ∀ b, b ≠ main_v16 → V' b = Vc b) :
    iprop(dat.arrays (dat.arrAt · cfg1.N) ∗ Pipeline.unscopedRest spec1 c Vc) ⊢ (unscopedBufs c V' : sProp 𝕄) := by
  rw [Pipeline.unscopedBufs_split₀ cfgs 1 winFacts₀1.arr_unscoped c V', arrays1_eq dat hq]
  refine sep_mono ?_ (Entails.of_eq ?_)
  · unfold Pipeline.arrBufs
    rw [show (Finset.univ.image (Pipeline.arrRef (cfgs 1).spec) : Finset (Ref sig .tc)) = {main_v5, main_v16} from arrs1,
      bigSep_insert (by decide), bigSep_singleton,
      show dat.arrAt 0 cfg1.N = Vc main_v5 from (dat.arrAt_in 0 rfl _).trans (hA 0),
      show dat.arrAt 1 cfg1.N = Vc main_v5 from (dat.arrAt_in 1 rfl _).trans (hA 1),
      show dat.arrAt 2 cfg1.N = Vc main_v5 from (dat.arrAt_in 2 rfl _).trans (hA 2),
      hout, hrest main_v5 (by decide)]
    show _ ⊢ iprop((((c : Thread nD τ).loc main_v5) ↦{fullShare} Vc main_v5) ∗ (((c : Thread nD τ).loc main_v16) ↦{fullShare} dat.arrAt 3 cfg1.N))
    iintro ⟨Ha, Hb, Hc, H16⟩
    isplitl [Ha Hb Hc]
    · iapply (split3 main_v5 (Vc main_v5)).2
      isplitl [Ha]; · iexact Ha
      isplitl [Hb]; · iexact Hb
      iexact Hc
    iexact H16
  · unfold Pipeline.unscopedRest
    refine bigSep_congr fun b hb => ?_
    rw [hrest b fun e => (Finset.mem_sdiff.mp hb).2 (e ▸ Finset.mem_image.mpr ⟨3, Finset.mem_univ _, rfl⟩)]

end Cert.KernelIdeal.Hand

end
-- ==== Proof.KI.Run.lean ====
/- The whole run of @main: four stretches of host operations around three kernel regions. The contents of every unscoped
   buffer at each boundary are a fold from the launch memory: a host stretch applies its operations, a region replaces
   its output array by what its grid points' write-backs leave. Every weakly fair execution terminates, without a fault,
   in a memory that holds every unscoped buffer at the last boundary's contents. -/
import proofs.«103352_j54271206752754_2_alg».proof.Proof.KI.Body0
import proofs.«103352_j54271206752754_2_alg».proof.Proof.KI.Body1
import proofs.«103352_j54271206752754_2_alg».proof.Proof.KI.Body2
import proofs.«103352_j54271206752754_2_alg».proof.Proof.KI.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After the first host stretch (region 0's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At region 0's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch (region 1's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At region 1's exit: the attention output's array at what the pipeline leaves, every other buffer as entered (the
    array its three input windows read among them). -/
def B4 (c : Dev nD) : Valuation τ sig (Elt F) :=
  Function.update (B3 m ρ c) (Proc.devRef .tc main_v16) ((dat1 (E3 m ρ) c).arrAt 3 cfg1.N)
abbrev E4 : (c : Dev nD) → (b : Ref sig .tc) → Buf (Elt F) ((c : Thread nD τ).loc b) := fun c b => B4 m ρ c b
theorem B4_out (c : Dev nD) : B4 m ρ c (Proc.devRef .tc main_v16) = (dat1 (E3 m ρ) c).arrAt 3 cfg1.N := by
  unfold B4; exact Function.update_self ..
theorem B4_of_ne (c : Dev nD) (b : Ref sig .tc) (hb : b ≠ main_v16) :
    B4 m ρ c (Proc.devRef .tc b) = B3 m ρ c (Proc.devRef .tc b) := by
  unfold B4; exact Function.update_of_ne (StableHlo.devRef_ne_of_ne hb) ..

/-- After the third host stretch (region 2's entry). -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b
/-- At region 2's exit. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)

/-- After the last host stretch: the contents @main returns with. -/
abbrev B7 : Dev nD → Valuation τ sig (Elt F) := fun c => StableHlo.after hostOps3 (B6 m ρ c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
theorem fresh3 : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `B1`, left at `B2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B3`, left at `B4`. The array its three input
    windows read is split among them at entry and put together again at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := entry1 (pdats m ρ 1 c) (E3 m ρ c) (fun _ => rfl) rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (pdats m ρ 1 c) (E3 m ρ c) (E4 m ρ c) (fun _ => rfl) rfl (B4_out m ρ c) (fun b hb => B4_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last thread state without the dues: every unscoped buffer at the last boundary's contents, the generator register at some state. -/
abbrev Tₙ (c : Dev nD) : sProp 𝕄 := iprop(StableHlo.held (c : Thread nD τ) (Pipeline.ucRefs τ sig) (B7 m ρ c) ∗ ∃ r, prngReg c r)

set_option backward.isDefEq.respectTransparency.types false in
/-- Region 2 over the thread state: entered from every unscoped buffer at `B5`, left at `B6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last host stretch, left at the last thread state beside the dues. -/
abbrev segs : List (Pipeline.Seg (pcfgs (F := F)) adm (pdats m ρ) () defs₀ 𝒱₀ L lv) :=
  [ .host (hseg hostOps0 hostOps0_sub fresh0 (B0 m ρ)),
    .region (reg0 m ρ),
    .host (hseg hostOps1 hostOps1_sub fresh1 (B2 m ρ)),
    .region (reg1 m ρ),
    .host (hseg hostOps2 hostOps2_sub fresh2 (B4 m ρ)),
    .region (reg2 m ρ),
    .host (hseg hostOps3 hostOps3_sub fresh3 (B6 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates, nothing
    faulting, and every final memory holds every unscoped buffer at the last boundary's contents `B7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (B7 m ρ c) ∗ R c) ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m ρ c b)
    (hfin := fun c s' => by
      iintro ⟨⟨Hh, -⟩, HSI⟩
      unfold StableHlo.held
      imodintro
      iapply (pointsTo_read_all (Pipeline.ucRefs τ sig) (fun b => (((c : Thread nD τ)).1, b)) (B7 m ρ c) s')
      isplitl [Hh] <;> iassumption)
    (hQ := fun s h c => h c)

end Cert.KernelIdeal.Hand

end
-- ==== Proof.KI.Keep.lean ====
/- What each boundary's contents keep: a buffer that no host stretch writes and that is no region's output array holds at
   the end what it held at launch; the arguments are such buffers. -/
import proofs.«103352_j54271206752754_2_alg».proof.Proof.KI.Run
import proofs.«103352_j54271206752754_2_alg».proof.Proof.Gen.KernelIdeal.Regions

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- A buffer no host stretch writes and no region's window stages ends at its launch contents. -/
theorem B7_keep (c : Dev nD) (r : Ref sig .tc) (h0 : r ∉ hostOps0_W) (h1 : r ∉ hostOps1_W) (h2 : r ∉ hostOps2_W) (h3 : r ∉ hostOps3_W)
    (a0 : ∀ w, Pipeline.arrRef spec0 w ≠ r) (a1 : r ≠ main_v16) (a2 : ∀ w, Pipeline.arrRef spec2 w ≠ r) :
    B7 m ρ c (Proc.devRef .tc r) = m ((c : Thread nD τ).loc r) :=
  (StableHlo.after_of_writes_sub hostOps3 _ hostOps3_writes h3).trans <| (B6_of_ne m ρ c r a2).trans <|
    (StableHlo.after_of_writes_sub hostOps2 _ hostOps2_writes h2).trans <| (B4_of_ne m ρ c r a1).trans <|
    (StableHlo.after_of_writes_sub hostOps1 _ hostOps1_writes h1).trans <| (B2_of_ne m ρ c r a0).trans <|
    (StableHlo.after_of_writes_sub hostOps0 _ hostOps0_writes h0).trans rfl

theorem B7_main_arg0 (c : Dev nD) : B7 m ρ c (Proc.devRef .tc main_arg0) = m ((c : Thread nD τ).loc main_arg0) :=
  B7_keep m ρ c main_arg0 (by decide) (by decide) (by decide) (by decide) (by decide) (by decide) (by decide)
theorem B7_main_arg1 (c : Dev nD) : B7 m ρ c (Proc.devRef .tc main_arg1) = m ((c : Thread nD τ).loc main_arg1) :=
  B7_keep m ρ c main_arg1 (by decide) (by decide) (by decide) (by decide) (by decide) (by decide) (by decide)
theorem B7_main_arg2 (c : Dev nD) : B7 m ρ c (Proc.devRef .tc main_arg2) = m ((c : Thread nD τ).loc main_arg2) :=
  B7_keep m ρ c main_arg2 (by decide) (by decide) (by decide) (by decide) (by decide) (by decide) (by decide)
theorem B7_main_arg3 (c : Dev nD) : B7 m ρ c (Proc.devRef .tc main_arg3) = m ((c : Thread nD τ).loc main_arg3) :=
  B7_keep m ρ c main_arg3 (by decide) (by decide) (by decide) (by decide) (by decide) (by decide) (by decide)
theorem B7_main_arg4 (c : Dev nD) : B7 m ρ c (Proc.devRef .tc main_arg4) = m ((c : Thread nD τ).loc main_arg4) :=
  B7_keep m ρ c main_arg4 (by decide) (by decide) (by decide) (by decide) (by decide) (by decide) (by decide)

/-- THE FRAME: every weakly fair execution of @main terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (B7_main_arg0 m ρ c),
     (h c _ (mem_uc main_arg1 (by decide))).trans (B7_main_arg1 m ρ c),
     (h c _ (mem_uc main_arg2 (by decide))).trans (B7_main_arg2 m ρ c),
     (h c _ (mem_uc main_arg3 (by decide))).trans (B7_main_arg3 m ρ c),
     (h c _ (mem_uc main_arg4 (by decide))).trans (B7_main_arg4 m ρ c)⟩) (run_all m ρ)

end Cert.KernelIdeal.Hand

end
-- ==== Proof.Spec.lean ====
/- The common specification: what both programs compute, as functions of the argument arrays over the extended reals.

   x : [4,1024,1024], W₁ : [1024,3072], b₁ : [3072], W₂ : [1024,1024], b₂ : [1024].
   qkv (b,s,j)   = Σ_n x(b,s,n)·W₁(n,j) + b₁(j)                               (the first projection)
   head h of the query / key / value of batch b are the columns 64h+d of the three column sections [0,1024), [1024,2048),
   [2048,3072) of qkv.
   score (b,h,q,k) = (Σ_d Q(b,h,q,d)·K(b,h,k,d)) · ⅛ where k ≤ q, and the fill value −10¹⁰ (as the f32 word denotes it) where k > q
   prob  = softmax of the score along k: exp (score − max_k score) / Σ_k exp (score − max_k score)
   attn (b,s,64h+d) = Σ_k prob(b,h,s,k) · V(b,h,k,d)                            (heads merged back)
   out (b,s,n)   = Σ_j attn(b,s,j)·W₂(j,n) + b₂(n)                              (the second projection)
   present (i,b,h,s,d) = K (i = 0) or V (i = 1) of head h. -/
import Idealize.ShloMosaic.PureOps.Ideal
import Idealize.ShloMosaic.Lib.ValueIdx

noncomputable section

namespace Cert.Spec

open Idealize.ShloMosaic Idealize.ShloMosaic.ValueIdx

/-- An array of extended reals over a literal shape. -/
abbrev Arr3 (a b c : Nat) : Type := (⟨3, ![a, b, c]⟩ : Shape).Idx → EReal
abbrev Arr2 (a b : Nat) : Type := (⟨2, ![a, b]⟩ : Shape).Idx → EReal
abbrev Arr1 (a : Nat) : Type := (⟨1, ![a]⟩ : Shape).Idx → EReal
abbrev Arr5 (a b c d e : Nat) : Type := (⟨5, ![a, b, c, d, e]⟩ : Shape).Idx → EReal

/-- The scale ⅛ as the kernel's f32 word denotes it. -/
def eighth : EReal := Ideal.ofBits .f32 0x3E000000#32
/-- The mask's fill value −10¹⁰ as the kernel's f32 word denotes it. -/
def fill : EReal := Ideal.ofBits .f32 0xD01502F9#32

/-- A projection `y · W + bias` over the last axis, at (b, s, j). -/
def proj {N M : Nat} (y : Arr3 4 1024 N) (W : Arr2 N M) (bias : Arr1 M) (b : Fin 4) (s : Fin 1024) (j : Fin M) : EReal :=
  (∑ n : Fin N, y (ix3 b s n) * W (ix2 n j)) + bias (ix1 j)

/-- The projection as an array. -/
def projA {N M : Nat} (y : Arr3 4 1024 N) (W : Arr2 N M) (bias : Arr1 M) : Arr3 4 1024 M :=
  fun i => proj y W bias (i 0) (i 1) (i 2)

/-- Column `64h + d` of column section `sec` (0: queries, 1: keys, 2: values) of the [·,·,3072] array. -/
def col (sec : Fin 3) (h : Fin 16) (d : Fin 64) : Fin 3072 := ⟨sec.val * 1024 + 64 * h.val + d.val, by omega⟩

/-- The masked, scaled score of query row `q` against key row `k` in head `h` of batch `b`. -/
def score (qkv : Arr3 4 1024 3072) (b : Fin 4) (h : Fin 16) (q k : Fin 1024) : EReal :=
  if k.val ≤ q.val then (∑ d : Fin 64, qkv (ix3 b q (col 0 h d)) * qkv (ix3 b k (col 1 h d))) * eighth else fill

/-- The largest entry of a row (the bottom element −∞ for the fold's start). -/
def rowMax (f : Fin 1024 → EReal) : EReal := Finset.univ.sup f

/-- The softmax of a row, entry `k`. -/
def softmax (f : Fin 1024 → EReal) (k : Fin 1024) : EReal :=
  Ideal.div (Ideal.exp (f k - rowMax f)) (∑ k' : Fin 1024, Ideal.exp (f k' - rowMax f))

/-- The attention output with heads merged: entry (b, s, 64h + d). -/
def attn (qkv : Arr3 4 1024 3072) (b : Fin 4) (s : Fin 1024) (h : Fin 16) (d : Fin 64) : EReal :=
  ∑ k : Fin 1024, softmax (score qkv b h s) k * qkv (ix3 b k (col 2 h d))

/-- The attention output as a [4,1024,1024] array, column j = 64·(j / 64) + j % 64. -/
def attnA (qkv : Arr3 4 1024 3072) : Arr3 4 1024 1024 :=
  fun i => attn qkv (i 0) (i 1) ⟨(i 2).val / 64, by have h : (i 2).val < 1024 := (i 2).isLt; omega⟩ ⟨(i 2).val % 64, Nat.mod_lt _ (by decide)⟩

/-- Keys (i = 0) and values (i = 1) per head: entry (i, b, h, s, d). -/
def presentA (qkv : Arr3 4 1024 3072) : Arr5 2 4 16 1024 64 :=
  fun i => qkv (ix3 (i 1) (i 3) ⟨((i 0).val + 1) * 1024 + 64 * (i 2).val + (i 4).val, by
    have h0 : (i 0).val < 2 := (i 0).isLt; have h2 : (i 2).val < 16 := (i 2).isLt; have h4 : (i 4).val < 64 := (i 4).isLt
    omega⟩)

/-- The first result: the projected attention output. -/
def outA (x : Arr3 4 1024 1024) (W₁ : Arr2 1024 3072) (b₁ : Arr1 3072) (W₂ : Arr2 1024 1024) (b₂ : Arr1 1024) : Arr3 4 1024 1024 :=
  projA (attnA (projA x W₁ b₁)) W₂ b₂

/-- The second result: keys and values per head. -/
def present (x : Arr3 4 1024 1024) (W₁ : Arr2 1024 3072) (b₁ : Arr1 3072) : Arr5 2 4 16 1024 64 :=
  presentA (projA x W₁ b₁)

end Cert.Spec

end
-- ==== Proof.KI.GlueCasts.lean ====
/- Reshapes between [4096, M] and [4, 1024, M], and a vector stored as a one-row matrix, read at an index.

   Row r of the flat array is row r % 1024 of batch r / 1024, and row s of batch b is flat row 1024·b + s: both arrays
   list the same entries in row-major order. For any element type and any last extent. -/
import Idealize.ShloMosaic.Lib.Pipeline.Value
import Idealize.ShloMosaic.Lib.ValueIdx

noncomputable section

namespace Cert.KernelIdeal.GlueValue

open Idealize.ShloMosaic Idealize.ShloMosaic.ValueIdx

/-- [4, 1024, M] viewed [4096, M] reads (r / 1024, r % 1024, j) at (r, j). -/
theorem flatRows_apply {M : Nat} {α : Type} (x : (⟨3, ![4, 1024, M]⟩ : Shape).Idx → α)
    (h : (⟨3, ![4, 1024, M]⟩ : Shape).ShapeCasts ⟨2, ![4096, M]⟩) (r : Fin 4096) (j : Fin M) :
    shapeCast ⟨2, ![4096, M]⟩ x h (ix2 r j)
      = x (ix3 (⟨r.val / 1024, by have := r.isLt; omega⟩ : Fin 4) (⟨r.val % 1024, Nat.mod_lt _ (by decide)⟩ : Fin 1024) j) :=
  shapeCast_apply x h _ _ (by
    rw [Shape.rowMajor_val_three, Shape.rowMajor_val_two]
    show (r.val / 1024 * 1024 + r.val % 1024) * M + j.val = r.val * M + j.val
    rw [Nat.div_add_mod'])

/-- [4096, M] viewed [4, 1024, M] reads (1024·b + s, j) at (b, s, j). -/
theorem batchRows_apply {M : Nat} {α : Type} (y : (⟨2, ![4096, M]⟩ : Shape).Idx → α)
    (h : (⟨2, ![4096, M]⟩ : Shape).ShapeCasts ⟨3, ![4, 1024, M]⟩) (b : Fin 4) (s : Fin 1024) (j : Fin M) :
    shapeCast ⟨3, ![4, 1024, M]⟩ y h (ix3 b s j)
      = y (ix2 (⟨1024 * b.val + s.val, by have := b.isLt; have := s.isLt; omega⟩ : Fin 4096) j) :=
  shapeCast_apply y h _ _ (by
    rw [Shape.rowMajor_val_two, Shape.rowMajor_val_three]
    show (1024 * b.val + s.val) * M + j.val = (b.val * 1024 + s.val) * M + j.val
    rw [Nat.mul_comm 1024 b.val])

/-- A length-b vector stored as a 1 × b matrix reads q at (·, q). -/
theorem rowVec_apply {b : Nat} {α : Type} (v : (⟨1, ![b]⟩ : Shape).Idx → α)
    (hc : (⟨1, ![b]⟩ : Shape).ShapeCasts ⟨2, ![1, b]⟩) (u : Fin 1) (q : Fin b) :
    shapeCast ⟨2, ![1, b]⟩ v hc (ix2 u q) = v (ix1 q) :=
  shapeCast_apply v hc _ _ (by
    have hu : u.val = 0 := by omega
    rw [Shape.rowMajor_val_two, Shape.rowMajor_val_one]
    show q.val = u.val * b + q.val
    rw [hu, Nat.zero_mul, Nat.zero_add])

/-- The batch and row of flat row 1024·b + s are b and s. -/
theorem batchRow_of_flat (b : Fin 4) (s : Fin 1024) :
    (⟨(1024 * b.val + s.val) / 1024, by have := b.isLt; have := s.isLt; omega⟩ : Fin 4) = b
      ∧ (⟨(1024 * b.val + s.val) % 1024, Nat.mod_lt _ (by decide)⟩ : Fin 1024) = s :=
  ⟨Fin.ext (by have := s.isLt; show (1024 * b.val + s.val) / 1024 = b.val; omega),
   Fin.ext (by have := s.isLt; show (1024 * b.val + s.val) % 1024 = s.val; omega)⟩

end Cert.KernelIdeal.GlueValue

end
-- ==== Proof.KI.GluePresent.lean ====
/- The kernel program's second result: after the first region the host reshapes the [4096,3072] projection to
   [4,1024,3072], slices its key and value column sections, splits each into heads, and joins the two along a new
   leading axis. That array is the specification's keys-and-values array of the reshaped projection. -/
import proofs.«103352_j54271206752754_2_alg».proof.Proof.KI.Run
import proofs.«103352_j54271206752754_2_alg».proof.Proof.Spec
import Idealize.ShloMosaic.Lib.StableHlo.Run
import Idealize.ShloMosaic.Lib.ValueIdx
import Idealize.ShloMosaic.Lib.Pipeline.Value

noncomputable section

namespace Cert.KernelIdeal.GlueValue

open Cert.KernelIdeal Cert.KernelIdeal.Gen Cert.KernelIdeal.Hand Idealize.ShloMosaic Idealize.ShloMosaic.ValueIdx

/-! ## The layout operations on any [4,1024,3072] array -/

/-- Head h of the key section — columns [1024, 1024 + 1024) of a [4,1024,3072] array, reshaped [4,1024,1024] →
    [4,1024,16,64] (row-major: column 64h + d is (h, d)) and transposed to [4,16,1024,64] — at (b, h, s, d) is the
    array's column 1·1024 + 64h + d of row (b, s). -/
theorem head_k (y : (⟨S4x1024x3072, .f32⟩ : BufTy).Contents (Elt Ideal)) (b : Fin 4) (h : Fin 16) (s : Fin 1024) (d : Fin 64) :
    transpose S4x16x1024x64 [0, 2, 1, 3]
        (shapeCast S4x1024x16x64 (extractStridedSlice S4x1024x1024 ![0, 0, 1024] y Cert.KernelIdeal.Gen.slices_S4x1024x3072_S4x1024x1024_0_0_1024)
          Cert.KernelIdeal.Gen.shapeCasts_S4x1024x1024_S4x1024x16x64)
        Cert.KernelIdeal.Gen.transposes_S4x1024x16x64_S4x16x1024x64_0_2_1_3 (ix4 b h s d)
      = y (ix3 b s (Cert.Spec.col 1 h d)) := by
  have hb := b.isLt; have hh := h.isLt; have hs := s.isLt; have hd := d.isLt
  refine (transpose_apply [0, 2, 1, 3] _ Cert.KernelIdeal.Gen.transposes_S4x1024x16x64_S4x16x1024x64_0_2_1_3 (ix4 b h s d) (ix4 b s h d)
    (fun a => match a with
      | ⟨0, _⟩ => rfl
      | ⟨1, _⟩ => rfl
      | ⟨2, _⟩ => rfl
      | ⟨3, _⟩ => rfl)).trans ?_
  refine (shapeCast_apply _ Cert.KernelIdeal.Gen.shapeCasts_S4x1024x1024_S4x1024x16x64 (ix4 b s h d)
    (ix3 b s (⟨64 * h.val + d.val, by omega⟩ : Fin 1024)) (by
      rewrite [Shape.rowMajor_val_three, Shape.rowMajor_val_four]
      show (b.val * 1024 + s.val) * 1024 + (64 * h.val + d.val) = ((b.val * 1024 + s.val) * 16 + h.val) * 64 + d.val
      omega)).trans ?_
  exact extractStridedSlice_apply ![0, 0, 1024] y Cert.KernelIdeal.Gen.slices_S4x1024x3072_S4x1024x1024_0_0_1024
    (ix3 b s (⟨64 * h.val + d.val, by omega⟩ : Fin 1024)) (ix3 b s (Cert.Spec.col 1 h d)) (fun a => match a with
      | ⟨0, _⟩ => by show b.val = 0 + b.val; omega
      | ⟨1, _⟩ => by show s.val = 0 + s.val; omega
      | ⟨2, _⟩ => by show 1 * 1024 + 64 * h.val + d.val = 1024 + (64 * h.val + d.val); omega)

/-- Head h of the value section — columns [2048, 2048 + 1024) of a [4,1024,3072] array, reshaped [4,1024,1024] →
    [4,1024,16,64] (row-major: column 64h + d is (h, d)) and transposed to [4,16,1024,64] — at (b, h, s, d) is the
    array's column 2·1024 + 64h + d of row (b, s). -/
theorem head_v (y : (⟨S4x1024x3072, .f32⟩ : BufTy).Contents (Elt Ideal)) (b : Fin 4) (h : Fin 16) (s : Fin 1024) (d : Fin 64) :
    transpose S4x16x1024x64 [0, 2, 1, 3]
        (shapeCast S4x1024x16x64 (extractStridedSlice S4x1024x1024 ![0, 0, 2048] y Cert.KernelIdeal.Gen.slices_S4x1024x3072_S4x1024x1024_0_0_2048)
          Cert.KernelIdeal.Gen.shapeCasts_S4x1024x1024_S4x1024x16x64)
        Cert.KernelIdeal.Gen.transposes_S4x1024x16x64_S4x16x1024x64_0_2_1_3 (ix4 b h s d)
      = y (ix3 b s (Cert.Spec.col 2 h d)) := by
  have hb := b.isLt; have hh := h.isLt; have hs := s.isLt; have hd := d.isLt
  refine (transpose_apply [0, 2, 1, 3] _ Cert.KernelIdeal.Gen.transposes_S4x1024x16x64_S4x16x1024x64_0_2_1_3 (ix4 b h s d) (ix4 b s h d)
    (fun a => match a with
      | ⟨0, _⟩ => rfl
      | ⟨1, _⟩ => rfl
      | ⟨2, _⟩ => rfl
      | ⟨3, _⟩ => rfl)).trans ?_
  refine (shapeCast_apply _ Cert.KernelIdeal.Gen.shapeCasts_S4x1024x1024_S4x1024x16x64 (ix4 b s h d)
    (ix3 b s (⟨64 * h.val + d.val, by omega⟩ : Fin 1024)) (by
      rewrite [Shape.rowMajor_val_three, Shape.rowMajor_val_four]
      show (b.val * 1024 + s.val) * 1024 + (64 * h.val + d.val) = ((b.val * 1024 + s.val) * 16 + h.val) * 64 + d.val
      omega)).trans ?_
  exact extractStridedSlice_apply ![0, 0, 2048] y Cert.KernelIdeal.Gen.slices_S4x1024x3072_S4x1024x1024_0_0_2048
    (ix3 b s (⟨64 * h.val + d.val, by omega⟩ : Fin 1024)) (ix3 b s (Cert.Spec.col 2 h d)) (fun a => match a with
      | ⟨0, _⟩ => by show b.val = 0 + b.val; omega
      | ⟨1, _⟩ => by show s.val = 0 + s.val; omega
      | ⟨2, _⟩ => by show 2 * 1024 + 64 * h.val + d.val = 2048 + (64 * h.val + d.val); omega)

/-- The same with the unit leading axis the join needs. -/
theorem lead_k (y : (⟨S4x1024x3072, .f32⟩ : BufTy).Contents (Elt Ideal)) (b : Fin 4) (h : Fin 16) (s : Fin 1024) (d : Fin 64) :
    (broadcastInDim S1x4x16x1024x64 ![1, 2, 3, 4] Cert.KernelIdeal.Gen.bcast_S4x16x1024x64_S1x4x16x1024x64_1_2_3_4
        (transpose S4x16x1024x64 [0, 2, 1, 3]
          (shapeCast S4x1024x16x64 (extractStridedSlice S4x1024x1024 ![0, 0, 1024] y Cert.KernelIdeal.Gen.slices_S4x1024x3072_S4x1024x1024_0_0_1024)
            Cert.KernelIdeal.Gen.shapeCasts_S4x1024x1024_S4x1024x16x64)
          Cert.KernelIdeal.Gen.transposes_S4x1024x16x64_S4x16x1024x64_0_2_1_3)) (ix5 (0 : Fin 1) b h s d)
      = y (ix3 b s (Cert.Spec.col 1 h d)) := by
  refine (broadcastInDim_apply _ Cert.KernelIdeal.Gen.bcast_S4x16x1024x64_S1x4x16x1024x64_1_2_3_4 _ (ix5 (0 : Fin 1) b h s d) (ix4 b h s d)
    (fun a => match a with
      | ⟨0, _⟩ => by show b.val = if (4 : Nat) = 1 then 0 else b.val; rw [if_neg (by decide)]
      | ⟨1, _⟩ => by show h.val = if (16 : Nat) = 1 then 0 else h.val; rw [if_neg (by decide)]
      | ⟨2, _⟩ => by show s.val = if (1024 : Nat) = 1 then 0 else s.val; rw [if_neg (by decide)]
      | ⟨3, _⟩ => by show d.val = if (64 : Nat) = 1 then 0 else d.val; rw [if_neg (by decide)])).trans ?_
  exact head_k y b h s d

theorem lead_v (y : (⟨S4x1024x3072, .f32⟩ : BufTy).Contents (Elt Ideal)) (b : Fin 4) (h : Fin 16) (s : Fin 1024) (d : Fin 64) :
    (broadcastInDim S1x4x16x1024x64 ![1, 2, 3, 4] Cert.KernelIdeal.Gen.bcast_S4x16x1024x64_S1x4x16x1024x64_1_2_3_4
        (transpose S4x16x1024x64 [0, 2, 1, 3]
          (shapeCast S4x1024x16x64 (extractStridedSlice S4x1024x1024 ![0, 0, 2048] y Cert.KernelIdeal.Gen.slices_S4x1024x3072_S4x1024x1024_0_0_2048)
            Cert.KernelIdeal.Gen.shapeCasts_S4x1024x1024_S4x1024x16x64)
          Cert.KernelIdeal.Gen.transposes_S4x1024x16x64_S4x16x1024x64_0_2_1_3)) (ix5 (0 : Fin 1) b h s d)
      = y (ix3 b s (Cert.Spec.col 2 h d)) := by
  refine (broadcastInDim_apply _ Cert.KernelIdeal.Gen.bcast_S4x16x1024x64_S1x4x16x1024x64_1_2_3_4 _ (ix5 (0 : Fin 1) b h s d) (ix4 b h s d)
    (fun a => match a with
      | ⟨0, _⟩ => by show b.val = if (4 : Nat) = 1 then 0 else b.val; rw [if_neg (by decide)]
      | ⟨1, _⟩ => by show h.val = if (16 : Nat) = 1 then 0 else h.val; rw [if_neg (by decide)]
      | ⟨2, _⟩ => by show s.val = if (1024 : Nat) = 1 then 0 else s.val; rw [if_neg (by decide)]
      | ⟨3, _⟩ => by show d.val = if (64 : Nat) = 1 then 0 else d.val; rw [if_neg (by decide)])).trans ?_
  exact head_v y b h s d

/-- The keys' and the values' head arrays of a [4,1024,3072] array, joined along a new leading axis. -/
def presentOps (y : (⟨S4x1024x3072, .f32⟩ : BufTy).Contents (Elt Ideal)) : (⟨S2x4x16x1024x64, .f32⟩ : BufTy).Contents (Elt Ideal) :=
  concatenate S2x4x16x1024x64 0
    [⟨S1x4x16x1024x64, broadcastInDim S1x4x16x1024x64 ![1, 2, 3, 4] Cert.KernelIdeal.Gen.bcast_S4x16x1024x64_S1x4x16x1024x64_1_2_3_4
        (transpose S4x16x1024x64 [0, 2, 1, 3]
          (shapeCast S4x1024x16x64 (extractStridedSlice S4x1024x1024 ![0, 0, 1024] y Cert.KernelIdeal.Gen.slices_S4x1024x3072_S4x1024x1024_0_0_1024)
            Cert.KernelIdeal.Gen.shapeCasts_S4x1024x1024_S4x1024x16x64)
          Cert.KernelIdeal.Gen.transposes_S4x1024x16x64_S4x16x1024x64_0_2_1_3)⟩,
     ⟨S1x4x16x1024x64, broadcastInDim S1x4x16x1024x64 ![1, 2, 3, 4] Cert.KernelIdeal.Gen.bcast_S4x16x1024x64_S1x4x16x1024x64_1_2_3_4
        (transpose S4x16x1024x64 [0, 2, 1, 3]
          (shapeCast S4x1024x16x64 (extractStridedSlice S4x1024x1024 ![0, 0, 2048] y Cert.KernelIdeal.Gen.slices_S4x1024x3072_S4x1024x1024_0_0_2048)
            Cert.KernelIdeal.Gen.shapeCasts_S4x1024x1024_S4x1024x16x64)
          Cert.KernelIdeal.Gen.transposes_S4x1024x16x64_S4x16x1024x64_0_2_1_3)⟩]
    Cert.KernelIdeal.Gen.concatenates_S1x4x16x1024x64_S1x4x16x1024x64_S2x4x16x1024x64_d0

/-- It is the specification's keys-and-values array. -/
theorem presentOps_eq (y : (⟨S4x1024x3072, .f32⟩ : BufTy).Contents (Elt Ideal)) : presentOps y = Cert.Spec.presentA y := by
  funext i
  obtain ⟨t, b, h, s, d, rfl⟩ : ∃ (t : Fin 2) (b : Fin 4) (h : Fin 16) (s : Fin 1024) (d : Fin 64), i = ix5 t b h s d :=
    ⟨i 0, i 1, i 2, i 3, i 4, eq_ix5 i⟩
  unfold presentOps
  match t with
  | ⟨0, _⟩ =>
    refine (concatenate_pair_apply_left (t := S2x4x16x1024x64) (s₁ := S1x4x16x1024x64) (s₂ := S1x4x16x1024x64)
      (0 : Fin S2x4x16x1024x64.rank) _ _ _ (ix5 (0 : Fin 2) b h s d) rfl (ix5 (0 : Fin 1) b h s d) (fun a => by
        match a with
        | ⟨0, _⟩ => rfl
        | ⟨1, _⟩ => rfl
        | ⟨2, _⟩ => rfl
        | ⟨3, _⟩ => rfl
        | ⟨4, _⟩ => rfl)).trans ?_
    refine (lead_k y b h s d).trans ?_
    refine congrArg y (congrArg (ix3 b s) (Fin.ext ?_))
    show 1 * 1024 + 64 * h.val + d.val = (0 + 1) * 1024 + 64 * h.val + d.val
    rfl
  | ⟨1, _⟩ =>
    refine (concatenate_pair_apply_right (t := S2x4x16x1024x64) (s₁ := S1x4x16x1024x64) (s₂ := S1x4x16x1024x64)
      (0 : Fin S2x4x16x1024x64.rank) _ _ _ (ix5 (1 : Fin 2) b h s d) rfl rfl (ix5 (0 : Fin 1) b h s d) (fun a => by
        match a with
        | ⟨0, _⟩ => exact fun hne => absurd rfl hne
        | ⟨1, _⟩ => exact fun _ => rfl
        | ⟨2, _⟩ => exact fun _ => rfl
        | ⟨3, _⟩ => exact fun _ => rfl
        | ⟨4, _⟩ => exact fun _ => rfl) rfl).trans ?_
    refine (lead_v y b h s d).trans ?_
    refine congrArg y (congrArg (ix3 b s) (Fin.ext ?_))
    show 2 * 1024 + 64 * h.val + d.val = (1 + 1) * 1024 + 64 * h.val + d.val
    rfl

/-! ## The second host stretch read off the run -/

/-- The reshaped projection the second host stretch leaves: the [4096,3072] array the first region wrote, read
    row-major as [4,1024,3072]. -/
theorem v5_cast (m : (ℓ : Loc nD τ sig) → Buf (Elt Ideal) ℓ) (ρ : Dev nD → PrngReg) (c : Dev nD) :
    E3 m ρ c main_v5
      = shapeCast S4x1024x3072 (B2 m ρ c (Proc.devRef .tc main_v4)) Cert.KernelIdeal.Gen.shapeCasts_S4096x3072_S4x1024x3072 := by
  show StableHlo.after hostOps1 _ (Proc.devRef .tc main_v5) = _
  after_results
  rfl

/-- A [4096,3072] array read row-major as [4,1024,3072]: entry (b, s, j) is entry (1024·b + s, j). -/
theorem cast_apply (y : (⟨S4096x3072, .f32⟩ : BufTy).Contents (Elt Ideal)) (b : Fin 4) (s : Fin 1024) (j : Fin 3072) :
    shapeCast S4x1024x3072 y Cert.KernelIdeal.Gen.shapeCasts_S4096x3072_S4x1024x3072 (ix3 b s j)
      = y (ix2 (⟨1024 * b.val + s.val, by have hb := b.isLt; have hs := s.isLt; omega⟩ : Fin 4096) j) := by
  have hb := b.isLt; have hs := s.isLt
  exact shapeCast_apply y Cert.KernelIdeal.Gen.shapeCasts_S4096x3072_S4x1024x3072 (ix3 b s j) _ (by
    rewrite [Shape.rowMajor_val_two, Shape.rowMajor_val_three]
    show (1024 * b.val + s.val) * 3072 + j.val = (b.val * 1024 + s.val) * 3072 + j.val
    omega)

/-- Entry (b, s, j) of the reshaped projection is entry (1024·b + s, j) of the [4096,3072] array the first region wrote. -/
theorem v5_of (m : (ℓ : Loc nD τ sig) → Buf (Elt Ideal) ℓ) (ρ : Dev nD → PrngReg) (c : Dev nD) :
    E3 m ρ c main_v5 = fun i : S4x1024x3072.Idx => B2 m ρ c (Proc.devRef .tc main_v4)
      (ix2 (⟨1024 * (i 0).val + (i 1).val, by
        have h0 : (i 0).val < 4 := (i 0).isLt; have h1 : (i 1).val < 1024 := (i 1).isLt; omega⟩ : Fin 4096) (i 2)) := by
  rw [v5_cast]
  funext i
  obtain ⟨b, s, j, rfl⟩ : ∃ (b : Fin 4) (s : Fin 1024) (j : Fin 3072), i = ix3 b s j := ⟨i 0, i 1, i 2, eq_ix3 i⟩
  exact cast_apply _ b s j

/-- The second result's array after the second host stretch is the specification's keys-and-values array of the
    reshaped projection. -/
theorem present_of (m : (ℓ : Loc nD τ sig) → Buf (Elt Ideal) ℓ) (ρ : Dev nD → PrngReg) (c : Dev nD) :
    B3 m ρ c (Proc.devRef .tc main_v15) = Cert.Spec.presentA (E3 m ρ c main_v5) := by
  rw [v5_cast, ← presentOps_eq]
  show StableHlo.after hostOps1 _ (Proc.devRef .tc main_v15) = _
  after_results
  generalize B2 m ρ c (Proc.devRef .tc main_v4) = y
  rfl

end Cert.KernelIdeal.GlueValue

end
-- ==== Proof.KI.Final0.lean ====
/- From the row blocks of the first projection to its whole output array: after every grid point's write-back the
   array holds, index by index, the product of the left operand's row with the weight's column, plus the bias. -/
import proofs.«103352_j54271206752754_2_alg».proof.Proof.KI.Body0
import Idealize.ShloMosaic.Lib.Pipeline.Value
import Idealize.ShloMosaic.Lib.ValueIdx

set_option maxRecDepth 16384

noncomputable section

namespace Cert.KernelIdeal.BlockValue

open Cert.KernelIdeal Cert.KernelIdeal.Gen Cert.KernelIdeal.Hand Idealize.ShloMosaic Idealize.ShloMosaic.ValueIdx
open Idealize.ShloMosaic.TcCoe
open Idealize.ShloMosaic.Pipeline (Dat)

/-- x · W + b as one array: entry (i, j) is the product of row i of x with column j of W, plus entry j of the
    bias row b. -/
def affine0 (x : S4096x1024.Idx → EReal) (w : S1024x3072.Idx → EReal) (b : S1x3072.Idx → EReal) : S4096x3072.Idx → EReal :=
  fun i => (∑ n : Fin 1024, x (ix2 (i 0) n) * w (ix2 n (i 1))) + b (ix2 0 (i 1))

/-- The zero offsets of a whole-block load or store. -/
theorem zero_offsets0 : (![0, 0] : Fin 2 → Nat) = fun _ => 0 := funext fun a => by fin_cases a <;> rfl

/-- The block indices of the four windows at every grid point: the left operand and the output move down one block
    of rows per point, the weight and the bias stay at their one block. -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row r of the block of point t is a row of the array: the grid has 8 points and a block 512 rows. -/
theorem row_lt0 (t : Fin cfg0.N) (r : Fin 512) : t.val * 512 + r.val < 4096 := by
  have ht : t.val < 8 := lt_of_lt_of_eq t.isLt N_0
  have hr := r.isLt
  omega

/-- The array's row that row r of point t's block is: 512 t + r. -/
def row0 (t : Fin cfg0.N) (r : Fin 512) : Fin 4096 := ⟨t.val * 512 + r.val, row_lt0 t r⟩

section
variable (V : (c : Dev nD) → (b : Ref sig .tc) → Buf (Elt Ideal) ((c : Thread nD τ).loc b))

/-- The left operand's block at point t is its rows 512 t … 512 t + 511. -/
theorem lhs_block0 (c : Dev nD) (t : Fin cfg0.N) (r : Fin 512) (n : Fin 1024) :
    (iblk0 V c 0 t : Vec Ideal S512x1024 .bf16) (ix2 r n) = (V c main_v1 : S4096x1024.Idx → EReal) (ix2 (row0 t r) n) := by
  obtain ⟨e0, e1, -⟩ := block_index0 t
  unfold iblk0
  rw [View.read_apply]
  show V c main_v1 (((cfg0.win 0).blk t).view.emb (ix2 r n)) = V c main_v1 (ix2 (row0 t r) n)
  refine congrArg (V c main_v1) ?_
  funext a; apply Fin.ext
  match a with
  | ⟨0, _⟩ => show win0_0.index t (0 : Fin 2) * 512 + 1 * r.val = t.val * 512 + r.val; rw [e0]; omega
  | ⟨1, _⟩ => show win0_0.index t (1 : Fin 2) * 1024 + 1 * n.val = n.val; rw [e1]; omega

/-- The weight's block at every point is the whole weight. -/
theorem rhs_block0 (c : Dev nD) (t : Fin cfg0.N) (n : Fin 1024) (j : Fin 3072) :
    (iblk0 V c 1 t : Vec Ideal S1024x3072 .bf16) (ix2 n j) = (V c main_v2 : S1024x3072.Idx → EReal) (ix2 n j) := by
  obtain ⟨-, -, e0, e1, -⟩ := block_index0 t
  unfold iblk0
  rw [View.read_apply]
  show V c main_v2 (((cfg0.win 1).blk t).view.emb (ix2 n j)) = V c main_v2 (ix2 n j)
  refine congrArg (V c main_v2) ?_
  funext a; apply Fin.ext
  match a with
  | ⟨0, _⟩ => show win0_1.index t (0 : Fin 2) * 1024 + 1 * n.val = n.val; rw [e0]; omega
  | ⟨1, _⟩ => show win0_1.index t (1 : Fin 2) * 3072 + 1 * j.val = j.val; rw [e1]; omega

/-- The bias row's block at every point is the whole row. -/
theorem bias_block0 (c : Dev nD) (t : Fin cfg0.N) (z : Fin 1) (j : Fin 3072) :
    (iblk0 V c 2 t : Vec Ideal S1x3072 .f32) (ix2 z j) = (V c main_v3 : S1x3072.Idx → EReal) (ix2 z j) := by
  obtain ⟨-, -, -, -, e0, e1, -⟩ := block_index0 t
  unfold iblk0
  rw [View.read_apply]
  show V c main_v3 (((cfg0.win 2).blk t).view.emb (ix2 z j)) = V c main_v3 (ix2 z j)
  refine congrArg (V c main_v3) ?_
  funext a; apply Fin.ext
  match a with
  | ⟨0, _⟩ => show win0_2.index t (0 : Fin 2) * 1 + 1 * z.val = z.val; rw [e0]; omega
  | ⟨1, _⟩ => show win0_2.index t (1 : Fin 2) * 3072 + 1 * j.val = j.val; rw [e1]; omega

/-- Entry (r, j) of the output's block at point t sits in the array at (512 t + r, j). -/
theorem out_block0 (t : Fin cfg0.N) (r : Fin 512) (j : Fin 3072) :
    (((cfg0.win 3).blk t).view.emb (ix2 r j) : S4096x3072.Idx) = ix2 (row0 t r) j := by
  obtain ⟨-, -, -, -, -, -, e0, e1⟩ := block_index0 t
  funext a; apply Fin.ext
  match a with
  | ⟨0, _⟩ => show win0_3.index t (0 : Fin 2) * 512 + 1 * r.val = t.val * 512 + r.val; rw [e0]; omega
  | ⟨1, _⟩ => show win0_3.index t (1 : Fin 2) * 3072 + 1 * j.val = j.val; rw [e1]; omega

/-- What point t writes back is block t of x · W + b of the arrays as the region finds them: the body's one store is
    the product of the loaded blocks plus the bias row, the left operand's block is the rows the output's block is, and
    the weight and the bias are read whole. -/
theorem flushed0_eq
    (hpay : ∀ (v0 : Vec Ideal S512x1024 .bf16) (v2 : Vec Ideal S1024x3072 .bf16) (v5 : Vec Ideal S1x3072 .f32) (r : Fin 512) (j : Fin 3072),
      k0_pay1 (F := Ideal) v0 v2 v5 (ix2 r j) = (∑ n : Fin 1024, v0 (ix2 r n) * v2 (ix2 n j)) + v5 (ix2 0 j))
    (c : Dev nD) (t : Fin cfg0.N) :
    (dat0 V c).flushed 3 t = ((cfg0.win 3).blk t).view.read (Elt Ideal) (affine0 (V c main_v1) (V c main_v2) (V c main_v3)) := by
  show (cfg0.win 3).cut (grid0.coords t) ((dat0 V c).after 3 t) = _
  rw [after0_3]
  unfold out0_3
  rw [View.canon_unit_zero zero_offsets0]
  simp only [View.ld_unit_zero (S := S512x1024) zero_offsets0, View.ld_unit_zero (S := S1024x3072) zero_offsets0,
    View.ld_unit_zero (S := S1x3072) zero_offsets0]
  funext y
  obtain ⟨r, j, rfl⟩ : ∃ (r : Fin 512) (j : Fin 3072), y = ix2 r j := ⟨y 0, y 1, eq_ix2 y⟩
  show k0_pay1 (F := Ideal) (iblk0 V c 0 t) (iblk0 V c 1 t) (iblk0 V c 2 t) (ix2 r j)
    = affine0 (V c main_v1) (V c main_v2) (V c main_v3) (((cfg0.win 3).blk t).view.emb (ix2 r j))
  rw [hpay (iblk0 V c 0 t) (iblk0 V c 1 t) (iblk0 V c 2 t) r j, out_block0 t r j]
  simp only [lhs_block0, rhs_block0, bias_block0]
  rfl

end

/-- An index of the array is in point t's block iff each coordinate is in the block's range on its axis. -/
theorem mem_block0 (t : Fin cfg0.N) (i : S4096x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v4).slice (win0_3.rect t)).set ↔ _
  rw [View.set_slice_whole, Rect.mem_set_unit]
  exact Iff.rfl

/-- Every index of the array is in the block of the point its row falls in: row i is in block i / 512, and every
    point writes its block back. -/
theorem covered0 (i : S4096x3072.Idx) :
    ∃ t : Fin cfg0.N, (cfg0.win 3).flush t = true ∧ i ∈ ((cfg0.win 3).blk t).view.set := by
  have hi0 : (i 0).val < 4096 := (i 0).isLt
  have hi1 : (i 1).val < 3072 := (i 1).isLt
  have hN : grid0.N = 8 := N_0
  let t : Fin cfg0.N := ⟨(i 0).val / 512, by show (i 0).val / 512 < grid0.N; omega⟩
  obtain ⟨-, -, -, -, -, -, e0, e1⟩ := block_index0 t
  have ht : t.val = (i 0).val / 512 := rfl
  refine ⟨t, flush0_3 t, ?_⟩
  rw [mem_block0]
  intro a
  match a with
  | ⟨0, _⟩ => show win0_3.index t (0 : Fin 2) * 512 ≤ (i 0).val ∧ (i 0).val < win0_3.index t (0 : Fin 2) * 512 + 512; rw [e0, ht]; omega
  | ⟨1, _⟩ => show win0_3.index t (1 : Fin 2) * 3072 ≤ (i 1).val ∧ (i 1).val < win0_3.index t (1 : Fin 2) * 3072 + 3072; rw [e1]; omega

/-- The output array after the region: x · W + b of the arrays as the region finds them, at every index (the eight
    blocks of 512 rows cover its 4096 rows, so no entry keeps what it held before). -/
theorem final0_of
    (hpay : ∀ (v0 : Vec Ideal S512x1024 .bf16) (v2 : Vec Ideal S1024x3072 .bf16) (v5 : Vec Ideal S1x3072 .f32) (r : Fin 512) (j : Fin 3072),
      k0_pay1 (F := Ideal) v0 v2 v5 (ix2 r j) = (∑ n : Fin 1024, v0 (ix2 r n) * v2 (ix2 n j)) + v5 (ix2 0 j))
    (V : (c : Dev nD) → (b : Ref sig .tc) → Buf (Elt Ideal) ((c : Thread nD τ).loc b)) (c : Dev nD) :
    (dat0 V c).arrAt 3 cfg0.N = affine0 (V c main_v1) (V c main_v2) (V c main_v3) :=
  (dat0 V c).arrAt_eq_of_cover 3 (affine0 (V c main_v1) (V c main_v2) (V c main_v3)) (fun t _ => flushed0_eq V hpay c t) covered0

end Cert.KernelIdeal.BlockValue

end
-- ==== Proof.KI.Final2.lean ====
/- From the row blocks of the second projection to its whole output array: after every grid point's write-back the
   array holds, index by index, the product of the left operand's row with the weight's column, plus the bias. -/
import proofs.«103352_j54271206752754_2_alg».proof.Proof.KI.Body2
import Idealize.ShloMosaic.Lib.Pipeline.Value
import Idealize.ShloMosaic.Lib.ValueIdx

set_option maxRecDepth 16384

noncomputable section

namespace Cert.KernelIdeal.BlockValue

open Cert.KernelIdeal Cert.KernelIdeal.Gen Cert.KernelIdeal.Hand Idealize.ShloMosaic Idealize.ShloMosaic.ValueIdx
open Idealize.ShloMosaic.TcCoe
open Idealize.ShloMosaic.Pipeline (Dat)

/-- x · W + b as one array: entry (i, j) is the product of row i of x with column j of W, plus entry j of the
    bias row b. -/
def affine2 (x : S4096x1024.Idx → EReal) (w : S1024x1024.Idx → EReal) (b : S1x1024.Idx → EReal) : S4096x1024.Idx → EReal :=
  fun i => (∑ n : Fin 1024, x (ix2 (i 0) n) * w (ix2 n (i 1))) + b (ix2 0 (i 1))

/-- The zero offsets of a whole-block load or store. -/
theorem zero_offsets2 : (![0, 0] : Fin 2 → Nat) = fun _ => 0 := funext fun a => by fin_cases a <;> rfl

/-- The block indices of the four windows at every grid point: the left operand and the output move down one block
    of rows per point, the weight and the bias stay at their one block. -/
theorem block_index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row r of the block of point t is a row of the array: the grid has 8 points and a block 512 rows. -/
theorem row_lt2 (t : Fin cfg2.N) (r : Fin 512) : t.val * 512 + r.val < 4096 := by
  have ht : t.val < 8 := lt_of_lt_of_eq t.isLt N_2
  have hr := r.isLt
  omega

/-- The array's row that row r of point t's block is: 512 t + r. -/
def row2 (t : Fin cfg2.N) (r : Fin 512) : Fin 4096 := ⟨t.val * 512 + r.val, row_lt2 t r⟩

section
variable (V : (c : Dev nD) → (b : Ref sig .tc) → Buf (Elt Ideal) ((c : Thread nD τ).loc b))

/-- The left operand's block at point t is its rows 512 t … 512 t + 511. -/
theorem lhs_block2 (c : Dev nD) (t : Fin cfg2.N) (r : Fin 512) (n : Fin 1024) :
    (iblk2 V c 0 t : Vec Ideal S512x1024 .bf16) (ix2 r n) = (V c main_v18 : S4096x1024.Idx → EReal) (ix2 (row2 t r) n) := by
  obtain ⟨e0, e1, -⟩ := block_index2 t
  unfold iblk2
  rw [View.read_apply]
  show V c main_v18 (((cfg2.win 0).blk t).view.emb (ix2 r n)) = V c main_v18 (ix2 (row2 t r) n)
  refine congrArg (V c main_v18) ?_
  funext a; apply Fin.ext
  match a with
  | ⟨0, _⟩ => show win2_0.index t (0 : Fin 2) * 512 + 1 * r.val = t.val * 512 + r.val; rw [e0]; omega
  | ⟨1, _⟩ => show win2_0.index t (1 : Fin 2) * 1024 + 1 * n.val = n.val; rw [e1]; omega

/-- The weight's block at every point is the whole weight. -/
theorem rhs_block2 (c : Dev nD) (t : Fin cfg2.N) (n : Fin 1024) (j : Fin 1024) :
    (iblk2 V c 1 t : Vec Ideal S1024x1024 .bf16) (ix2 n j) = (V c main_v19 : S1024x1024.Idx → EReal) (ix2 n j) := by
  obtain ⟨-, -, e0, e1, -⟩ := block_index2 t
  unfold iblk2
  rw [View.read_apply]
  show V c main_v19 (((cfg2.win 1).blk t).view.emb (ix2 n j)) = V c main_v19 (ix2 n j)
  refine congrArg (V c main_v19) ?_
  funext a; apply Fin.ext
  match a with
  | ⟨0, _⟩ => show win2_1.index t (0 : Fin 2) * 1024 + 1 * n.val = n.val; rw [e0]; omega
  | ⟨1, _⟩ => show win2_1.index t (1 : Fin 2) * 1024 + 1 * j.val = j.val; rw [e1]; omega

/-- The bias row's block at every point is the whole row. -/
theorem bias_block2 (c : Dev nD) (t : Fin cfg2.N) (z : Fin 1) (j : Fin 1024) :
    (iblk2 V c 2 t : Vec Ideal S1x1024 .f32) (ix2 z j) = (V c main_v20 : S1x1024.Idx → EReal) (ix2 z j) := by
  obtain ⟨-, -, -, -, e0, e1, -⟩ := block_index2 t
  unfold iblk2
  rw [View.read_apply]
  show V c main_v20 (((cfg2.win 2).blk t).view.emb (ix2 z j)) = V c main_v20 (ix2 z j)
  refine congrArg (V c main_v20) ?_
  funext a; apply Fin.ext
  match a with
  | ⟨0, _⟩ => show win2_2.index t (0 : Fin 2) * 1 + 1 * z.val = z.val; rw [e0]; omega
  | ⟨1, _⟩ => show win2_2.index t (1 : Fin 2) * 1024 + 1 * j.val = j.val; rw [e1]; omega

/-- Entry (r, j) of the output's block at point t sits in the array at (512 t + r, j). -/
theorem out_block2 (t : Fin cfg2.N) (r : Fin 512) (j : Fin 1024) :
    (((cfg2.win 3).blk t).view.emb (ix2 r j) : S4096x1024.Idx) = ix2 (row2 t r) j := by
  obtain ⟨-, -, -, -, -, -, e0, e1⟩ := block_index2 t
  funext a; apply Fin.ext
  match a with
  | ⟨0, _⟩ => show win2_3.index t (0 : Fin 2) * 512 + 1 * r.val = t.val * 512 + r.val; rw [e0]; omega
  | ⟨1, _⟩ => show win2_3.index t (1 : Fin 2) * 1024 + 1 * j.val = j.val; rw [e1]; omega

/-- What point t writes back is block t of x · W + b of the arrays as the region finds them: the body's one store is
    the product of the loaded blocks plus the bias row, the left operand's block is the rows the output's block is, and
    the weight and the bias are read whole. -/
theorem flushed2_eq
    (hpay : ∀ (v0 : Vec Ideal S512x1024 .bf16) (v2 : Vec Ideal S1024x1024 .bf16) (v5 : Vec Ideal S1x1024 .f32) (r : Fin 512) (j : Fin 1024),
      k2_pay1 (F := Ideal) v0 v2 v5 (ix2 r j) = (∑ n : Fin 1024, v0 (ix2 r n) * v2 (ix2 n j)) + v5 (ix2 0 j))
    (c : Dev nD) (t : Fin cfg2.N) :
    (dat2 V c).flushed 3 t = ((cfg2.win 3).blk t).view.read (Elt Ideal) (affine2 (V c main_v18) (V c main_v19) (V c main_v20)) := by
  show (cfg2.win 3).cut (grid2.coords t) ((dat2 V c).after 3 t) = _
  rw [after2_3]
  unfold out2_3
  rw [View.canon_unit_zero zero_offsets2]
  simp only [View.ld_unit_zero (S := S512x1024) zero_offsets2, View.ld_unit_zero (S := S1024x1024) zero_offsets2,
    View.ld_unit_zero (S := S1x1024) zero_offsets2]
  funext y
  obtain ⟨r, j, rfl⟩ : ∃ (r : Fin 512) (j : Fin 1024), y = ix2 r j := ⟨y 0, y 1, eq_ix2 y⟩
  show k2_pay1 (F := Ideal) (iblk2 V c 0 t) (iblk2 V c 1 t) (iblk2 V c 2 t) (ix2 r j)
    = affine2 (V c main_v18) (V c main_v19) (V c main_v20) (((cfg2.win 3).blk t).view.emb (ix2 r j))
  rw [hpay (iblk2 V c 0 t) (iblk2 V c 1 t) (iblk2 V c 2 t) r j, out_block2 t r j]
  simp only [lhs_block2, rhs_block2, bias_block2]
  rfl

end

/-- An index of the array is in point t's block iff each coordinate is in the block's range on its axis. -/
theorem mem_block2 (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v21).slice (win2_3.rect t)).set ↔ _
  rw [View.set_slice_whole, Rect.mem_set_unit]
  exact Iff.rfl

/-- Every index of the array is in the block of the point its row falls in: row i is in block i / 512, and every
    point writes its block back. -/
theorem covered2 (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  have hN : grid2.N = 8 := N_2
  let t : Fin cfg2.N := ⟨(i 0).val / 512, by show (i 0).val / 512 < grid2.N; omega⟩
  obtain ⟨-, -, -, -, -, -, e0, e1⟩ := block_index2 t
  have ht : t.val = (i 0).val / 512 := rfl
  refine ⟨t, flush2_3 t, ?_⟩
  rw [mem_block2]
  intro a
  match a with
  | ⟨0, _⟩ => show win2_3.index t (0 : Fin 2) * 512 ≤ (i 0).val ∧ (i 0).val < win2_3.index t (0 : Fin 2) * 512 + 512; rw [e0, ht]; omega
  | ⟨1, _⟩ => show win2_3.index t (1 : Fin 2) * 1024 ≤ (i 1).val ∧ (i 1).val < win2_3.index t (1 : Fin 2) * 1024 + 1024; rw [e1]; omega

/-- The output array after the region: x · W + b of the arrays as the region finds them, at every index (the eight
    blocks of 512 rows cover its 4096 rows, so no entry keeps what it held before). -/
theorem final2_of
    (hpay : ∀ (v0 : Vec Ideal S512x1024 .bf16) (v2 : Vec Ideal S1024x1024 .bf16) (v5 : Vec Ideal S1x1024 .f32) (r : Fin 512) (j : Fin 1024),
      k2_pay1 (F := Ideal) v0 v2 v5 (ix2 r j) = (∑ n : Fin 1024, v0 (ix2 r n) * v2 (ix2 n j)) + v5 (ix2 0 j))
    (V : (c : Dev nD) → (b : Ref sig .tc) → Buf (Elt Ideal) ((c : Thread nD τ).loc b)) (c : Dev nD) :
    (dat2 V c).arrAt 3 cfg2.N = affine2 (V c main_v18) (V c main_v19) (V c main_v20) :=
  (dat2 V c).arrAt_eq_of_cover 3 (affine2 (V c main_v18) (V c main_v19) (V c main_v20)) (fun t _ => flushed2_eq V hpay c t) covered2

end Cert.KernelIdeal.BlockValue

end
-- ==== Proof.KI.Glue.lean ====
/- The host operations around the three regions, read off the run's boundary contents: what @main returns as functions
   of its argument arrays.

   Before the first region the activations [4, 1024, 1024] are laid out as 4096 rows and the bias as a one-row matrix;
   the region leaves x · W₁ + b₁ as 4096 rows of 3072, which viewed [4, 1024, 3072] is the projected array of queries,
   keys and values. The attention region maps that array to the merged heads' outputs; laid out as 4096 rows they
   enter the last region with W₂ and b₂, and its 4096 rows viewed [4, 1024, 1024] are the result. A narrowing of the
   float format is the identity on exact values, and a buffer that nothing later writes keeps its contents. -/
import proofs.«103352_j54271206752754_2_alg».proof.Proof.KI.Run
import proofs.«103352_j54271206752754_2_alg».proof.Proof.Gen.KernelIdeal.Regions
import proofs.«103352_j54271206752754_2_alg».proof.Proof.Spec
import proofs.«103352_j54271206752754_2_alg».proof.Proof.KI.GlueCasts
import proofs.«103352_j54271206752754_2_alg».proof.Proof.KI.GluePresent
import proofs.«103352_j54271206752754_2_alg».proof.Proof.KI.Final0
import proofs.«103352_j54271206752754_2_alg».proof.Proof.KI.Final2

set_option maxRecDepth 16384

noncomputable section

namespace Cert.KernelIdeal.GlueValue

open Idealize.ShloMosaic Idealize.ShloMosaic.TcCoe Idealize.ShloMosaic.ValueIdx
open Idealize.SL.Sem
open Cert.KernelIdeal Cert.KernelIdeal.Gen
open scoped BigOperators

/-- The regions' output arrays as functions of the arrays the regions find. -/
abbrev Hf0 : Prop := ∀ (V : (c : Dev nD) → (b : Ref sig .tc) → Buf (Elt Ideal) ((c : Thread nD τ).loc b)) (c : Dev nD),
  (Hand.dat0 V c).arrAt 3 cfg0.N = Cert.KernelIdeal.BlockValue.affine0 (V c main_v1) (V c main_v2) (V c main_v3)
abbrev Hf1 : Prop := ∀ (V : (c : Dev nD) → (b : Ref sig .tc) → Buf (Elt Ideal) ((c : Thread nD τ).loc b)) (c : Dev nD),
  (Hand.dat1 V c).arrAt 3 cfg1.N = Cert.Spec.attnA (V c main_v5)
abbrev Hf2 : Prop := ∀ (V : (c : Dev nD) → (b : Ref sig .tc) → Buf (Elt Ideal) ((c : Thread nD τ).loc b)) (c : Dev nD),
  (Hand.dat2 V c).arrAt 3 cfg2.N = Cert.KernelIdeal.BlockValue.affine2 (V c main_v18) (V c main_v19) (V c main_v20)

section Chain

variable (m : (ℓ : Loc nD τ sig) → Buf (Elt Ideal) ℓ) (ρ : Dev nD → PrngReg) (c : Dev nD)

/-- The five argument arrays at launch. -/
abbrev X0 : Cert.Spec.Arr3 4 1024 1024 := m ((c : Thread nD τ).loc main_arg0)
abbrev X1 : Cert.Spec.Arr2 1024 3072 := m ((c : Thread nD τ).loc main_arg1)
abbrev X2 : Cert.Spec.Arr1 3072 := m ((c : Thread nD τ).loc main_arg2)
abbrev X3 : Cert.Spec.Arr2 1024 1024 := m ((c : Thread nD τ).loc main_arg3)
abbrev X4 : Cert.Spec.Arr1 1024 := m ((c : Thread nD τ).loc main_arg4)

/-- The buffers the chain goes through, each at the boundary where it is read, as arrays of extended reals. -/
abbrev A1 : S4096x1024.Idx → EReal := Hand.B1 m ρ c (Proc.devRef .tc main_v1)
abbrev A2 : S1024x3072.Idx → EReal := Hand.B1 m ρ c (Proc.devRef .tc main_v2)
abbrev A3 : S1x3072.Idx → EReal := Hand.B1 m ρ c (Proc.devRef .tc main_v3)
abbrev A4 : S4096x3072.Idx → EReal := Hand.B2 m ρ c (Proc.devRef .tc main_v4)
abbrev A5 : Cert.Spec.Arr3 4 1024 3072 := Hand.B3 m ρ c (Proc.devRef .tc main_v5)
abbrev A16 : Cert.Spec.Arr3 4 1024 1024 := Hand.B4 m ρ c (Proc.devRef .tc main_v16)
abbrev A18 : S4096x1024.Idx → EReal := Hand.B5 m ρ c (Proc.devRef .tc main_v18)
abbrev A19 : S1024x1024.Idx → EReal := Hand.B5 m ρ c (Proc.devRef .tc main_v19)
abbrev A20 : S1x1024.Idx → EReal := Hand.B5 m ρ c (Proc.devRef .tc main_v20)
abbrev A21 : S4096x1024.Idx → EReal := Hand.B6 m ρ c (Proc.devRef .tc main_v21)
abbrev A22 : Cert.Spec.Arr3 4 1024 1024 := Hand.B7 m ρ c (Proc.devRef .tc main_v22)
abbrev A15 : Cert.Spec.Arr5 2 4 16 1024 64 := Hand.B7 m ρ c (Proc.devRef .tc main_v15)

/-! ## Before the first region -/

/-- The activations laid out as 4096 rows (and narrowed): row r is row r % 1024 of batch r / 1024. -/
theorem b1_v1 (r : Fin 4096) (n : Fin 1024) :
    A1 m ρ c (ix2 r n)
      = X0 m c (ix3 (⟨r.val / 1024, by have := r.isLt; omega⟩ : Fin 4) (⟨r.val % 1024, Nat.mod_lt _ (by decide)⟩ : Fin 1024) n) := by
  have e : A1 m ρ c
      = (truncf (F := Ideal) .bf16 (shapeCast S4096x1024 (X0 m c) shapeCasts_S4x1024x1024_S4096x1024) bitsLt_bf16_f32
          : FVec Ideal S4096x1024 .bf16) := by
    show StableHlo.after hostOps0 _ (Proc.devRef .tc main_v1) = _
    after_results
    rfl
  exact (congrFun e (ix2 r n)).trans (flatRows_apply (X0 m c) shapeCasts_S4x1024x1024_S4096x1024 r n)

/-- The first weight, narrowed. -/
theorem b1_v2 : A2 m ρ c = X1 m c := by
  show StableHlo.after hostOps0 _ (Proc.devRef .tc main_v2) = _
  after_results
  rfl

/-- The first bias as a one-row matrix. -/
theorem b1_v3 (u : Fin 1) (j : Fin 3072) : A3 m ρ c (ix2 u j) = X2 m c (ix1 j) := by
  have e : A3 m ρ c = shapeCast S1x3072 (X2 m c) shapeCasts_S3072_S1x3072 := by
    show StableHlo.after hostOps0 _ (Proc.devRef .tc main_v3) = _
    after_results
    rfl
  exact (congrFun e (ix2 u j)).trans (rowVec_apply (X2 m c) shapeCasts_S3072_S1x3072 u j)

/-! ## The first region's output, and the projected array -/

/-- The first region leaves the projection, laid out as 4096 rows. -/
theorem b2_v4 (hf0 : Hf0) (r : Fin 4096) (j : Fin 3072) :
    A4 m ρ c (ix2 r j)
      = Cert.Spec.proj (X0 m c) (X1 m c) (X2 m c) (⟨r.val / 1024, by have := r.isLt; omega⟩ : Fin 4)
          (⟨r.val % 1024, Nat.mod_lt _ (by decide)⟩ : Fin 1024) j := by
  refine (congrFun ((Hand.B2_arr m ρ c 3).trans (hf0 (Hand.E1 m ρ) c)) (ix2 r j)).trans ?_
  show (∑ n : Fin 1024, A1 m ρ c (ix2 r n) * A2 m ρ c (ix2 n j)) + A3 m ρ c (ix2 0 j) = _
  unfold Cert.Spec.proj
  refine congrArg₂ (· + ·) (Finset.sum_congr rfl fun n _ => ?_) (b1_v3 m ρ c 0 j)
  rw [b1_v1, b1_v2]

/-- The array the attention region reads is the projected array of queries, keys and values. -/
theorem b3_v5 (hf0 : Hf0) : A5 m ρ c = Cert.Spec.projA (X0 m c) (X1 m c) (X2 m c) := by
  funext i
  obtain ⟨b, s, j, rfl⟩ : ∃ (b : Fin 4) (s : Fin 1024) (j : Fin 3072), i = ix3 b s j := ⟨i 0, i 1, i 2, eq_ix3 i⟩
  have hv5 : A5 m ρ c (ix3 b s j)
      = A4 m ρ c (ix2 (⟨1024 * b.val + s.val, by have := b.isLt; have := s.isLt; omega⟩ : Fin 4096) j) :=
    congrFun (v5_of m ρ c) (ix3 b s j)
  refine hv5.trans ((b2_v4 m ρ c hf0 _ j).trans ?_)
  show Cert.Spec.proj _ _ _ _ _ j = Cert.Spec.proj _ _ _ b s j
  rw [(batchRow_of_flat b s).1, (batchRow_of_flat b s).2]

/-! ## The attention region's output -/

/-- The attention region leaves the merged heads' outputs of the projected array. -/
theorem b4_v16 (hf0 : Hf0) (hf1 : Hf1) :
    A16 m ρ c = Cert.Spec.attnA (Cert.Spec.projA (X0 m c) (X1 m c) (X2 m c)) :=
  (Hand.B4_out m ρ c).trans ((hf1 (Hand.E3 m ρ) c).trans (congrArg Cert.Spec.attnA (b3_v5 m ρ c hf0)))

/-- An argument array is as launched when the last region is entered. -/
theorem b4_keep (r : Ref sig .tc) (h0 : r ∉ hostOps0_W) (h1 : r ∉ hostOps1_W) (a0 : ∀ w, Pipeline.arrRef spec0 w ≠ r)
    (a1 : r ≠ main_v16) : Hand.B4 m ρ c (Proc.devRef .tc r) = m ((c : Thread nD τ).loc r) :=
  (Hand.B4_of_ne m ρ c r a1).trans <|
    (StableHlo.after_of_writes_sub hostOps1 _ hostOps1_writes h1).trans <| (Hand.B2_of_ne m ρ c r a0).trans <|
    (StableHlo.after_of_writes_sub hostOps0 _ hostOps0_writes h0).trans rfl

/-! ## Before the last region -/

/-- The attention output laid out as 4096 rows (and narrowed). -/
theorem b5_v18 (r : Fin 4096) (j : Fin 1024) :
    A18 m ρ c (ix2 r j)
      = A16 m ρ c
          (ix3 (⟨r.val / 1024, by have := r.isLt; omega⟩ : Fin 4) (⟨r.val % 1024, Nat.mod_lt _ (by decide)⟩ : Fin 1024) j) := by
  have e : A18 m ρ c
      = (truncf (F := Ideal) .bf16 (shapeCast S4096x1024 (A16 m ρ c) shapeCasts_S4x1024x1024_S4096x1024)
          bitsLt_bf16_f32 : FVec Ideal S4096x1024 .bf16) := by
    show StableHlo.after hostOps2 _ (Proc.devRef .tc main_v18) = _
    after_results
    rfl
  exact (congrFun e (ix2 r j)).trans
    (flatRows_apply (A16 m ρ c) shapeCasts_S4x1024x1024_S4096x1024 r j)

/-- The second weight, narrowed. -/
theorem b5_v19 : A19 m ρ c = X3 m c := by
  have e : A19 m ρ c
      = (truncf (F := Ideal) .bf16 (Hand.B4 m ρ c (Proc.devRef .tc main_arg3) : FVec Ideal S1024x1024 .f32) bitsLt_bf16_f32
          : FVec Ideal S1024x1024 .bf16) := by
    show StableHlo.after hostOps2 _ (Proc.devRef .tc main_v19) = _
    after_results
  rw [e, b4_keep m ρ c main_arg3 (by decide) (by decide) (by decide) (by decide)]
  rfl

/-- The second bias as a one-row matrix. -/
theorem b5_v20 (u : Fin 1) (n : Fin 1024) : A20 m ρ c (ix2 u n) = X4 m c (ix1 n) := by
  have e : A20 m ρ c
      = shapeCast S1x1024 (Hand.B4 m ρ c (Proc.devRef .tc main_arg4) : S1024.Idx → EReal) shapeCasts_S1024_S1x1024 := by
    show StableHlo.after hostOps2 _ (Proc.devRef .tc main_v20) = _
    after_results
    rfl
  rw [e, b4_keep m ρ c main_arg4 (by decide) (by decide) (by decide) (by decide)]
  exact rowVec_apply (X4 m c) shapeCasts_S1024_S1x1024 u n

/-! ## The last region's output, and the results -/

/-- The last region leaves the projection of the attention output, laid out as 4096 rows. -/
theorem b6_v21 (hf0 : Hf0) (hf1 : Hf1) (hf2 : Hf2) (r : Fin 4096) (n : Fin 1024) :
    A21 m ρ c (ix2 r n)
      = Cert.Spec.proj (Cert.Spec.attnA (Cert.Spec.projA (X0 m c) (X1 m c) (X2 m c))) (X3 m c) (X4 m c)
          (⟨r.val / 1024, by have := r.isLt; omega⟩ : Fin 4) (⟨r.val % 1024, Nat.mod_lt _ (by decide)⟩ : Fin 1024) n := by
  refine (congrFun ((Hand.B6_arr m ρ c 3).trans (hf2 (Hand.E5 m ρ) c)) (ix2 r n)).trans ?_
  show (∑ k : Fin 1024, A18 m ρ c (ix2 r k) * A19 m ρ c (ix2 k n)) + A20 m ρ c (ix2 0 n) = _
  unfold Cert.Spec.proj
  refine congrArg₂ (· + ·) (Finset.sum_congr rfl fun k _ => ?_) (b5_v20 m ρ c 0 n)
  rw [b5_v18, b5_v19, b4_v16 m ρ c hf0 hf1]

/-- The first result: the last region's rows viewed [4, 1024, 1024]. -/
theorem b7_v22 (hf0 : Hf0) (hf1 : Hf1) (hf2 : Hf2) :
    A22 m ρ c = Cert.Spec.outA (X0 m c) (X1 m c) (X2 m c) (X3 m c) (X4 m c) := by
  have e : A22 m ρ c = shapeCast S4x1024x1024 (A21 m ρ c) shapeCasts_S4096x1024_S4x1024x1024 := by
    show StableHlo.after hostOps3 _ (Proc.devRef .tc main_v22) = _
    after_results
    rfl
  funext i
  obtain ⟨b, s, n, rfl⟩ : ∃ (b : Fin 4) (s : Fin 1024) (n : Fin 1024), i = ix3 b s n := ⟨i 0, i 1, i 2, eq_ix3 i⟩
  refine (congrFun e (ix3 b s n)).trans ((batchRows_apply (A21 m ρ c) shapeCasts_S4096x1024_S4x1024x1024 b s n).trans ?_)
  refine (b6_v21 m ρ c hf0 hf1 hf2 _ n).trans ?_
  show Cert.Spec.proj _ _ _ _ _ n = Cert.Spec.proj _ _ _ b s n
  rw [(batchRow_of_flat b s).1, (batchRow_of_flat b s).2]

/-- The second result is written before the attention region and by nothing after it. -/
theorem b7_v15 : A15 m ρ c = Cert.Spec.presentA (A5 m ρ c) :=
  (StableHlo.after_of_writes_sub hostOps3 _ hostOps3_writes (by decide)).trans <|
    (Hand.B6_of_ne m ρ c main_v15 (by decide)).trans <|
    (StableHlo.after_of_writes_sub hostOps2 _ hostOps2_writes (by decide)).trans <|
    (Hand.B4_of_ne m ρ c main_v15 (by decide)).trans (present_of m ρ c)

end Chain

/-- What @main returns with: the projected attention output and the keys and values per head, as the specification's
    functions of the five argument arrays. -/
theorem value_of
    (hf0 : ∀ (V : (c : Dev nD) → (b : Ref sig .tc) → Buf (Elt Ideal) ((c : Thread nD τ).loc b)) (c : Dev nD),
      (Hand.dat0 V c).arrAt 3 cfg0.N = Cert.KernelIdeal.BlockValue.affine0 (V c main_v1) (V c main_v2) (V c main_v3))
    (hf1 : ∀ (V : (c : Dev nD) → (b : Ref sig .tc) → Buf (Elt Ideal) ((c : Thread nD τ).loc b)) (c : Dev nD),
      (Hand.dat1 V c).arrAt 3 cfg1.N = Cert.Spec.attnA (V c main_v5))
    (hf2 : ∀ (V : (c : Dev nD) → (b : Ref sig .tc) → Buf (Elt Ideal) ((c : Thread nD τ).loc b)) (c : Dev nD),
      (Hand.dat2 V c).arrAt 3 cfg2.N = Cert.KernelIdeal.BlockValue.affine2 (V c main_v18) (V c main_v19) (V c main_v20))
    (m : (ℓ : Loc nD τ sig) → Buf (Elt Ideal) ℓ) (ρ : Dev nD → PrngReg) (c : Dev nD) :
    Hand.B7 m ρ c (Proc.devRef .tc main_v22)
        = Cert.Spec.outA (m ((c : Thread nD τ).loc main_arg0)) (m ((c : Thread nD τ).loc main_arg1))
            (m ((c : Thread nD τ).loc main_arg2)) (m ((c : Thread nD τ).loc main_arg3)) (m ((c : Thread nD τ).loc main_arg4))
      ∧ Hand.B7 m ρ c (Proc.devRef .tc main_v15)
        = Cert.Spec.present (m ((c : Thread nD τ).loc main_arg0)) (m ((c : Thread nD τ).loc main_arg1))
            (m ((c : Thread nD τ).loc main_arg2)) :=
  ⟨b7_v22 m ρ c hf0 hf1 hf2, (b7_v15 m ρ c).trans (congrArg Cert.Spec.presentA (b3_v5 m ρ c hf0))⟩

end Cert.KernelIdeal.GlueValue

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowDot.lean ====
/-
  A matrix product against a row-major weight, read at an index.

  The dimension numbers of an [a, c] × [b, c] → [a, b] product contract axis 1 of BOTH operands and have no batch
  axis: the right operand is a stack of b rows of length c, and result entry (p, q) is the inner product of the left
  operand's row p with the right operand's row q. At result index (p, q) and contraction position k the left operand
  is read at (p, k) and the right operand at (q, k), so the sum over the contraction shape's one-axis index set is
  the sum over k : Fin c of lhs (p, k) * rhs (q, k) — in any commutative additive monoid with a product, the
  extended reals included. The statement is over variable extents; a printed record with these six lists is this
  one by reflexivity.
-/
import Idealize.ShloMosaic.Lib.ValueIdx
import Idealize.ShloMosaic.PureOps.Ideal.Laws

noncomputable section

namespace Cert.Lib.RowDot

open Idealize.ShloMosaic Idealize.ShloMosaic.ValueIdx
open scoped BigOperators

variable {a c b : Nat}

/-- The dimension numbers of the product [a, c] × [b, c] → [a, b] that contracts the second axis of both. -/
abbrev dims (wf : DotDims.WF ⟨2, ![a, c]⟩ ⟨2, ![b, c]⟩ ⟨2, ![a, b]⟩ [1] [1] [0] [0] [] []) :
    DotDims ⟨2, ![a, c]⟩ ⟨2, ![b, c]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, c]⟩ ⟨2, ![b, c]⟩ ⟨2, ![a, b]⟩ [1] [1] [0] [0] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the result's column. -/
theorem rhs_row (i : (⟨2, ![a, b]⟩ : Shape).Idx) (k : (dims wf).contr.Idx) :
    ((dims wf).rhsIdx i k 0).val = (i 1).val := by
  unfold DotDims.rhsIdx
  rw [dif_neg (show ¬(0 : Fin 2) ∈ (dims wf).rhsBatch from List.not_mem_nil),
    dif_pos (show (0 : Fin 2) ∈ (dims wf).rhsNonContracting from List.mem_singleton.mpr rfl)]
  rfl

/-- The right operand's column is the contraction position. -/
theorem rhs_col (i : (⟨2, ![a, b]⟩ : Shape).Idx) (k : (dims wf).contr.Idx) :
    ((dims wf).rhsIdx i k 1).val = (k ⟨0, Nat.one_pos⟩).val :=
  (dims wf).rhsIdx_val_of_single rfl i k

/-- The product's sum at (p, q): over k, the left operand at (p, k) times the right operand at (q, k). -/
theorem sum_apply {M : Type*} [AddCommMonoid M] [Mul M] (lhs : (⟨2, ![a, c]⟩ : Shape).Idx → M)
    (rhs : (⟨2, ![b, c]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 q k) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 q k :=
    funext fun ax => Fin.ext (by
      match ax with
      | ⟨0, _⟩ => exact rhs_row wf _ _
      | ⟨1, _⟩ => exact (rhs_col wf _ _).trans hk)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![b, c]⟩ φ₂) (p : Fin a) (q : Fin b) :
    matmul (dims wf) prec lhs rhs (constant ⟨2, ![a, b]⟩ .f32 0x00000000#32) (ix2 p q)
      = ∑ k : Fin c, lhs (ix2 p k) * rhs (ix2 q k) :=
  (Ideal.matmul_constant_zero_apply (dims wf) prec lhs rhs (ix2 p q)).trans (sum_apply wf lhs rhs p q)

end Cert.Lib.RowDot

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.LibUnitAxis.lean ====
/-
  A leading unit axis read at an index.

  A block of shape [1, h, w] and the matrix of shape [h, w] with the same entries in row-major order: viewing the
  block as the matrix reads (0, r, c) at (r, c), and storing the matrix as a block reads (r, c) at (·, r, c). For any
  element type and any extents.
-/
import Idealize.ShloMosaic.Lib.Pipeline.Value
import Idealize.ShloMosaic.Lib.ValueIdx

noncomputable section

namespace Cert.Lib.UnitAxis

open Idealize.ShloMosaic Idealize.ShloMosaic.ValueIdx

/-- A block [1, h, w] viewed [h, w] reads (0, r, c) at (r, c). -/
theorem drop_apply {h w : Nat} {α : Type} (v : (⟨3, ![1, h, w]⟩ : Shape).Idx → α)
    (hc : (⟨3, ![1, h, w]⟩ : Shape).ShapeCasts ⟨2, ![h, w]⟩) (r : Fin h) (c : Fin w) :
    shapeCast ⟨2, ![h, w]⟩ v hc (ix2 r c) = v (ix3 (0 : Fin 1) r c) :=
  shapeCast_apply v hc _ _ (by
    rw [Shape.rowMajor_val_three, Shape.rowMajor_val_two]
    show (0 * h + r.val) * w + c.val = r.val * w + c.val
    rw [Nat.zero_mul, Nat.zero_add])

/-- An [h, w] value stored as a block [1, h, w] reads (r, c) at (u, r, c). -/
theorem add_apply {h w : Nat} {α : Type} (v : (⟨2, ![h, w]⟩ : Shape).Idx → α)
    (hc : (⟨2, ![h, w]⟩ : Shape).ShapeCasts ⟨3, ![1, h, w]⟩) (u : Fin 1) (r : Fin h) (c : Fin w) :
    shapeCast ⟨3, ![1, h, w]⟩ v hc (ix3 u r c) = v (ix2 r c) :=
  shapeCast_apply v hc _ _ (by
    have hu : u.val = 0 := by omega
    rw [Shape.rowMajor_val_three, Shape.rowMajor_val_two]
    show r.val * w + c.val = (u.val * h + r.val) * w + c.val
    rw [hu, Nat.zero_mul, Nat.zero_add])

end Cert.Lib.UnitAxis

end
-- ==== Proof.KI.AttnRow.lean ====
/- One row of the attention body, read at an index.

   The body turns a [1024, 1024] array of masked scores into probabilities row by row: the row's largest entry (a
   maximum folded from −∞) is subtracted, the exponentials are divided by their row sum, and the probabilities multiply
   the value block. Each step here is stated over a variable array: the row statistics kept as a column and copied back
   along the row, the causal mask as a comparison of the two coordinates, and the whole chain from scores to the head's
   output as the softmax-weighted sum of the value rows. -/
import proofs.«103352_j54271206752754_2_alg».proof.Proof.Gen.KernelIdeal.Skeleton
import proofs.«103352_j54271206752754_2_alg».proof.Proof.Spec
import proofs.«103352_j54271206752754_2_alg».proof.Proof.LibPlainDot
import proofs.«103352_j54271206752754_2_alg».proof.Proof.LibRowDot
import proofs.«103352_j54271206752754_2_alg».proof.Proof.LibKeepdims
import proofs.«103352_j54271206752754_2_alg».proof.Proof.LibUnitAxis
import Idealize.ShloMosaic.Lib.WordArith

noncomputable section

namespace Cert.KernelIdeal.PayValue

open Cert.KernelIdeal Cert.KernelIdeal.Gen Idealize.ShloMosaic Idealize.ShloMosaic.ValueIdx
open scoped BigOperators

/-- The f32 word of −∞ is the bottom element. -/
theorem ofBits_neg_inf_f32 : Ideal.ofBits .f32 0xFF800000#32 = ⊥ := by
  simp [Ideal.ofBits, Ideal.ieee]

/-- The index a row reduction reads: column `k` inserted after row `r`. -/
theorem lift_row (r k : Fin 1024) :
    (reduces_S1024x1024_S1024 : S1024x1024.Reduces [1] S1024).lift (ix1 r) k = ix2 r k :=
  funext fun ax => Fin.ext (by
    match ax with
    | ⟨0, _⟩ => rfl
    | ⟨1, _⟩ => rfl)

/-- The row maximum folded from −∞ is the supremum of the row. -/
theorem rowMax_apply (a : FVec Ideal S1024x1024 .f32) (r : Fin 1024) :
    multiReduction (F := Ideal) .maximumf [1] S1024 a 0xFF800000#32 reduces_S1024x1024_S1024 (.inl rfl) rfl (ix1 r)
      = Cert.Spec.rowMax fun k => a (ix2 r k) := by
  refine (Ideal.multiReduction_maximumf_single a 0xFF800000#32 reduces_S1024x1024_S1024 (.inl rfl) rfl (ix1 r)).trans ?_
  have e : (a ∘ (reduces_S1024x1024_S1024 : S1024x1024.Reduces [1] S1024).lift (ix1 r)) = fun k : Fin 1024 => a (ix2 r k) :=
    funext fun k => congrArg a (lift_row r k)
  rw [e]
  show Finset.univ.fold max (Ideal.ofBits .f32 0xFF800000#32) (fun k : Fin 1024 => a (ix2 r k)) = _
  rw [ofBits_neg_inf_f32]
  rfl

/-- The row sum from the zero word is the sum of the row. -/
theorem rowSum_apply (a : FVec Ideal S1024x1024 .f32) (r : Fin 1024) :
    multiReduction (F := Ideal) .add [1] S1024 a 0x00000000#32 reduces_S1024x1024_S1024 (.inl rfl) rfl (ix1 r)
      = ∑ k : Fin 1024, a (ix2 r k) := by
  refine (Ideal.multiReduction_add_single a 0x00000000#32 reduces_S1024x1024_S1024 (.inl rfl) rfl (ix1 r)).trans ?_
  exact Finset.sum_congr rfl fun k _ => congrArg a (lift_row r k)

/-- A row statistic kept as a column and copied back along the row reads, at (r, c), the statistic of row r. -/
theorem keep_apply (x : FVec Ideal S1024 .f32) (r c : Fin 1024) :
    broadcastTo S1024x1024 (shapeCast S1024x1 x shapeCasts_S1024_S1024x1) broadcasts_S1024x1_S1024x1024 (ix2 r c)
      = x (ix1 r) :=
  (Cert.Lib.Keepdims.bcastCol_apply _ broadcasts_S1024x1_S1024x1024 r c).trans
    (Cert.Lib.Keepdims.col_apply x shapeCasts_S1024_S1024x1 r 0)

/-- The causal mask at (q, k) is set exactly when k ≤ q. -/
theorem mask_apply (q k : Fin 1024) : k1_pay2 (ix2 q k) = 1#1 ↔ k.val ≤ q.val := by
  unfold k1_pay2
  show IntOp.cmpi .sge (iota .tc S1024x1024 32 [0] iota_S1024x1024_d0_w32 (ix2 q k))
    (iota .tc S1024x1024 32 [1] iota_S1024x1024_d1_w32 (ix2 q k)) = 1#1 ↔ _
  rw [iota_single_apply, iota_single_apply, IntOp.cmpi_sge]
  show (BitVec.ofNat 32 k.val).toInt ≤ (BitVec.ofNat 32 q.val).toInt ↔ _
  rw [WordArith.toInt_ofNat_small _ (by have := k.isLt; omega), WordArith.toInt_ofNat_small _ (by have := q.isLt; omega)]
  exact Int.ofNat_le

/-- A select on the causal mask is the `if` on k ≤ q. -/
theorem select_mask {α : Type} (q k : Fin 1024) (A B : α) :
    Scalar.select (k1_pay2 (ix2 q k)) A B = if k.val ≤ q.val then A else B := by
  by_cases h : k.val ≤ q.val
  · rw [(mask_apply q k).mpr h, select_one, if_pos h]
  · rw [eq_zero_of_ne_one (fun e => h ((mask_apply q k).mp e)), select_zero, if_neg h]

end Cert.KernelIdeal.PayValue

end
-- ==== Proof.KI.AttnChain.lean ====
/- The attention body's chain for one head, from the query, key and value blocks to the head's output.

   The scores are the query rows' inner products with the key rows, scaled by the f32 word for 1/8 and replaced by the
   f32 fill word above the diagonal; each row becomes probabilities (the exponentials of the entries less the row's
   largest, over their sum); the probabilities multiply the value block. The body's two copies of this chain (one per
   head of the column block) are this one chain at different blocks. -/
import proofs.«103352_j54271206752754_2_alg».proof.Proof.KI.AttnRow

noncomputable section

namespace Cert.KernelIdeal.PayValue

open Cert.KernelIdeal Cert.KernelIdeal.Gen Idealize.ShloMosaic Idealize.ShloMosaic.ValueIdx
open scoped BigOperators

/-- The masked, scaled scores of a query block [1024, 64] against a key block [1, 1024, 64] under a mask. -/
def scoresOf (m : IVec S1024x1024 1) (q : FVec Ideal S1024x64 .bf16) (k : Vec Ideal S1x1024x64 .f32) :
    FVec Ideal S1024x1024 .f32 :=
  select m
    (mulf (matmul dot_S1024x64_S1024x64_S1024x1024_1_1_0_0_n_n none q
        (truncf .bf16 (shapeCast S1024x64 k shapeCasts_S1x1024x64_S1024x64) bitsLt_bf16_f32)
        (constant S1024x1024 .f32 0x00000000#32))
      (broadcast S1024x1024 (Scalar.ofBits (F := Ideal) .f32 0x3E000000#32)))
    (broadcast S1024x1024 (Scalar.ofBits (F := Ideal) .f32 0xD01502F9#32))

/-- The exponentials of the entries less their row's largest. -/
def shifted (a : FVec Ideal S1024x1024 .f32) : FVec Ideal S1024x1024 .f32 :=
  exp (subf a (broadcastTo S1024x1024 (shapeCast S1024x1
    (multiReduction (F := Ideal) .maximumf [1] S1024 a 0xFF800000#32 reduces_S1024x1024_S1024 (.inl rfl) rfl)
    shapeCasts_S1024_S1024x1) broadcasts_S1024x1_S1024x1024))

/-- The rows' probabilities. -/
def probs (a : FVec Ideal S1024x1024 .f32) : FVec Ideal S1024x1024 .f32 :=
  divf (shifted a) (broadcastTo S1024x1024 (shapeCast S1024x1
    (multiReduction (F := Ideal) .add [1] S1024 (shifted a) 0x00000000#32 reduces_S1024x1024_S1024 (.inl rfl) rfl)
    shapeCasts_S1024_S1024x1) broadcasts_S1024x1_S1024x1024)

/-- The head's output from the scores and the value block [1024, 64]. -/
def attnOf (a : FVec Ideal S1024x1024 .f32) (vv : FVec Ideal S1024x64 .bf16) : FVec Ideal S1024x64 .f32 :=
  matmul dot_S1024x1024_S1024x64_S1024x64_1_0_0_1_n_n none (truncf .bf16 (probs a) bitsLt_bf16_f32) vv
    (constant S1024x64 .f32 0x00000000#32)

/-- A block [1, 1024, 64] viewed [1024, 64] and narrowed reads (0, r, c) at (r, c). -/
theorem block_apply (v : Vec Ideal S1x1024x64 .f32) (r : Fin 1024) (c : Fin 64) :
    (truncf .bf16 (shapeCast S1024x64 v shapeCasts_S1x1024x64_S1024x64) bitsLt_bf16_f32 : FVec Ideal S1024x64 .bf16)
      (ix2 r c) = v (ix3 0 r c) :=
  (truncf_apply (ψ := .bf16) (shapeCast S1024x64 v shapeCasts_S1x1024x64_S1024x64) bitsLt_bf16_f32 (ix2 r c)).trans
    (Cert.Lib.UnitAxis.drop_apply v shapeCasts_S1x1024x64_S1024x64 r c)

/-- The scores under the causal mask at (s, k): the scaled inner product on and below the diagonal, the fill above. -/
theorem scoresOf_apply (q : FVec Ideal S1024x64 .bf16) (k : Vec Ideal S1x1024x64 .f32) (s k' : Fin 1024) :
    scoresOf k1_pay2 q k (ix2 s k')
      = if k'.val ≤ s.val then (∑ e : Fin 64, q (ix2 s e) * k (ix3 0 k' e)) * Cert.Spec.eighth else Cert.Spec.fill := by
  unfold scoresOf
  refine (select_apply _ _ _ _).trans ?_
  refine (select_mask s k' _ _).trans ?_
  have e1 : (mulf (matmul dot_S1024x64_S1024x64_S1024x1024_1_1_0_0_n_n none q
        (truncf .bf16 (shapeCast S1024x64 k shapeCasts_S1x1024x64_S1024x64) bitsLt_bf16_f32)
        (constant S1024x1024 .f32 0x00000000#32))
      (broadcast S1024x1024 (Scalar.ofBits (F := Ideal) .f32 0x3E000000#32))) (ix2 s k')
      = (∑ e : Fin 64, q (ix2 s e) * k (ix3 0 k' e)) * Cert.Spec.eighth := by
    refine (mulf_apply _ _ _).trans ?_
    refine congrArg₂ (· * ·) ?_ rfl
    refine (Cert.Lib.RowDot.matmul_zero_apply dot_S1024x64_S1024x64_S1024x1024_1_1_0_0_n_n_wf none _ _ s k').trans ?_
    exact Finset.sum_congr rfl fun e _ => congrArg (q (ix2 s e) * ·) (block_apply k k' e)
  rw [e1]
  rfl

/-- The shifted exponentials at (r, c). -/
theorem shifted_apply (a : FVec Ideal S1024x1024 .f32) (r c : Fin 1024) :
    shifted a (ix2 r c) = Ideal.exp (a (ix2 r c) - Cert.Spec.rowMax fun k => a (ix2 r k)) := by
  show Ideal.exp (a (ix2 r c) - broadcastTo S1024x1024 (shapeCast S1024x1
    (multiReduction (F := Ideal) .maximumf [1] S1024 a 0xFF800000#32 reduces_S1024x1024_S1024 (.inl rfl) rfl)
    shapeCasts_S1024_S1024x1) broadcasts_S1024x1_S1024x1024 (ix2 r c)) = _
  rw [keep_apply, rowMax_apply]

/-- The probabilities at (r, c): the softmax of row r at c. -/
theorem probs_apply (a : FVec Ideal S1024x1024 .f32) (r c : Fin 1024) :
    probs a (ix2 r c) = Cert.Spec.softmax (fun k => a (ix2 r k)) c := by
  show Ideal.div (shifted a (ix2 r c)) (broadcastTo S1024x1024 (shapeCast S1024x1
    (multiReduction (F := Ideal) .add [1] S1024 (shifted a) 0x00000000#32 reduces_S1024x1024_S1024 (.inl rfl) rfl)
    shapeCasts_S1024_S1024x1) broadcasts_S1024x1_S1024x1024 (ix2 r c)) = _
  rw [keep_apply, rowSum_apply, shifted_apply]
  unfold Cert.Spec.softmax
  exact congrArg (Ideal.div _) (Finset.sum_congr rfl fun k _ => shifted_apply a r k)

/-- The head's output at (s, d): the probabilities of row s against column d of the value block. -/
theorem attnOf_apply (a : FVec Ideal S1024x1024 .f32) (vv : FVec Ideal S1024x64 .bf16) (s : Fin 1024) (d : Fin 64) :
    attnOf a vv (ix2 s d) = ∑ k : Fin 1024, Cert.Spec.softmax (fun k' => a (ix2 s k')) k * vv (ix2 k d) := by
  unfold attnOf
  refine (Cert.Lib.PlainDot.matmul_zero_apply dot_S1024x1024_S1024x64_S1024x64_1_0_0_1_n_n_wf none _ _ s d).trans ?_
  exact Finset.sum_congr rfl fun k _ => congrArg (· * vv (ix2 k d)) ((truncf_apply (ψ := .bf16) (probs a) bitsLt_bf16_f32 (ix2 s k)).trans (probs_apply a s k))

/-- The first head's stored block is the chain at the blocks loaded at lane 0. -/
theorem pay3_eq (v3 v6 v9 : Vec Ideal S1x1024x64 .f32) :
    k1_pay3 (F := Ideal) v3 v6 v9 = shapeCast S1x1024x64
      (attnOf (scoresOf k1_pay2 (truncf .bf16 (shapeCast S1024x64 v3 shapeCasts_S1x1024x64_S1024x64) bitsLt_bf16_f32) v6)
        (truncf .bf16 (shapeCast S1024x64 v9 shapeCasts_S1x1024x64_S1024x64) bitsLt_bf16_f32))
      shapeCasts_S1024x64_S1x1024x64 := rfl

/-- The second head's stored block is the chain at the mask, the narrowed query block and the blocks loaded at lane 64. -/
theorem pay1_eq (v2 : IVec S1024x1024 1) (v33 : FVec Ideal S1024x64 .bf16) (v34 v37 : Vec Ideal S1x1024x64 .f32) :
    k1_pay1 (F := Ideal) v2 v33 v34 v37 = shapeCast S1x1024x64
      (attnOf (scoresOf v2 v33 v34)
        (truncf .bf16 (shapeCast S1024x64 v37 shapeCasts_S1x1024x64_S1024x64) bitsLt_bf16_f32))
      shapeCasts_S1024x64_S1x1024x64 := rfl

end Cert.KernelIdeal.PayValue

end
-- ==== Proof.KI.PayAttn.lean ====
/- The attention body's two stored blocks read at an index.

   The body handles the two 64-wide heads of a 128-lane column block one after the other. For each head it stores, at
   (0, s, d), the attention of query row s over the key rows: the softmax, along the key rows k ≤ s, of the scaled inner
   products of the query row with the key rows (the fill value for k > s), weighting column d of the value rows. -/
import proofs.«103352_j54271206752754_2_alg».proof.Proof.KI.AttnChain

noncomputable section

namespace Cert.KernelIdeal.PayValue

open Cert.KernelIdeal Cert.KernelIdeal.Gen Idealize.ShloMosaic Idealize.ShloMosaic.ValueIdx
open scoped BigOperators

/-- one head's attention of q, k, v blocks [1,1024,64] -/
def headAttn (q k v : (⟨3, ![1, 1024, 64]⟩ : Shape).Idx → EReal) (s : Fin 1024) (d : Fin 64) : EReal :=
  ∑ k' : Fin 1024, Cert.Spec.softmax (fun k'' => if k''.val ≤ s.val then (∑ e : Fin 64, q (ix3 0 s e) * k (ix3 0 k'' e)) * Cert.Spec.eighth else Cert.Spec.fill) k' * v (ix3 0 k' d)

/-- The chain at a narrowed query block [1, 1024, 64] and key and value blocks, stored with a leading unit axis, read at
    (0, s, d). -/
theorem chain_apply (vq vk vv : Vec Ideal S1x1024x64 .f32) (s : Fin 1024) (d : Fin 64) :
    shapeCast S1x1024x64
      (attnOf (scoresOf k1_pay2 (truncf .bf16 (shapeCast S1024x64 vq shapeCasts_S1x1024x64_S1024x64) bitsLt_bf16_f32) vk)
        (truncf .bf16 (shapeCast S1024x64 vv shapeCasts_S1x1024x64_S1024x64) bitsLt_bf16_f32))
      shapeCasts_S1024x64_S1x1024x64 (ix3 0 s d) = headAttn vq vk vv s d := by
  refine (Cert.Lib.UnitAxis.add_apply _ shapeCasts_S1024x64_S1x1024x64 0 s d).trans ?_
  refine (attnOf_apply _ _ s d).trans ?_
  unfold headAttn
  have hrow : (fun k' => scoresOf k1_pay2
        (truncf .bf16 (shapeCast S1024x64 vq shapeCasts_S1x1024x64_S1024x64) bitsLt_bf16_f32) vk (ix2 s k'))
      = fun k'' : Fin 1024 => if k''.val ≤ s.val then (∑ e : Fin 64, vq (ix3 0 s e) * vk (ix3 0 k'' e)) * Cert.Spec.eighth
          else Cert.Spec.fill :=
    funext fun k'' => (scoresOf_apply _ vk s k'').trans (by
      have e : (∑ e : Fin 64, (truncf .bf16 (shapeCast S1024x64 vq shapeCasts_S1x1024x64_S1024x64) bitsLt_bf16_f32
            : FVec Ideal S1024x64 .bf16) (ix2 s e) * vk (ix3 0 k'' e))
          = ∑ e : Fin 64, vq (ix3 0 s e) * vk (ix3 0 k'' e) :=
        Finset.sum_congr rfl fun e _ => congrArg (· * vk (ix3 0 k'' e)) (block_apply vq s e)
      rw [e])
  rw [hrow]
  exact Finset.sum_congr rfl fun k' _ => congrArg (_ * ·) (block_apply vv k' d)

/-- The first head's stored block at (0, s, d). -/
theorem pay3_apply (v3 v6 v9 : Vec Ideal S1x1024x64 .f32) (s : Fin 1024) (d : Fin 64) :
    k1_pay3 (F := Ideal) v3 v6 v9 (ix3 0 s d) = headAttn v3 v6 v9 s d := by
  rw [pay3_eq]
  exact chain_apply v3 v6 v9 s d

/-- The second head's stored block at (0, s, d). -/
theorem pay1_apply (v31 v34 v37 : Vec Ideal S1x1024x64 .f32) (s : Fin 1024) (d : Fin 64) :
    k1_pay1 (F := Ideal) k1_pay2 (k1_pay4 v31) v34 v37 (ix3 0 s d) = headAttn v31 v34 v37 s d := by
  rw [pay1_eq]
  exact chain_apply v31 v34 v37 s d

end Cert.KernelIdeal.PayValue

end
-- ==== Proof.KI.Final1.lean ====
/- The attention region, from blocks to the array. Grid point (b, p) of the 4 × 8 grid reads three [1,1024,128] blocks of
   the one [4,1024,3072] array — batch b, all rows, the 128 columns from 128p of the query, key and value column sections —
   and writes back one [1,1024,128] block of the [4,1024,1024] output at block index (b, 0, p). Lane l of a block is
   column 128p + l = 64h + d with h = 2p for l < 64 (d = l) and h = 2p + 1 for l ≥ 64 (d = l − 64): the block's two
   64-lane halves are heads 2p and 2p + 1. So what a point writes back is its block of the specification's attention
   function of the array, and since the 32 blocks fill the output, the output array ends as that function. -/
import proofs.«103352_j54271206752754_2_alg».proof.Proof.KI.Body1
import proofs.«103352_j54271206752754_2_alg».proof.Proof.KI.PayAttn
import proofs.«103352_j54271206752754_2_alg».proof.Proof.Spec
import Idealize.ShloMosaic.Lib.Pipeline.Value
import Idealize.ShloMosaic.Lib.ValueIdx

set_option maxRecDepth 16384

noncomputable section

namespace Cert.KernelIdeal.BlockValue

open Cert.KernelIdeal Cert.KernelIdeal.Gen Cert.KernelIdeal.Hand Idealize.ShloMosaic Idealize.ShloMosaic.ValueIdx
open Cert.KernelIdeal.PayValue (headAttn)
open Idealize.ShloMosaic.TcCoe
open Idealize.ShloMosaic.Pipeline (Dat)
open scoped BigOperators

/-- The printed index maps, decided over the 32 grid points. -/
theorem idx_facts1 : ∀ t : Fin cfg1.N,
    win1_0.index t (0 : Fin 3) = win1_3.index t (0 : Fin 3)
    ∧ win1_0.index t (1 : Fin 3) = 0
    ∧ win1_0.index t (2 : Fin 3) = win1_3.index t (2 : Fin 3)
    ∧ win1_1.index t (0 : Fin 3) = win1_3.index t (0 : Fin 3)
    ∧ win1_1.index t (1 : Fin 3) = 0
    ∧ win1_1.index t (2 : Fin 3) = win1_3.index t (2 : Fin 3) + 8
    ∧ win1_2.index t (0 : Fin 3) = win1_3.index t (0 : Fin 3)
    ∧ win1_2.index t (1 : Fin 3) = 0
    ∧ win1_2.index t (2 : Fin 3) = win1_3.index t (2 : Fin 3) + 16
    ∧ win1_3.index t (0 : Fin 3) < 4
    ∧ win1_3.index t (1 : Fin 3) = 0
    ∧ win1_3.index t (2 : Fin 3) < 8 :=
  (by decide +kernel : ∀ t : Fin grid1.N, _)

/-- Every block of the output array is some point's. -/
theorem idx_onto1 : ∀ (q0 : Fin 4) (q2 : Fin 8), ∃ t : Fin cfg1.N, win1_3.index t = ![q0.val, 0, q2.val] :=
  (by decide +kernel : ∀ (q0 : Fin 4) (q2 : Fin 8), ∃ t : Fin grid1.N, win1_3.index t = ![q0.val, 0, q2.val])

/-- A lane below 64 is outside the high half. -/
theorem not_mem_hi (s : Fin 1024) (l : Fin 128) (hl : l.val < 64) : (ix3 0 s l : S1x1024x128.Idx) ∉ r1_hi.set := by
  rw [Rect.mem_set_unit]
  intro h
  have h2 : (64 : Nat) ≤ l.val := (h 2).1
  omega

/-- A lane below 64 sits in the low half at its own coordinates. -/
theorem eq_emb_lo (s : Fin 1024) (l : Fin 128) (hl : l.val < 64) :
    (ix3 0 s l : S1x1024x128.Idx) = r1_lo.emb (ix3 0 s ⟨l.val, hl⟩ : S1x1024x64.Idx) := by
  funext a; apply Fin.ext
  match a with
  | ⟨0, _⟩ => rfl
  | ⟨1, _⟩ => show s.val = 0 + 1 * s.val; omega
  | ⟨2, _⟩ => show l.val = 0 + 1 * l.val; omega

/-- A lane from 64 up sits in the high half 64 lanes down. -/
theorem eq_emb_hi (s : Fin 1024) (l : Fin 128) (hl : 64 ≤ l.val) :
    (ix3 0 s l : S1x1024x128.Idx) = r1_hi.emb (ix3 0 s ⟨l.val - 64, by omega⟩ : S1x1024x64.Idx) := by
  funext a; apply Fin.ext
  match a with
  | ⟨0, _⟩ => rfl
  | ⟨1, _⟩ => show s.val = 0 + 1 * s.val; omega
  | ⟨2, _⟩ => show l.val = 64 + 1 * (l.val - 64); omega

/-- The output block at a lane of its low half: the low piece's payload. -/
theorem out1_3_lo (hpay3 : ∀ (v3 v6 v9 : Vec Ideal S1x1024x64 .f32) (s : Fin 1024) (d : Fin 64), k1_pay3 (F := Ideal) v3 v6 v9 (ix3 0 s d) = headAttn v3 v6 v9 s d)
    (x0 x1 x2 : Vec Ideal S1x1024x128 .f32) (s : Fin 1024) (l : Fin 128) (hl : l.val < 64) :
    out1_3 x0 x1 x2 (ix3 0 s l) = headAttn (View.ld x0 r1_lo) (View.ld x1 r1_lo) (View.ld x2 r1_lo) s ⟨l.val, hl⟩ := by
  unfold out1_3
  refine (View.canon_cons_of_not_mem _ _ ?_).trans ?_
  · exact not_mem_hi s l hl
  rw [eq_emb_lo s l hl, View.canon_cons_emb]
  exact hpay3 _ _ _ s ⟨l.val, hl⟩

/-- The output block at a lane of its high half: the high piece's payload, 64 lanes down. -/
theorem out1_3_hi (hpay1 : ∀ (v31 v34 v37 : Vec Ideal S1x1024x64 .f32) (s : Fin 1024) (d : Fin 64), k1_pay1 (F := Ideal) k1_pay2 (k1_pay4 v31) v34 v37 (ix3 0 s d) = headAttn v31 v34 v37 s d)
    (x0 x1 x2 : Vec Ideal S1x1024x128 .f32) (s : Fin 1024) (l : Fin 128) (hl : 64 ≤ l.val) :
    out1_3 x0 x1 x2 (ix3 0 s l) = headAttn (View.ld x0 r1_hi) (View.ld x1 r1_hi) (View.ld x2 r1_hi) s ⟨l.val - 64, by omega⟩ := by
  unfold out1_3
  rw [eq_emb_hi s l hl, View.canon_cons_emb]
  exact hpay1 _ _ _ s ⟨l.val - 64, by omega⟩

/-- One head's attention of three [1,1024,64] blocks that are the head's query, key and value columns of batch `b` of the
    [4,1024,3072] array is the specification's attention at that batch and head. -/
theorem headAttn_eq_attn (qkv : Cert.Spec.Arr3 4 1024 3072) (q k v : S1x1024x64.Idx → EReal) (b : Fin 4) (h : Fin 16)
    (hq : ∀ (s : Fin 1024) (d : Fin 64), q (ix3 0 s d) = qkv (ix3 b s (Cert.Spec.col 0 h d)))
    (hk : ∀ (s : Fin 1024) (d : Fin 64), k (ix3 0 s d) = qkv (ix3 b s (Cert.Spec.col 1 h d)))
    (hv : ∀ (s : Fin 1024) (d : Fin 64), v (ix3 0 s d) = qkv (ix3 b s (Cert.Spec.col 2 h d)))
    (s : Fin 1024) (d : Fin 64) : headAttn q k v s d = Cert.Spec.attn qkv b s h d := by
  unfold headAttn Cert.Spec.attn
  refine Finset.sum_congr rfl fun k' _ => ?_
  rw [hv]
  congr 2
  funext k''
  unfold Cert.Spec.score
  refine if_congr Iff.rfl ?_ rfl
  congr 1
  refine Finset.sum_congr rfl fun e _ => ?_
  rw [hq, hk]

/-- The specification's attention array at an index whose coordinates are batch `b`, row `s` and column `64h + d`. -/
theorem attnA_apply (qkv : Cert.Spec.Arr3 4 1024 3072) (i : S4x1024x1024.Idx) (b : Fin 4) (s : Fin 1024) (h : Fin 16) (d : Fin 64)
    (h0 : (i 0).val = b.val) (h1 : (i 1).val = s.val) (h2 : (i 2).val = 64 * h.val + d.val) :
    Cert.Spec.attnA qkv i = Cert.Spec.attn qkv b s h d := by
  unfold Cert.Spec.attnA
  have e0 : (i 0 : Fin 4) = b := Fin.ext h0
  have e1 : (i 1 : Fin 1024) = s := Fin.ext h1
  have hd : d.val < 64 := d.isLt
  have e2 : (⟨(i 2).val / 64, by have h : (i 2).val < 1024 := (i 2).isLt; omega⟩ : Fin 16) = h := Fin.ext (by show (i 2).val / 64 = h.val; omega)
  have e3 : (⟨(i 2).val % 64, Nat.mod_lt _ (by decide)⟩ : Fin 64) = d := Fin.ext (by show (i 2).val % 64 = d.val; omega)
  rw [e0, e1, e2, e3]

/-- Input window 0's block at point `t`, read at `y`, is the [4,1024,3072] array at block index × block size + `y`. -/
theorem iblk1_0_apply (V : (c : Dev nD) → (b : Ref sig .tc) → Buf (Elt Ideal) ((c : Thread nD τ).loc b)) (c : Dev nD) (t : Fin cfg1.N) (y : S1x1024x128.Idx) (k : S4x1024x3072.Idx)
    (hk0 : (k 0).val = win1_0.index t (0 : Fin 3) * 1 + (y 0).val)
    (hk1 : (k 1).val = win1_0.index t (1 : Fin 3) * 1024 + (y 1).val)
    (hk2 : (k 2).val = win1_0.index t (2 : Fin 3) * 128 + (y 2).val) :
    (iblk1 V c 0 t : Vec Ideal S1x1024x128 .f32) y = (V c main_v5 : S4x1024x3072.Idx → EReal) k := by
  show V c main_v5 (((cfg1.win 0).blk t).view.emb y) = V c main_v5 k
  congr 1
  funext a
  apply Fin.ext
  match a with
  | ⟨0, _⟩ => show win1_0.index t (0 : Fin 3) * 1 + 1 * (y 0).val = (k 0).val; omega
  | ⟨1, _⟩ => show win1_0.index t (1 : Fin 3) * 1024 + 1 * (y 1).val = (k 1).val; omega
  | ⟨2, _⟩ => show win1_0.index t (2 : Fin 3) * 128 + 1 * (y 2).val = (k 2).val; omega

/-- Input window 1's block at point `t`, read at `y`, is the [4,1024,3072] array at block index × block size + `y`. -/
theorem iblk1_1_apply (V : (c : Dev nD) → (b : Ref sig .tc) → Buf (Elt Ideal) ((c : Thread nD τ).loc b)) (c : Dev nD) (t : Fin cfg1.N) (y : S1x1024x128.Idx) (k : S4x1024x3072.Idx)
    (hk0 : (k 0).val = win1_1.index t (0 : Fin 3) * 1 + (y 0).val)
    (hk1 : (k 1).val = win1_1.index t (1 : Fin 3) * 1024 + (y 1).val)
    (hk2 : (k 2).val = win1_1.index t (2 : Fin 3) * 128 + (y 2).val) :
    (iblk1 V c 1 t : Vec Ideal S1x1024x128 .f32) y = (V c main_v5 : S4x1024x3072.Idx → EReal) k := by
  show V c main_v5 (((cfg1.win 1).blk t).view.emb y) = V c main_v5 k
  congr 1
  funext a
  apply Fin.ext
  match a with
  | ⟨0, _⟩ => show win1_1.index t (0 : Fin 3) * 1 + 1 * (y 0).val = (k 0).val; omega
  | ⟨1, _⟩ => show win1_1.index t (1 : Fin 3) * 1024 + 1 * (y 1).val = (k 1).val; omega
  | ⟨2, _⟩ => show win1_1.index t (2 : Fin 3) * 128 + 1 * (y 2).val = (k 2).val; omega

/-- Input window 2's block at point `t`, read at `y`, is the [4,1024,3072] array at block index × block size + `y`. -/
theorem iblk1_2_apply (V : (c : Dev nD) → (b : Ref sig .tc) → Buf (Elt Ideal) ((c : Thread nD τ).loc b)) (c : Dev nD) (t : Fin cfg1.N) (y : S1x1024x128.Idx) (k : S4x1024x3072.Idx)
    (hk0 : (k 0).val = win1_2.index t (0 : Fin 3) * 1 + (y 0).val)
    (hk1 : (k 1).val = win1_2.index t (1 : Fin 3) * 1024 + (y 1).val)
    (hk2 : (k 2).val = win1_2.index t (2 : Fin 3) * 128 + (y 2).val) :
    (iblk1 V c 2 t : Vec Ideal S1x1024x128 .f32) y = (V c main_v5 : S4x1024x3072.Idx → EReal) k := by
  show V c main_v5 (((cfg1.win 2).blk t).view.emb y) = V c main_v5 k
  congr 1
  funext a
  apply Fin.ext
  match a with
  | ⟨0, _⟩ => show win1_2.index t (0 : Fin 3) * 1 + 1 * (y 0).val = (k 0).val; omega
  | ⟨1, _⟩ => show win1_2.index t (1 : Fin 3) * 1024 + 1 * (y 1).val = (k 1).val; omega
  | ⟨2, _⟩ => show win1_2.index t (2 : Fin 3) * 128 + 1 * (y 2).val = (k 2).val; omega

/-- What point `t` writes back is block `t` of the specification's attention of the [4,1024,3072] array as the region
    finds it: the low half of the block is head 2p of batch b, the high half head 2p + 1, at the point's block index (b, 0, p). -/
theorem flushed1_eq (hpay3 : ∀ (v3 v6 v9 : Vec Ideal S1x1024x64 .f32) (s : Fin 1024) (d : Fin 64), k1_pay3 (F := Ideal) v3 v6 v9 (ix3 0 s d) = headAttn v3 v6 v9 s d)
    (hpay1 : ∀ (v31 v34 v37 : Vec Ideal S1x1024x64 .f32) (s : Fin 1024) (d : Fin 64), k1_pay1 (F := Ideal) k1_pay2 (k1_pay4 v31) v34 v37 (ix3 0 s d) = headAttn v31 v34 v37 s d)
    (V : (c : Dev nD) → (b : Ref sig .tc) → Buf (Elt Ideal) ((c : Thread nD τ).loc b)) (c : Dev nD) (t : Fin cfg1.N) :
    (dat1 V c).flushed 3 t = ((cfg1.win 3).blk t).view.read (Elt Ideal) (Cert.Spec.attnA (V c main_v5)) := by
  show (cfg1.win 3).cut (grid1.coords t) ((dat1 V c).after 3 t) = _
  rw [after1_3]
  obtain ⟨e00, e01, e02, e10, e11, e12, e20, e21, e22, b0, e31, b2⟩ := idx_facts1 t
  refine funext fun (j : S1x1024x128.Idx) => ?_
  obtain ⟨u, s, l, rfl⟩ : ∃ (u : Fin 1) (s : Fin 1024) (l : Fin 128), j = ix3 u s l := ⟨j 0, j 1, j 2, eq_ix3 j⟩
  obtain rfl : u = 0 := Subsingleton.elim _ _
  show out1_3 (iblk1 V c 0 t) (iblk1 V c 1 t) (iblk1 V c 2 t) (ix3 0 s l)
    = Cert.Spec.attnA (V c main_v5) (((cfg1.win 3).blk t).view.emb (ix3 0 s l : S1x1024x128.Idx))
  by_cases hl : l.val < 64
  ·
    refine (out1_3_lo hpay3 _ _ _ s l hl).trans ?_
    refine (headAttn_eq_attn (V c main_v5) _ _ _ ⟨win1_3.index t (0 : Fin 3), b0⟩ ⟨2 * win1_3.index t (2 : Fin 3), by omega⟩ ?_ ?_ ?_ s ⟨l.val, hl⟩).trans
      (attnA_apply (V c main_v5) _ _ _ _ _ ?_ ?_ ?_).symm
    · intro s' d
      refine iblk1_0_apply V c t (r1_lo.idx (ix3 0 s' d : S1x1024x64.Idx)) _ ?_ ?_ ?_
      · show win1_3.index t (0 : Fin 3) = win1_0.index t (0 : Fin 3) * 1 + (0 + 1 * 0); omega
      · show s'.val = win1_0.index t (1 : Fin 3) * 1024 + (0 + 1 * s'.val); omega
      · show 0 * 1024 + 64 * (2 * win1_3.index t (2 : Fin 3)) + d.val = win1_0.index t (2 : Fin 3) * 128 + (0 + 1 * d.val); omega
    · intro s' d
      refine iblk1_1_apply V c t (r1_lo.idx (ix3 0 s' d : S1x1024x64.Idx)) _ ?_ ?_ ?_
      · show win1_3.index t (0 : Fin 3) = win1_1.index t (0 : Fin 3) * 1 + (0 + 1 * 0); omega
      · show s'.val = win1_1.index t (1 : Fin 3) * 1024 + (0 + 1 * s'.val); omega
      · show 1 * 1024 + 64 * (2 * win1_3.index t (2 : Fin 3)) + d.val = win1_1.index t (2 : Fin 3) * 128 + (0 + 1 * d.val); omega
    · intro s' d
      refine iblk1_2_apply V c t (r1_lo.idx (ix3 0 s' d : S1x1024x64.Idx)) _ ?_ ?_ ?_
      · show win1_3.index t (0 : Fin 3) = win1_2.index t (0 : Fin 3) * 1 + (0 + 1 * 0); omega
      · show s'.val = win1_2.index t (1 : Fin 3) * 1024 + (0 + 1 * s'.val); omega
      · show 2 * 1024 + 64 * (2 * win1_3.index t (2 : Fin 3)) + d.val = win1_2.index t (2 : Fin 3) * 128 + (0 + 1 * d.val); omega
    · show win1_3.index t (0 : Fin 3) * 1 + 1 * 0 = win1_3.index t (0 : Fin 3); omega
    · show win1_3.index t (1 : Fin 3) * 1024 + 1 * s.val = s.val; omega
    · show win1_3.index t (2 : Fin 3) * 128 + 1 * l.val = 64 * (2 * win1_3.index t (2 : Fin 3)) + l.val; omega
  ·
    refine (out1_3_hi hpay1 _ _ _ s l (by omega)).trans ?_
    refine (headAttn_eq_attn (V c main_v5) _ _ _ ⟨win1_3.index t (0 : Fin 3), b0⟩ ⟨2 * win1_3.index t (2 : Fin 3) + 1, by omega⟩ ?_ ?_ ?_ s ⟨l.val - 64, by omega⟩).trans
      (attnA_apply (V c main_v5) _ _ _ _ _ ?_ ?_ ?_).symm
    · intro s' d
      refine iblk1_0_apply V c t (r1_hi.idx (ix3 0 s' d : S1x1024x64.Idx)) _ ?_ ?_ ?_
      · show win1_3.index t (0 : Fin 3) = win1_0.index t (0 : Fin 3) * 1 + (0 + 1 * 0); omega
      · show s'.val = win1_0.index t (1 : Fin 3) * 1024 + (0 + 1 * s'.val); omega
      · show 0 * 1024 + 64 * (2 * win1_3.index t (2 : Fin 3) + 1) + d.val = win1_0.index t (2 : Fin 3) * 128 + (64 + 1 * d.val); omega
    · intro s' d
      refine iblk1_1_apply V c t (r1_hi.idx (ix3 0 s' d : S1x1024x64.Idx)) _ ?_ ?_ ?_
      · show win1_3.index t (0 : Fin 3) = win1_1.index t (0 : Fin 3) * 1 + (0 + 1 * 0); omega
      · show s'.val = win1_1.index t (1 : Fin 3) * 1024 + (0 + 1 * s'.val); omega
      · show 1 * 1024 + 64 * (2 * win1_3.index t (2 : Fin 3) + 1) + d.val = win1_1.index t (2 : Fin 3) * 128 + (64 + 1 * d.val); omega
    · intro s' d
      refine iblk1_2_apply V c t (r1_hi.idx (ix3 0 s' d : S1x1024x64.Idx)) _ ?_ ?_ ?_
      · show win1_3.index t (0 : Fin 3) = win1_2.index t (0 : Fin 3) * 1 + (0 + 1 * 0); omega
      · show s'.val = win1_2.index t (1 : Fin 3) * 1024 + (0 + 1 * s'.val); omega
      · show 2 * 1024 + 64 * (2 * win1_3.index t (2 : Fin 3) + 1) + d.val = win1_2.index t (2 : Fin 3) * 128 + (64 + 1 * d.val); omega
    · show win1_3.index t (0 : Fin 3) * 1 + 1 * 0 = win1_3.index t (0 : Fin 3); omega
    · show win1_3.index t (1 : Fin 3) * 1024 + 1 * s.val = s.val; omega
    · show win1_3.index t (2 : Fin 3) * 128 + 1 * l.val = 64 * (2 * win1_3.index t (2 : Fin 3) + 1) + (l.val - 64); omega

/-- An index of the output array is in point `t`'s block iff each coordinate is in the block's range on its axis. -/
theorem mem_blk1 (t : Fin cfg1.N) (i : S4x1024x1024.Idx) :
    i ∈ ((cfg1.win 3).blk t).view.set ↔ ∀ a : Fin 3, win1_3.index t a * S1x1024x128.size a ≤ (i a).val ∧ (i a).val < win1_3.index t a * S1x1024x128.size a + S1x1024x128.size a := by
  show i ∈ ((View.whole main_v16).slice (win1_3.rect t)).set ↔ _
  rw [View.set_slice_whole, Rect.mem_set_unit]
  exact Iff.rfl

/-- Every index of the output array is in the block of the point with block index (batch, 0, column / 128). -/
theorem cover1 (i : S4x1024x1024.Idx) :
    ∃ t : Fin cfg1.N, (cfg1.win 3).flush t = true ∧ i ∈ ((cfg1.win 3).blk t).view.set := by
  have hi0 : (i 0).val < 4 := (i 0).isLt
  have hi1 : (i 1).val < 1024 := (i 1).isLt
  have hi2 : (i 2).val < 1024 := (i 2).isLt
  obtain ⟨t, ht⟩ := idx_onto1 ⟨(i 0).val, hi0⟩ ⟨(i 2).val / 128, by omega⟩
  have q0 : win1_3.index t (0 : Fin 3) = (i 0).val := congrFun ht 0
  have q1 : win1_3.index t (1 : Fin 3) = 0 := congrFun ht 1
  have q2 : win1_3.index t (2 : Fin 3) = (i 2).val / 128 := congrFun ht 2
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 128 ≤ (i 2).val ∧ (i 2).val < win1_3.index t (2 : Fin 3) * 128 + 128; omega

/-- The attention region's output array, after every grid point's write-back, is the specification's attention of the
    [4,1024,3072] array the region's three input windows read: the 4 × 8 blocks of [1,1024,128] fill it. -/
theorem final1_of (hpay3 : ∀ (v3 v6 v9 : Vec Ideal S1x1024x64 .f32) (s : Fin 1024) (d : Fin 64), k1_pay3 (F := Ideal) v3 v6 v9 (ix3 0 s d) = headAttn v3 v6 v9 s d)
    (hpay1 : ∀ (v31 v34 v37 : Vec Ideal S1x1024x64 .f32) (s : Fin 1024) (d : Fin 64), k1_pay1 (F := Ideal) k1_pay2 (k1_pay4 v31) v34 v37 (ix3 0 s d) = headAttn v31 v34 v37 s d)
    (V : (c : Dev nD) → (b : Ref sig .tc) → Buf (Elt Ideal) ((c : Thread nD τ).loc b)) (c : Dev nD) :
    (dat1 V c).arrAt 3 cfg1.N = Cert.Spec.attnA (V c main_v5) :=
  (dat1 V c).arrAt_eq_of_cover 3 (Cert.Spec.attnA (V c main_v5)) (fun t _ => flushed1_eq hpay3 hpay1 V c t) cover1

/-- The same with the body's two payloads read at an index. -/
theorem final1 (V : (c : Dev nD) → (b : Ref sig .tc) → Buf (Elt Ideal) ((c : Thread nD τ).loc b)) (c : Dev nD) :
    (dat1 V c).arrAt 3 cfg1.N = Cert.Spec.attnA (V c main_v5) :=
  final1_of Cert.KernelIdeal.PayValue.pay3_apply Cert.KernelIdeal.PayValue.pay1_apply V c

end Cert.KernelIdeal.BlockValue

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.KI.PayLinear.lean ====
/- The two projections' bodies read at an index.

   Each body multiplies a block of rows [512, n] by the whole weight [n, m] into a zero accumulator and adds the bias
   row [1, m] copied down the rows. At the exact values, entry (r, j) of what it stores is
   Σ_k block(r, k) · weight(k, j) + bias(0, j). -/
import proofs.«103352_j54271206752754_2_alg».proof.Proof.Gen.KernelIdeal.Skeleton
import proofs.«103352_j54271206752754_2_alg».proof.Proof.LibPlainDot
import proofs.«103352_j54271206752754_2_alg».proof.Proof.LibRowBroadcasts

noncomputable section

namespace Cert.KernelIdeal.PayValue

open Cert.KernelIdeal Cert.KernelIdeal.Gen Idealize.ShloMosaic Idealize.ShloMosaic.ValueIdx
open scoped BigOperators

/-- The first projection's stored block at (r, j). -/
theorem pay0_apply (v0 : Vec Ideal S512x1024 .bf16) (v2 : Vec Ideal S1024x3072 .bf16) (v5 : Vec Ideal S1x3072 .f32)
    (r : Fin 512) (j : Fin 3072) :
    k0_pay1 (F := Ideal) v0 v2 v5 (ix2 r j) = (∑ n : Fin 1024, v0 (ix2 r n) * v2 (ix2 n j)) + v5 (ix2 0 j) := by
  unfold k0_pay1
  refine (addf_apply _ _ _).trans ?_
  refine congrArg₂ (· + ·) ?_ ?_
  · refine (Cert.Lib.PlainDot.matmul_zero_apply dot_S512x1024_S1024x3072_S512x3072_1_0_0_1_n_n_wf none _ _ r j).trans ?_
    refine Finset.sum_congr rfl fun n _ => ?_
    rw [shapeCast_self, shapeCast_self]
  · refine (Cert.Lib.Rows.bcastRow_apply _ broadcasts_S1x3072_S512x3072 r j).trans ?_
    rw [shapeCast_self]

/-- The second projection's stored block at (r, j). -/
theorem pay2_apply (v0 : Vec Ideal S512x1024 .bf16) (v2 : Vec Ideal S1024x1024 .bf16) (v5 : Vec Ideal S1x1024 .f32)
    (r : Fin 512) (j : Fin 1024) :
    k2_pay1 (F := Ideal) v0 v2 v5 (ix2 r j) = (∑ n : Fin 1024, v0 (ix2 r n) * v2 (ix2 n j)) + v5 (ix2 0 j) := by
  unfold k2_pay1
  refine (addf_apply _ _ _).trans ?_
  refine congrArg₂ (· + ·) ?_ ?_
  · refine (Cert.Lib.PlainDot.matmul_zero_apply dot_S512x1024_S1024x1024_S512x1024_1_0_0_1_n_n_wf none _ _ r j).trans ?_
    refine Finset.sum_congr rfl fun n _ => ?_
    rw [shapeCast_self, shapeCast_self]
  · refine (Cert.Lib.Rows.bcastRow_apply _ broadcasts_S1x1024_S512x1024 r j).trans ?_
    rw [shapeCast_self]

end Cert.KernelIdeal.PayValue

end
-- ==== Proof.KI.Value.lean ====
/- The kernel program's run read at the specification: its two results are the specification's arrays of the arguments. -/
import proofs.«103352_j54271206752754_2_alg».proof.Proof.KI.Keep
import proofs.«103352_j54271206752754_2_alg».proof.Proof.KI.Glue
import proofs.«103352_j54271206752754_2_alg».proof.Proof.KI.Final0
import proofs.«103352_j54271206752754_2_alg».proof.Proof.KI.Final1
import proofs.«103352_j54271206752754_2_alg».proof.Proof.KI.Final2
import proofs.«103352_j54271206752754_2_alg».proof.Proof.KI.PayLinear
import proofs.«103352_j54271206752754_2_alg».proof.Proof.KI.PayAttn

noncomputable section

namespace Cert.KernelIdeal.KernelValue

open Idealize.ShloMosaic Idealize.ShloMosaic.TcCoe Idealize.SL.Sem
open Cert.KernelIdeal Cert.KernelIdeal.Gen Cert.KernelIdeal.Hand

/-- The last boundary's contents at the two results: the three regions' arrays (each one function of its input arrays, from
    the bodies' arithmetic at an index) chained through the host stretches. -/
theorem value (m : (ℓ : Loc nD τ sig) → Buf (Elt Ideal) ℓ) (ρ : Dev nD → PrngReg) (c : Dev nD) :
    B7 m ρ c (Proc.devRef .tc main_v22) = Cert.Spec.outA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ B7 m ρ c (Proc.devRef .tc main_v15) = Cert.Spec.present (m ((c.tc : Thread nD τ).loc main_arg0)) (m ((c.tc : Thread nD τ).loc main_arg1)) (m ((c.tc : Thread nD τ).loc main_arg2)) :=
  Cert.KernelIdeal.GlueValue.value_of
    (fun V c => Cert.KernelIdeal.BlockValue.final0_of Cert.KernelIdeal.PayValue.pay0_apply V c)
    (fun V c => Cert.KernelIdeal.BlockValue.final1_of Cert.KernelIdeal.PayValue.pay3_apply Cert.KernelIdeal.PayValue.pay1_apply V c)
    (fun V c => Cert.KernelIdeal.BlockValue.final2_of Cert.KernelIdeal.PayValue.pay2_apply V c) m ρ c

/-- Every weakly fair execution of the idealized kernel program terminates, nothing faulting, with the results at the
    specification's arrays of the arguments and the arguments as launched. -/
theorem run_spec (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v22) = Cert.Spec.outA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v15) = Cert.Spec.present (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v22 (by decide))).trans (value m ρ c).1,
     (h c _ (mem_uc main_v15 (by decide))).trans (value m ρ c).2,
     (h c _ (mem_uc main_arg0 (by decide))).trans (B7_main_arg0 m ρ c),
     (h c _ (mem_uc main_arg1 (by decide))).trans (B7_main_arg1 m ρ c),
     (h c _ (mem_uc main_arg2 (by decide))).trans (B7_main_arg2 m ρ c),
     (h c _ (mem_uc main_arg3 (by decide))).trans (B7_main_arg3 m ρ c),
     (h c _ (mem_uc main_arg4 (by decide))).trans (B7_main_arg4 m ρ c)⟩) (run_all m ρ)

end Cert.KernelIdeal.KernelValue

end
-- ==== Proof.Ref.Heads.lean ====
/- The three head arrays of the reference — queries, keys, values, each [4,16,1024,64] — are columns of the first projection. -/
import proofs.«103352_j54271206752754_2_alg».proof.Proof.Gen.ReferenceIdeal.Read
import proofs.«103352_j54271206752754_2_alg».proof.Proof.Spec
import Idealize.ShloMosaic.Lib.ValueIdx

noncomputable section

namespace Cert.ReferenceIdeal.RefValue

open Cert.ReferenceIdeal Cert.ReferenceIdeal.Gen Idealize.ShloMosaic Idealize.ShloMosaic.ValueIdx Cert.ReferenceIdeal.Read

/-- Head h of the queries of batch b at row s, entry d, is column 0·1024 + 64h + d of the first projection: the
    slice [0, 0+1024) of the columns, reshaped [4,1024,1024] → [4,1024,16,64] (row-major: column 64h + d is
    (h, d)) and transposed to [4,16,1024,64]. -/
theorem head_q (x0 : (⟨S4x1024x1024, .f32⟩ : BufTy).Contents (Elt Ideal)) (x1 : (⟨S1024x3072, .f32⟩ : BufTy).Contents (Elt Ideal))
    (x2 : (⟨S3072, .f32⟩ : BufTy).Contents (Elt Ideal))
    (b : Fin 4) (h : Fin 16) (s : Fin 1024) (d : Fin 64) :
    val_main_v8 (F := Ideal) x0 x1 x2 (ix4 b h s d)
      = val_main_v3 (F := Ideal) x0 x1 x2 (ix3 b s (Cert.Spec.col 0 h d)) := by
  rw [val_main_v8_apply, val_main_v7_apply, val_main_v4_apply]
  have hb := b.isLt; have hh := h.isLt; have hs := s.isLt; have hd := d.isLt
  refine congrArg _ (funext fun a => Fin.ext ?_)
  match a with
  | ⟨0, _⟩ =>
    show (((b.val * 1024 + s.val) * 16 + h.val) * 64 + d.val) / 1048576 = b.val
    omega
  | ⟨1, _⟩ =>
    show (((b.val * 1024 + s.val) * 16 + h.val) * 64 + d.val) / 1024 % 1024 = s.val
    omega
  | ⟨2, _⟩ =>
    show (((b.val * 1024 + s.val) * 16 + h.val) * 64 + d.val) % 1024 = 0 * 1024 + 64 * h.val + d.val
    omega

/-- Head h of the keys of batch b at row s, entry d, is column 1·1024 + 64h + d of the first projection: the
    slice [1024, 1024+1024) of the columns, reshaped [4,1024,1024] → [4,1024,16,64] (row-major: column 64h + d is
    (h, d)) and transposed to [4,16,1024,64]. -/
theorem head_k (x0 : (⟨S4x1024x1024, .f32⟩ : BufTy).Contents (Elt Ideal)) (x1 : (⟨S1024x3072, .f32⟩ : BufTy).Contents (Elt Ideal))
    (x2 : (⟨S3072, .f32⟩ : BufTy).Contents (Elt Ideal))
    (b : Fin 4) (h : Fin 16) (s : Fin 1024) (d : Fin 64) :
    val_main_v10 (F := Ideal) x0 x1 x2 (ix4 b h s d)
      = val_main_v3 (F := Ideal) x0 x1 x2 (ix3 b s (Cert.Spec.col 1 h d)) := by
  rw [val_main_v10_apply, val_main_v9_apply, val_main_v5_apply]
  have hb := b.isLt; have hh := h.isLt; have hs := s.isLt; have hd := d.isLt
  refine congrArg _ (funext fun a => Fin.ext ?_)
  match a with
  | ⟨0, _⟩ =>
    show (((b.val * 1024 + s.val) * 16 + h.val) * 64 + d.val) / 1048576 = b.val
    omega
  | ⟨1, _⟩ =>
    show (((b.val * 1024 + s.val) * 16 + h.val) * 64 + d.val) / 1024 % 1024 = s.val
    omega
  | ⟨2, _⟩ =>
    show 1024 + (((b.val * 1024 + s.val) * 16 + h.val) * 64 + d.val) % 1024 = 1 * 1024 + 64 * h.val + d.val
    omega

/-- Head h of the values of batch b at row s, entry d, is column 2·1024 + 64h + d of the first projection: the
    slice [2048, 2048+1024) of the columns, reshaped [4,1024,1024] → [4,1024,16,64] (row-major: column 64h + d is
    (h, d)) and transposed to [4,16,1024,64]. -/
theorem head_v (x0 : (⟨S4x1024x1024, .f32⟩ : BufTy).Contents (Elt Ideal)) (x1 : (⟨S1024x3072, .f32⟩ : BufTy).Contents (Elt Ideal))
    (x2 : (⟨S3072, .f32⟩ : BufTy).Contents (Elt Ideal))
    (b : Fin 4) (h : Fin 16) (s : Fin 1024) (d : Fin 64) :
    val_main_v12 (F := Ideal) x0 x1 x2 (ix4 b h s d)
      = val_main_v3 (F := Ideal) x0 x1 x2 (ix3 b s (Cert.Spec.col 2 h d)) := by
  rw [val_main_v12_apply, val_main_v11_apply, val_main_v6_apply]
  have hb := b.isLt; have hh := h.isLt; have hs := s.isLt; have hd := d.isLt
  refine congrArg _ (funext fun a => Fin.ext ?_)
  match a with
  | ⟨0, _⟩ =>
    show (((b.val * 1024 + s.val) * 16 + h.val) * 64 + d.val) / 1048576 = b.val
    omega
  | ⟨1, _⟩ =>
    show (((b.val * 1024 + s.val) * 16 + h.val) * 64 + d.val) / 1024 % 1024 = s.val
    omega
  | ⟨2, _⟩ =>
    show 2048 + (((b.val * 1024 + s.val) * 16 + h.val) * 64 + d.val) % 1024 = 2 * 1024 + 64 * h.val + d.val
    omega

end Cert.ReferenceIdeal.RefValue

end
-- ==== Proof.Ref.Proj.lean ====
/- The reference's two projections are the specification's: a contraction over the last axis plus the broadcast bias. -/
import proofs.«103352_j54271206752754_2_alg».proof.Proof.Gen.ReferenceIdeal.Read
import proofs.«103352_j54271206752754_2_alg».proof.Proof.Spec
import Idealize.ShloMosaic.Lib.ValueIdx

noncomputable section

namespace Cert.ReferenceIdeal.RefValue

open Cert.ReferenceIdeal Cert.ReferenceIdeal.Gen Idealize.ShloMosaic Idealize.ShloMosaic.ValueIdx Cert.ReferenceIdeal.Read

/-- The first projection: x · W₁ + b₁. -/
theorem qkv_eq (x0 : (⟨S4x1024x1024, .f32⟩ : BufTy).Contents (Elt Ideal)) (x1 : (⟨S1024x3072, .f32⟩ : BufTy).Contents (Elt Ideal))
    (x2 : (⟨S3072, .f32⟩ : BufTy).Contents (Elt Ideal)) :
    val_main_v3 (F := Ideal) x0 x1 x2 = Cert.Spec.projA x0 x1 x2 := by
  funext i
  obtain ⟨b, s, j, rfl⟩ : ∃ (b : Fin 4) (s : Fin 1024) (j : Fin 3072), i = ix3 b s j := ⟨i 0, i 1, i 2, eq_ix3 i⟩
  rw [val_main_v3_apply, val_main_v0_apply, val_main_v2_apply, val_main_v1_apply]
  show _ = (∑ n : Fin 1024, x0 (ix3 b s n) * x1 (ix2 n j)) + x2 (ix1 j)
  have el : ∀ k : Fin 1024, lidx_main_v0 (ix3 b s j) k = ix3 b s k := fun k => funext fun a => by
    match a with
    | ⟨0, _⟩ => rfl
    | ⟨1, _⟩ => rfl
    | ⟨2, _⟩ => rfl
  have er : ∀ k : Fin 1024, ridx_main_v0 (ix3 b s j) k = ix2 k j := fun k => funext fun a => by
    match a with
    | ⟨0, _⟩ => rfl
    | ⟨1, _⟩ => rfl
  have eb : idx_main_v1 (idx_main_v2 (ix3 b s j)) = ix1 j := funext fun a => by
    match a with
    | ⟨0, _⟩ => rfl
  rw [eb]
  simp only [el, er]
  rfl

/-- The second projection: the reference's first result is its merged attention array · W₂ + b₂. -/
theorem out_eq (x0 : (⟨S4x1024x1024, .f32⟩ : BufTy).Contents (Elt Ideal)) (x1 : (⟨S1024x3072, .f32⟩ : BufTy).Contents (Elt Ideal))
    (x2 : (⟨S3072, .f32⟩ : BufTy).Contents (Elt Ideal)) (x3 : (⟨S1024x1024, .f32⟩ : BufTy).Contents (Elt Ideal))
    (x4 : (⟨S1024, .f32⟩ : BufTy).Contents (Elt Ideal)) :
    val_main_v48 (F := Ideal) x0 x1 x2 x3 x4 = Cert.Spec.projA (val_main_v44 (F := Ideal) x0 x1 x2) x3 x4 := by
  funext i
  obtain ⟨b, s, j, rfl⟩ : ∃ (b : Fin 4) (s : Fin 1024) (j : Fin 1024), i = ix3 b s j := ⟨i 0, i 1, i 2, eq_ix3 i⟩
  rw [val_main_v48_apply, val_main_v45_apply, val_main_v47_apply, val_main_v46_apply]
  show _ = (∑ n : Fin 1024, val_main_v44 (F := Ideal) x0 x1 x2 (ix3 b s n) * x3 (ix2 n j)) + x4 (ix1 j)
  have el : ∀ k : Fin 1024, lidx_main_v45 (ix3 b s j) k = ix3 b s k := fun k => funext fun a => by
    match a with
    | ⟨0, _⟩ => rfl
    | ⟨1, _⟩ => rfl
    | ⟨2, _⟩ => rfl
  have er : ∀ k : Fin 1024, ridx_main_v45 (ix3 b s j) k = ix2 k j := fun k => funext fun a => by
    match a with
    | ⟨0, _⟩ => rfl
    | ⟨1, _⟩ => rfl
  have eb : idx_main_v46 (idx_main_v47 (ix3 b s j)) = ix1 j := funext fun a => by
    match a with
    | ⟨0, _⟩ => rfl
  rw [eb]
  simp only [el, er]
  rfl

end Cert.ReferenceIdeal.RefValue

end
-- ==== Proof.Ref.Present.lean ====
/- The reference's second result — keys and values per head, joined along a new leading axis — is the specification's. -/
import proofs.«103352_j54271206752754_2_alg».proof.Proof.Ref.Heads
import proofs.«103352_j54271206752754_2_alg».proof.Proof.Ref.Proj
import Idealize.ShloMosaic.Lib.Pipeline.Value

noncomputable section

namespace Cert.ReferenceIdeal.RefValue

open Cert.ReferenceIdeal Cert.ReferenceIdeal.Gen Idealize.ShloMosaic Idealize.ShloMosaic.ValueIdx Cert.ReferenceIdeal.Read

/-- Leading coordinate 0 reads the keys. -/
theorem present_k (x0 : (⟨S4x1024x1024, .f32⟩ : BufTy).Contents (Elt Ideal)) (x1 : (⟨S1024x3072, .f32⟩ : BufTy).Contents (Elt Ideal))
    (x2 : (⟨S3072, .f32⟩ : BufTy).Contents (Elt Ideal))
    (b : Fin 4) (h : Fin 16) (s : Fin 1024) (d : Fin 64) :
    val_main_v15 (F := Ideal) x0 x1 x2 (ix5 (0 : Fin 2) b h s d)
      = val_main_v3 (F := Ideal) x0 x1 x2 (ix3 b s (Cert.Spec.col 1 h d)) := by
  unfold val_main_v15
  refine (concatenate_pair_apply_left (t := S2x4x16x1024x64) (s₁ := S1x4x16x1024x64) (s₂ := S1x4x16x1024x64) (0 : Fin S2x4x16x1024x64.rank) _ _ _ (ix5 (0 : Fin 2) b h s d) rfl
    (ix5 (0 : Fin 1) b h s d) (fun a => by
      match a with
      | ⟨0, _⟩ => rfl
      | ⟨1, _⟩ => rfl
      | ⟨2, _⟩ => rfl
      | ⟨3, _⟩ => rfl
      | ⟨4, _⟩ => rfl)).trans ?_
  rw [val_main_v13_apply]
  have e : idx_main_v13 (ix5 (0 : Fin 1) b h s d) = ix4 b h s d := funext fun a => by
    match a with
    | ⟨0, _⟩ => rfl
    | ⟨1, _⟩ => rfl
    | ⟨2, _⟩ => rfl
    | ⟨3, _⟩ => rfl
  rw [e, head_k]

/-- Leading coordinate 1 reads the values. -/
theorem present_v (x0 : (⟨S4x1024x1024, .f32⟩ : BufTy).Contents (Elt Ideal)) (x1 : (⟨S1024x3072, .f32⟩ : BufTy).Contents (Elt Ideal))
    (x2 : (⟨S3072, .f32⟩ : BufTy).Contents (Elt Ideal))
    (b : Fin 4) (h : Fin 16) (s : Fin 1024) (d : Fin 64) :
    val_main_v15 (F := Ideal) x0 x1 x2 (ix5 (1 : Fin 2) b h s d)
      = val_main_v3 (F := Ideal) x0 x1 x2 (ix3 b s (Cert.Spec.col 2 h d)) := by
  unfold val_main_v15
  refine (concatenate_pair_apply_right (t := S2x4x16x1024x64) (s₁ := S1x4x16x1024x64) (s₂ := S1x4x16x1024x64) (0 : Fin S2x4x16x1024x64.rank) _ _ _ (ix5 (1 : Fin 2) b h s d) rfl rfl
    (ix5 (0 : Fin 1) b h s d) (fun a => by
      match a with
      | ⟨0, _⟩ => exact fun hne => absurd rfl hne
      | ⟨1, _⟩ => exact fun _ => rfl
      | ⟨2, _⟩ => exact fun _ => rfl
      | ⟨3, _⟩ => exact fun _ => rfl
      | ⟨4, _⟩ => exact fun _ => rfl) rfl).trans ?_
  rw [val_main_v14_apply]
  have e : idx_main_v14 (ix5 (0 : Fin 1) b h s d) = ix4 b h s d := funext fun a => by
    match a with
    | ⟨0, _⟩ => rfl
    | ⟨1, _⟩ => rfl
    | ⟨2, _⟩ => rfl
    | ⟨3, _⟩ => rfl
  rw [e, head_v]

/-- The second result is the specification's keys-and-values array of the first projection. -/
theorem present_eq (x0 : (⟨S4x1024x1024, .f32⟩ : BufTy).Contents (Elt Ideal)) (x1 : (⟨S1024x3072, .f32⟩ : BufTy).Contents (Elt Ideal))
    (x2 : (⟨S3072, .f32⟩ : BufTy).Contents (Elt Ideal)) :
    val_main_v15 (F := Ideal) x0 x1 x2 = Cert.Spec.present x0 x1 x2 := by
  funext i
  obtain ⟨t, b, h, s, d, rfl⟩ : ∃ (t : Fin 2) (b : Fin 4) (h : Fin 16) (s : Fin 1024) (d : Fin 64), i = ix5 t b h s d :=
    ⟨i 0, i 1, i 2, i 3, i 4, eq_ix5 i⟩
  unfold Cert.Spec.present
  rw [← qkv_eq]
  match t with
  | ⟨0, _⟩ =>
    refine (present_k x0 x1 x2 b h s d).trans ?_
    refine congrArg _ (congrArg _ (Fin.ext ?_))
    show 1 * 1024 + 64 * h.val + d.val = (0 + 1) * 1024 + 64 * h.val + d.val
    rfl
  | ⟨1, _⟩ =>
    refine (present_v x0 x1 x2 b h s d).trans ?_
    refine congrArg _ (congrArg _ (Fin.ext ?_))
    show 2 * 1024 + 64 * h.val + d.val = (1 + 1) * 1024 + 64 * h.val + d.val
    rfl

end Cert.ReferenceIdeal.RefValue

end
-- ==== Proof.Ref.Consts.lean ====
/- The float literals of the reference as extended reals, the lower-triangle bit, and the masking law:
   on every extended real w, the reference's  (w / 8) · m − 10¹⁰ · (1 − m)  with m = 1 (kept) or m = 0 (masked)
   is  w · ⅛  or the fill value −10¹⁰. -/
import Idealize.ShloMosaic.PureOps.Ideal
import proofs.«103352_j54271206752754_2_alg».proof.Proof.Spec

noncomputable section

namespace Cert.ReferenceIdeal.RefValue

open Idealize.ShloMosaic

/-- The word of 0.0 denotes 0. -/
theorem lit_zero : Ideal.ofBits .f32 0x00000000#32 = 0 := by
  simp [Ideal.ofBits, Ideal.ieee]

/-- The word of 1.0 denotes 1. -/
theorem lit_one : Ideal.ofBits .f32 0x3F800000#32 = 1 := by
  simp [Ideal.ofBits, Ideal.ieee, -EReal.coe_mul]; norm_num

/-- The word of 8.0 denotes the real 8. -/
theorem lit_eight : Ideal.ofBits .f32 0x41000000#32 = ((8 : ℝ) : EReal) := by
  simp [Ideal.ofBits, Ideal.ieee, -EReal.coe_mul]; norm_num

/-- The word of 0.125 denotes the real 1/8. -/
theorem lit_eighth : Ideal.ofBits .f32 0x3E000000#32 = ((1 / 8 : ℝ) : EReal) := by
  simp [Ideal.ofBits, Ideal.ieee, -EReal.coe_mul]; norm_num

/-- The word of 1e10 denotes the real 10¹⁰ (it is exactly representable: 5¹⁰ · 2¹⁰). -/
theorem lit_big : Ideal.ofBits .f32 0x501502F9#32 = ((10000000000 : ℝ) : EReal) := by
  simp [Ideal.ofBits, Ideal.ieee, -EReal.coe_mul]; norm_num

/-- The word of -1e10 denotes the real −10¹⁰. -/
theorem lit_negbig : Ideal.ofBits .f32 0xD01502F9#32 = ((-10000000000 : ℝ) : EReal) := by
  simp [Ideal.ofBits, Ideal.ieee, -EReal.coe_mul]; norm_num

/-- The word of −∞ denotes the bottom element. -/
theorem lit_bot : Ideal.ofBits .f32 0xFF800000#32 = ⊥ := by
  simp [Ideal.ofBits, Ideal.ieee]

/-- The masking law on every extended real: kept entries are scaled by ⅛, masked ones are the fill value. It uses only
    x · 1 = x, x · 0 = 0, x − 0 = x, 0 − y = −y and that dividing by the real 8 is multiplying by the real ⅛. -/
theorem mask_law (w : EReal) (keep : Prop) [Decidable keep] :
    Ideal.div w (Ideal.ofBits .f32 0x41000000#32)
        * (if keep then Ideal.ofBits .f32 0x3F800000#32 else Ideal.ofBits .f32 0x00000000#32)
      - Ideal.ofBits .f32 0x501502F9#32
        * (Ideal.ofBits .f32 0x3F800000#32 - (if keep then Ideal.ofBits .f32 0x3F800000#32 else Ideal.ofBits .f32 0x00000000#32))
      = if keep then w * Cert.Spec.eighth else Cert.Spec.fill := by
  rw [lit_eight, lit_one, lit_zero, lit_big, Ideal.div_coe (by norm_num) w]
  unfold Cert.Spec.eighth Cert.Spec.fill
  rw [lit_eighth, lit_negbig]
  by_cases h : keep
  · rw [if_pos h, if_pos h, mul_one]
    have : (1 : EReal) - 1 = 0 := by
      rw [show (1 : EReal) = ((1 : ℝ) : EReal) from rfl, ← EReal.coe_sub]; simp
    rw [this, mul_zero, sub_zero]
  · rw [if_neg h, if_neg h, mul_zero, sub_zero, mul_one, zero_sub, ← EReal.coe_neg]

/-- The lower-triangle bit: row + 0 ≥ column as signed 32-bit words, for coordinates below 1024, is column ≤ row. -/
theorem tril_bit (q k : Nat) (hq : q < 1024) (hk : k < 1024) :
    IntOp.cmpi .sge (IntOp.addi (BitVec.ofNat 32 q) 0#32) (BitVec.ofNat 32 k) = if k ≤ q then 1#1 else 0#1 := by
  unfold IntOp.cmpi IntOp.addi
  simp only [BitVec.add_zero]
  have e : (BitVec.ofNat 32 k).sle (BitVec.ofNat 32 q) = decide (k ≤ q) := by
    rw [BitVec.sle_eq_decide]
    have hk' : (BitVec.ofNat 32 k).toInt = k := by
      rw [BitVec.toInt_eq_toNat_of_lt (by rw [BitVec.toNat_ofNat]; omega), BitVec.toNat_ofNat]; omega
    have hq' : (BitVec.ofNat 32 q).toInt = q := by
      rw [BitVec.toInt_eq_toNat_of_lt (by rw [BitVec.toNat_ofNat]; omega), BitVec.toNat_ofNat]; omega
    rw [hk', hq']
    simp
  rw [e]
  by_cases h : k ≤ q
  · simp [h]
  · simp [h]

end Cert.ReferenceIdeal.RefValue

end
-- ==== Proof.Ref.Scores.lean ====
/- The reference's masked, scaled scores are the specification's: (Q·K)/8 · m − 10¹⁰ · (1 − m) with m the lower-triangle indicator. -/
import proofs.«103352_j54271206752754_2_alg».proof.Proof.Ref.Heads
import proofs.«103352_j54271206752754_2_alg».proof.Proof.Ref.Consts

noncomputable section

namespace Cert.ReferenceIdeal.RefValue

open Cert.ReferenceIdeal Cert.ReferenceIdeal.Gen Idealize.ShloMosaic Idealize.ShloMosaic.ValueIdx Cert.ReferenceIdeal.Read

/-- The lower-triangle array of ones: 1 where column ≤ row, else 0. -/
theorem tril_apply (q k : Fin 1024) :
    val_main_v20 (F := Ideal) (ix2 q k)
      = if k.val ≤ q.val then Ideal.ofBits .f32 0x3F800000#32 else Ideal.ofBits .f32 0x00000000#32 := by
  rw [val_main_v20_apply, val_main_call0_v4_apply, val_main_call0_v2_apply, val_main_call0_v0_apply, val_main_call0_v1_apply,
    val_main_call0_c_apply, val_main_call0_v3_apply, val_main_v19_apply, val_main_cst_0_apply, val_main_call0_v5_apply,
    val_main_call0_cst_apply]
  show Scalar.select (IntOp.cmpi .sge (IntOp.addi (BitVec.ofNat 32 q.val) 0#32) (BitVec.ofNat 32 k.val)) _ _ = _
  rw [tril_bit q.val k.val q.isLt k.isLt]
  by_cases h : k.val ≤ q.val
  · rw [if_pos h, if_pos h]; exact select_one _ _
  · rw [if_neg h, if_neg h]; exact select_zero _ _

/-- The masked score of query row q against key row k, head h, batch b. -/
theorem score_eq (x0 : (⟨S4x1024x1024, .f32⟩ : BufTy).Contents (Elt Ideal)) (x1 : (⟨S1024x3072, .f32⟩ : BufTy).Contents (Elt Ideal))
    (x2 : (⟨S3072, .f32⟩ : BufTy).Contents (Elt Ideal))
    (b : Fin 4) (h : Fin 16) (q k : Fin 1024) :
    val_main_v30 (F := Ideal) x0 x1 x2 (ix4 b h q k)
      = Cert.Spec.score (val_main_v3 (F := Ideal) x0 x1 x2) b h q k := by
  rw [val_main_v30_apply, val_main_v23_apply, val_main_v18_apply, val_main_v16_apply, val_main_v17_apply, val_main_cst_apply,
    val_main_v22_apply, val_main_v21_apply, val_main_v29_apply, val_main_v28_apply, val_main_v27_apply, val_main_v26_apply,
    val_main_cst_2_apply, val_main_v25_apply, val_main_v24_apply, val_main_cst_1_apply]
  have e22 : idx_main_v21 (idx_main_v22 (ix4 b h q k)) = ix2 q k := funext fun a => by
    match a with
    | ⟨0, _⟩ => rfl
    | ⟨1, _⟩ => rfl
  have e29 : idx_main_v28 (idx_main_v29 (ix4 b h q k)) = ix2 q k := funext fun a => by
    match a with
    | ⟨0, _⟩ => rfl
    | ⟨1, _⟩ => rfl
  have el : ∀ d : Fin 64, lidx_main_v16 (ix4 b h q k) d = ix4 b h q d := fun d => funext fun a => by
    match a with
    | ⟨0, _⟩ => rfl
    | ⟨1, _⟩ => rfl
    | ⟨2, _⟩ => rfl
    | ⟨3, _⟩ => rfl
  have er : ∀ d : Fin 64, ridx_main_v16 (ix4 b h q k) d = ix4 b h k d := fun d => funext fun a => by
    match a with
    | ⟨0, _⟩ => rfl
    | ⟨1, _⟩ => rfl
    | ⟨2, _⟩ => rfl
    | ⟨3, _⟩ => rfl
  rw [e22, e29, tril_apply]
  simp only [el, er, head_q, head_k]
  simp only [Ideal.subf_def, Ideal.mulf_def, Ideal.hostDivf_def, Ideal.ofBits_def]
  unfold Cert.Spec.score
  exact mask_law _ (k.val ≤ q.val)

end Cert.ReferenceIdeal.RefValue

end
-- ==== Proof.Ref.Softmax.lean ====
/- The reference's softmax over the key axis (maximum from −∞, subtract, exponential, sum, divide) is the specification's softmax of the row of scores. -/
import proofs.«103352_j54271206752754_2_alg».proof.Proof.Ref.Scores

noncomputable section

namespace Cert.ReferenceIdeal.RefValue

open Cert.ReferenceIdeal Cert.ReferenceIdeal.Gen Idealize.ShloMosaic Idealize.ShloMosaic.ValueIdx Cert.ReferenceIdeal.Read

/-- The row maximum: the reduce with maximum from −∞ over the last axis, then once more the maximum with −∞, is the
    supremum of the row. -/
theorem rowmax_eq (x0 : (⟨S4x1024x1024, .f32⟩ : BufTy).Contents (Elt Ideal)) (x1 : (⟨S1024x3072, .f32⟩ : BufTy).Contents (Elt Ideal))
    (x2 : (⟨S3072, .f32⟩ : BufTy).Contents (Elt Ideal))
    (b : Fin 4) (h : Fin 16) (q : Fin 1024) :
    val_main_v33 (F := Ideal) x0 x1 x2 (ix3 b h q)
      = Cert.Spec.rowMax (fun k => val_main_v30 (F := Ideal) x0 x1 x2 (ix4 b h q k)) := by
  rw [val_main_v33_apply, val_main_v32_apply, val_main_cst_4_apply]
  unfold val_main_v31
  generalize val_main_v30 (F := Ideal) x0 x1 x2 = y
  have hred : S4x16x1024x1024.Reduces [3] S4x16x1024 := by decide
  have key : (Host.reduce (FloatOps.maximumf (F := Ideal) (φ := .f32)) y (val_main_cst_3 (F := Ideal)) reducesTo_S4x16x1024x1024_S4x16x1024_d3 h_S_ (ix3 b h q) : EReal)
      = (Finset.univ : Finset (Fin 1024)).fold max (⊥ : EReal) (fun k => y (ix4 b h q k)) := by
    refine (Host.reduce_eq_fold_single (FloatOps.maximumf (F := Ideal) (φ := .f32)) y _ reducesTo_S4x16x1024x1024_S4x16x1024_d3 hred h_S_ (ix3 b h q)).trans ?_
    rw [val_main_cst_3_apply, Ideal.ofBits_def, lit_bot]
    refine Finset.fold_congr fun k _ => ?_
    exact congrArg y (funext fun a => Fin.ext (by
      match a with
      | ⟨0, _⟩ => rfl
      | ⟨1, _⟩ => rfl
      | ⟨2, _⟩ => rfl
      | ⟨3, _⟩ => rfl))
  rw [key, Ideal.ofBits_def, lit_bot, Ideal.maximumf_def, max_eq_right bot_le]
  rfl

/-- One softmax entry of the reference, over its own row of masked scores. -/
theorem softmax_row_eq (x0 : (⟨S4x1024x1024, .f32⟩ : BufTy).Contents (Elt Ideal)) (x1 : (⟨S1024x3072, .f32⟩ : BufTy).Contents (Elt Ideal))
    (x2 : (⟨S3072, .f32⟩ : BufTy).Contents (Elt Ideal))
    (b : Fin 4) (h : Fin 16) (q k : Fin 1024) :
    val_main_v41 (F := Ideal) x0 x1 x2 (ix4 b h q k)
      = Cert.Spec.softmax (fun k' => val_main_v30 (F := Ideal) x0 x1 x2 (ix4 b h q k')) k := by
  have e34 : ∀ k' : Fin 1024, idx_main_v34 (idx_main_v35 (ix4 b h q k')) = ix3 b h q := fun k' => funext fun a => by
    match a with
    | ⟨0, _⟩ => rfl
    | ⟨1, _⟩ => rfl
    | ⟨2, _⟩ => rfl
  have e39 : idx_main_v39 (idx_main_v40 (ix4 b h q k)) = ix3 b h q := funext fun a => by
    match a with
    | ⟨0, _⟩ => rfl
    | ⟨1, _⟩ => rfl
    | ⟨2, _⟩ => rfl
  have e38 : ∀ k' : Fin 1024, idx_main_v38 (ix3 b h q) k' = ix4 b h q k' := fun k' => funext fun a => by
    match a with
    | ⟨0, _⟩ => rfl
    | ⟨1, _⟩ => rfl
    | ⟨2, _⟩ => rfl
    | ⟨3, _⟩ => rfl
  have hexp : ∀ k' : Fin 1024, val_main_v37 (F := Ideal) x0 x1 x2 (ix4 b h q k')
      = Ideal.exp (val_main_v30 (F := Ideal) x0 x1 x2 (ix4 b h q k')
          - Cert.Spec.rowMax (fun k'' => val_main_v30 (F := Ideal) x0 x1 x2 (ix4 b h q k''))) := fun k' => by
    rw [val_main_v37_apply, val_main_v36_apply, val_main_v35_apply, val_main_v34_apply, e34 k', rowmax_eq]
    rfl
  rw [val_main_v41_apply, val_main_v40_apply, val_main_v39_apply, e39, val_main_v38_apply, val_main_cst_5_apply, hexp k]
  simp only [e38, hexp]
  rw [Ideal.ofBits_def, lit_zero, zero_add]
  rfl

/-- One softmax entry of the reference is the specification's softmax of the specification's scores. -/
theorem softmax_eq (x0 : (⟨S4x1024x1024, .f32⟩ : BufTy).Contents (Elt Ideal)) (x1 : (⟨S1024x3072, .f32⟩ : BufTy).Contents (Elt Ideal))
    (x2 : (⟨S3072, .f32⟩ : BufTy).Contents (Elt Ideal))
    (b : Fin 4) (h : Fin 16) (q k : Fin 1024) :
    val_main_v41 (F := Ideal) x0 x1 x2 (ix4 b h q k)
      = Cert.Spec.softmax (Cert.Spec.score (val_main_v3 (F := Ideal) x0 x1 x2) b h q) k := by
  rw [softmax_row_eq]
  exact congrArg (fun f => Cert.Spec.softmax f k) (funext fun k' => score_eq x0 x1 x2 b h q k')

end Cert.ReferenceIdeal.RefValue

end
-- ==== Proof.Ref.Attn.lean ====
/- The reference's attention output, heads merged back to [4,1024,1024], is the specification's. -/
import proofs.«103352_j54271206752754_2_alg».proof.Proof.Ref.Softmax

noncomputable section

namespace Cert.ReferenceIdeal.RefValue

open Cert.ReferenceIdeal Cert.ReferenceIdeal.Gen Idealize.ShloMosaic Idealize.ShloMosaic.ValueIdx Cert.ReferenceIdeal.Read

/-- Entry (b, s, j) with j = 64h + d: the transpose [4,16,1024,64] → [4,1024,16,64] and the reshape to [4,1024,1024]
    read entry (b, h, s, d) of the probabilities-times-values contraction. -/
theorem attn_eq (x0 : (⟨S4x1024x1024, .f32⟩ : BufTy).Contents (Elt Ideal)) (x1 : (⟨S1024x3072, .f32⟩ : BufTy).Contents (Elt Ideal))
    (x2 : (⟨S3072, .f32⟩ : BufTy).Contents (Elt Ideal)) :
    val_main_v44 (F := Ideal) x0 x1 x2 = Cert.Spec.attnA (val_main_v3 (F := Ideal) x0 x1 x2) := by
  funext i
  obtain ⟨b, s, j, rfl⟩ : ∃ (b : Fin 4) (s : Fin 1024) (j : Fin 1024), i = ix3 b s j := ⟨i 0, i 1, i 2, eq_ix3 i⟩
  have hb := b.isLt; have hs := s.isLt; have hj := j.isLt
  rw [val_main_v44_apply, val_main_v43_apply, val_main_v42_apply]
  have e : idx_main_v43 (idx_main_v44 (ix3 b s j))
      = ix4 b (⟨j.val / 64, by omega⟩ : Fin 16) s (⟨j.val % 64, Nat.mod_lt _ (by decide)⟩ : Fin 64) :=
    funext fun a => Fin.ext (by
      match a with
      | ⟨0, _⟩ =>
        show ((b.val * 1024 + s.val) * 1024 + j.val) / 1048576 = b.val
        omega
      | ⟨1, _⟩ =>
        show ((b.val * 1024 + s.val) * 1024 + j.val) / 64 % 16 = j.val / 64
        omega
      | ⟨2, _⟩ =>
        show ((b.val * 1024 + s.val) * 1024 + j.val) / 1024 % 1024 = s.val
        omega
      | ⟨3, _⟩ =>
        show ((b.val * 1024 + s.val) * 1024 + j.val) % 64 = j.val % 64
        omega)
  rw [e]
  have el : ∀ (hh : Fin 16) (dd : Fin 64) (k : Fin 1024), lidx_main_v42 (ix4 b hh s dd) k = ix4 b hh s k := fun hh dd k => funext fun a => by
    match a with
    | ⟨0, _⟩ => rfl
    | ⟨1, _⟩ => rfl
    | ⟨2, _⟩ => rfl
    | ⟨3, _⟩ => rfl
  have er : ∀ (hh : Fin 16) (dd : Fin 64) (k : Fin 1024), ridx_main_v42 (ix4 b hh s dd) k = ix4 b hh k dd := fun hh dd k => funext fun a => by
    match a with
    | ⟨0, _⟩ => rfl
    | ⟨1, _⟩ => rfl
    | ⟨2, _⟩ => rfl
    | ⟨3, _⟩ => rfl
  simp only [el, er, softmax_eq, head_v]
  rfl

end Cert.ReferenceIdeal.RefValue

end
-- ==== Proof.RefValue.lean ====
/- The reference's results are the specification's functions of the argument arrays. -/
import proofs.«103352_j54271206752754_2_alg».proof.Proof.Gen.ReferenceIdeal.Read
import proofs.«103352_j54271206752754_2_alg».proof.Proof.Spec
import proofs.«103352_j54271206752754_2_alg».proof.Proof.Ref.Present
import proofs.«103352_j54271206752754_2_alg».proof.Proof.Ref.Attn
import Idealize.ShloMosaic.Lib.ValueIdx
import Idealize.ShloMosaic.Lib.Pipeline.Value
import Idealize.ShloMosaic.PureOps.Ideal.Laws
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The second result: keys and values per head. -/
theorem ref_present (x0 : (⟨S4x1024x1024, .f32⟩ : BufTy).Contents (Elt Ideal)) (x1 : (⟨S1024x3072, .f32⟩ : BufTy).Contents (Elt Ideal))
    (x2 : (⟨S3072, .f32⟩ : BufTy).Contents (Elt Ideal)) :
    Cert.ReferenceIdeal.Read.val_main_v15 (F := Ideal) x0 x1 x2 = Cert.Spec.present x0 x1 x2 :=
  present_eq x0 x1 x2

/-- The first result: the projection of the attention of the first projection. -/
theorem ref_out (x0 : (⟨S4x1024x1024, .f32⟩ : BufTy).Contents (Elt Ideal)) (x1 : (⟨S1024x3072, .f32⟩ : BufTy).Contents (Elt Ideal))
    (x2 : (⟨S3072, .f32⟩ : BufTy).Contents (Elt Ideal))
    (x3 : (⟨S1024x1024, .f32⟩ : BufTy).Contents (Elt Ideal)) (x4 : (⟨S1024, .f32⟩ : BufTy).Contents (Elt Ideal)) :
    Cert.ReferenceIdeal.Read.val_main_v48 (F := Ideal) x0 x1 x2 x3 x4 = Cert.Spec.outA x0 x1 x2 x3 x4 := by
  rw [out_eq, attn_eq, qkv_eq]
  rfl

/-- The reference's run with the specification in its post: every weakly fair execution terminates with the two results
    the specification's functions of the arguments, and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48)
          = Cert.Spec.outA (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_v15)
          = Cert.Spec.present (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c).1.trans ((Cert.ReferenceIdeal.Read.val_main_v48_eq (F := Ideal) m c).trans (ref_out _ _ _ _ _)),
        (h c).2.1.trans ((Cert.ReferenceIdeal.Read.val_main_v15_eq (F := Ideal) _ _ _).trans (ref_present _ _ _)),
        (h c).2.2⟩)
    (Cert.ReferenceIdeal.Value.run (F := Ideal) m ρ)

end Cert.ReferenceIdeal.RefValue

end
-- ==== Proof.lean ====
/- The kernel program — a QKV projection, causal attention over two heads per 128-lane column block, an output
   projection: three pipelined kernel regions among stretches of host operations — against its jnp reference.
   Frames: each program's run terminates, faults nowhere and leaves the argument arrays as launched; for the two kernel
   programs this is the run of @main's seven segments read at the arguments, for the reference its run with the results
   dropped. The idealization rewrote nothing, so it is preserved trivially. At the ideal instance both programs' results
   are the specification's functions of the arguments: qkv = x·W₁ + b₁; keys and values per head; softmax of the masked,
   scaled scores along the keys; the heads merged; the second projection. The kernel's tiling (row blocks of the
   projections, one batch and two heads per point of the attention) reassembles to the whole arrays; its ⅛ scale is the
   reference's quotient by 8, and its select of the fill value is the reference's arithmetic mask on every extended real. -/
import proofs.«103352_j54271206752754_2_alg».proof.Defs
import proofs.«103352_j54271206752754_2_alg».proof.Proof.Gen.Kernel
import proofs.«103352_j54271206752754_2_alg».proof.Proof.Gen.KernelIdeal
import proofs.«103352_j54271206752754_2_alg».proof.Proof.Gen.ReferenceIdeal
import proofs.«103352_j54271206752754_2_alg».proof.Proof.Gen.Pre_finite_inputs
import proofs.«103352_j54271206752754_2_alg».proof.Proof.K.Keep
import proofs.«103352_j54271206752754_2_alg».proof.Proof.KI.Keep
import proofs.«103352_j54271206752754_2_alg».proof.Proof.KI.Value
import proofs.«103352_j54271206752754_2_alg».proof.Proof.RefValue
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Hand.frame (F := Bits) m ρ

theorem frame_kernelIdeal : @Cert.frame_KernelIdeal Cert.KernelIdeal.Gen.facts Cert.Pre_finite_inputs.Gen.facts :=
  fun m ρ _ => Cert.KernelIdeal.Hand.frame (F := Ideal) m ρ

theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.Value.run (F := Ideal) m ρ)

theorem preserves : Cert.preserves_Kernel_KernelIdeal := trivial

/-- Both idealized programs end with the specification's two arrays of the arguments, which agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, _, Cert.KernelIdeal.KernelValue.run_spec m ρ, ?_⟩
  refine (θ_run Cert.ReferenceIdeal.defs _ _).mono (fun _ h c => ⟨?_, ?_, (h c).2.2⟩) (Cert.ReferenceIdeal.RefValue.run_spec m' ρ')
  · rw [(h c).1, (hagree c).1, (hagree c).2.1, (hagree c).2.2.1, (hagree c).2.2.2.1, (hagree c).2.2.2.2]
  · rw [(h c).2.1, (hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
